-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x128 : Shape := ⟨2, ![16000, 128]⟩
abbrev S512x128 : Shape := ⟨2, ![512, 128]⟩
abbrev S2x256000 : Shape := ⟨2, ![2, 256000]⟩
abbrev S256000 : Shape := ⟨1, ![256000]⟩
abbrev S16000 : Shape := ⟨1, ![16000]⟩
abbrev S2x512000 : Shape := ⟨2, ![2, 512000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S256 : Shape := ⟨1, ![256]⟩
abbrev S384x512 : Shape := ⟨2, ![384, 512]⟩
abbrev S512 : Shape := ⟨1, ![512]⟩
abbrev S2 : Shape := ⟨1, ![2]⟩
abbrev S_ : Shape := ⟨0, ![]⟩

class Facts : Prop where
  bcast_S_S16000x128 : S_.BroadcastsInDim S16000x128 (![] : Fin 0 → Fin S16000x128.rank)
  reducesTo_S16000x128_S_d0_1 : S16000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S2 : S_.BroadcastsInDim S2 (![] : Fin 0 → Fin S2.rank)
  reducesTo_S2_S_d0 : S2.ReducesTo [0] S_

variable [Facts]

def fn_part5 {F : FTy → Type} [FloatOps F] (main_arg22 : FVec F S2 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S2 .f32 := Host.absf main_arg22
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg18 : FVec F S256x128 .f32) (main_arg19 : FVec F S128 .f32) (main_arg20 : FVec F S128x1 .f32) (main_arg21 : FVec F S1 .f32) (main_arg22 : FVec F S2 .f32) (main_v63 : IVec S_ 1) (main_v67 : IVec S_ 1) : IVec S_ 1 :=
  let main_v68 : IVec S_ 1 := andi main_v63 main_v67
  let main_v69 : FVec F S256x128 .f32 := Host.absf main_arg18
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg20
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg22 main_v83 main_v84 main_cst_32

def fn_part3 {F : FTy → Type} [FloatOps F] (main_arg15 : FVec F S512 .f32) (main_arg16 : FVec F S512x128 .f32) (main_arg17 : FVec F S128 .f32) (main_arg18 : FVec F S256x128 .f32) (main_arg19 : FVec F S128 .f32) (main_arg20 : FVec F S128x1 .f32) (main_arg21 : FVec F S1 .f32) (main_arg22 : FVec F S2 .f32) (main_v48 : IVec S_ 1) (main_v49 : FVec F S384x512 .f32) (main_v50 : FVec F S384x512 .f32) : IVec S_ 1 :=
  let main_v51 : IVec S384x512 1 := cmpf .olt main_v49 main_v50
  let main_c_19 : IVec S_ 1 := constantI S_ 1 1#1
  let main_v52 : IVec S_ 1 := (fun x v => Host.reduce IntOp.andi x v reducesTo_S384x512_S_d0_1 h_S_) main_v51 main_c_19
  let main_v53 : IVec S_ 1 := andi main_v48 main_v52
  let main_v54 : FVec F S512 .f32 := Host.absf main_arg15
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x128 .f32 := Host.absf main_arg16
  let main_cst_22 : FVec F S_ .f32 := constant S_ .f32 0x7F800000#32
  let main_v60 : FVec F S512x128 .f32 := broadcastInDim S512x128 ![] bcast_S_S512x128 main_cst_22
  let main_v61 : IVec S512x128 1 := cmpf .olt main_v59 main_v60
  let main_c_23 : IVec S_ 1 := constantI S_ 1 1#1
  let main_v62 : IVec S_ 1 := (fun x v => Host.reduce IntOp.andi x v reducesTo_S512x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_v63 main_v67

def fn_part2 {F : FTy → Type} [FloatOps F] (main_arg11 : FVec F S256 .f32) (main_arg12 : FVec F S256x128 .f32) (main_arg13 : FVec F S128 .f32) (main_arg14 : FVec F S384x512 .f32) (main_arg15 : FVec F S512 .f32) (main_arg16 : FVec F S512x128 .f32) (main_arg17 : FVec F S128 .f32) (main_arg18 : FVec F S256x128 .f32) (main_arg19 : FVec F S128 .f32) (main_arg20 : FVec F S128x1 .f32) (main_arg21 : FVec F S1 .f32) (main_arg22 : FVec F S2 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg12
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x512 .f32 := Host.absf main_arg14
  let main_cst_18 : FVec F S_ .f32 := constant S_ .f32 0x7F800000#32
  let main_v50 : FVec F S384x512 .f32 := broadcastInDim S384x512 ![] bcast_S_S384x512 main_cst_18
  fn_part3 (F := F) main_arg15 main_arg16 main_arg17 main_arg18 main_arg19 main_arg20 main_arg21 main_arg22 main_v48 main_v49 main_v50

def fn_part1 {F : FTy → Type} [FloatOps F] (main_arg8 : FVec F S128x1 .f32) (main_arg9 : FVec F S1 .f32) (main_arg10 : FVec F S256x256 .f32) (main_arg11 : FVec F S256 .f32) (main_arg12 : FVec F S256x128 .f32) (main_arg13 : FVec F S128 .f32) (main_arg14 : FVec F S384x512 .f32) (main_arg15 : FVec F S512 .f32) (main_arg16 : FVec F S512x128 .f32) (main_arg17 : FVec F S128 .f32) (main_arg18 : FVec F S256x128 .f32) (main_arg19 : FVec F S128 .f32) (main_arg20 : FVec F S128x1 .f32) (main_arg21 : FVec F S1 .f32) (main_arg22 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg8
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg9
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_v33

def fn {F : FTy → Type} [FloatOps F] (main_arg0 : FVec F S16000x128 .f32) (main_arg1 : FVec F S512x128 .f32) (main_arg2 : IVec S2x256000 32) (main_arg3 : IVec S256000 32) (main_arg4 : IVec S16000 32) (main_arg5 : IVec S2x512000 32) (main_arg6 : FVec F S256x128 .f32) (main_arg7 : FVec F S128 .f32) (main_arg8 : FVec F S128x1 .f32) (main_arg9 : FVec F S1 .f32) (main_arg10 : FVec F S256x256 .f32) (main_arg11 : FVec F S256 .f32) (main_arg12 : FVec F S256x128 .f32) (main_arg13 : FVec F S128 .f32) (main_arg14 : FVec F S384x512 .f32) (main_arg15 : FVec F S512 .f32) (main_arg16 : FVec F S512x128 .f32) (main_arg17 : FVec F S128 .f32) (main_arg18 : FVec F S256x128 .f32) (main_arg19 : FVec F S128 .f32) (main_arg20 : FVec F S128x1 .f32) (main_arg21 : FVec F S1 .f32) (main_arg22 : FVec F S2 .f32) : IVec S_ 1 :=
  let main_v0 : FVec F S16000x128 .f32 := Host.absf main_arg0
  let main_cst : FVec F S_ .f32 := constant S_ .f32 0x7F800000#32
  let main_v1 : FVec F S16000x128 .f32 := broadcastInDim S16000x128 ![] bcast_S_S16000x128 main_cst
  let main_v2 : IVec S16000x128 1 := cmpf .olt main_v0 main_v1
  let main_c : IVec S_ 1 := constantI S_ 1 1#1
  let main_v3 : IVec S_ 1 := (fun x v => Host.reduce IntOp.andi x v reducesTo_S16000x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_v13 main_v16
-- ==== Kernel.lean ====
abbrev S16000x128 : Shape := ⟨2, ![16000, 128]⟩
abbrev S512x128 : Shape := ⟨2, ![512, 128]⟩
abbrev S2x256000 : Shape := ⟨2, ![2, 256000]⟩
abbrev S256000 : Shape := ⟨1, ![256000]⟩
abbrev S16000 : Shape := ⟨1, ![16000]⟩
abbrev S2x512000 : Shape := ⟨2, ![2, 512000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S256 : Shape := ⟨1, ![256]⟩
abbrev S384x512 : Shape := ⟨2, ![384, 512]⟩
abbrev S512 : Shape := ⟨1, ![512]⟩
abbrev S2 : Shape := ⟨1, ![2]⟩
abbrev S1x256000 : Shape := ⟨2, ![1, 256000]⟩
abbrev S1x512000 : Shape := ⟨2, ![1, 512000]⟩
abbrev S512000 : Shape := ⟨1, ![512000]⟩
abbrev S_ : Shape := ⟨0, ![]⟩
abbrev S256000x1 : Shape := ⟨2, ![256000, 1]⟩
abbrev S256000x128 : Shape := ⟨2, ![256000, 128]⟩
abbrev S16000x1 : Shape := ⟨2, ![16000, 1]⟩
abbrev S128x128 : Shape := ⟨2, ![128, 128]⟩
abbrev S1x128 : Shape := ⟨2, ![1, 128]⟩
abbrev S1x1 : Shape := ⟨2, ![1, 1]⟩
abbrev S2000x128 : Shape := ⟨2, ![2000, 128]⟩
abbrev S2000x1 : Shape := ⟨2, ![2000, 1]⟩
abbrev S2000 : Shape := ⟨1, ![2000]⟩
abbrev S512000x1 : Shape := ⟨2, ![512000, 1]⟩
abbrev S128x256 : Shape := ⟨2, ![128, 256]⟩
abbrev S256000x256 : Shape := ⟨2, ![256000, 256]⟩
abbrev S2048x128 : Shape := ⟨2, ![2048, 128]⟩
abbrev S2048x256 : Shape := ⟨2, ![2048, 256]⟩
abbrev S512000x256 : Shape := ⟨2, ![512000, 256]⟩
abbrev S16000x256 : Shape := ⟨2, ![16000, 256]⟩
abbrev S1x256 : Shape := ⟨2, ![1, 256]⟩
abbrev S512000x128 : Shape := ⟨2, ![512000, 128]⟩
abbrev S1x2 : Shape := ⟨2, ![1, 2]⟩
abbrev S128x512 : Shape := ⟨2, ![128, 512]⟩
abbrev S1x512 : Shape := ⟨2, ![1, 512]⟩
abbrev S2048x1 : Shape := ⟨2, ![2048, 1]⟩
abbrev S2048x512 : Shape := ⟨2, ![2048, 512]⟩

abbrev nBuf : Space → Nat
  | .hbm => 263
  | .vmem => 48
  | .smem => 0
  | _ => 0

abbrev hbmTy0_0 (i : Nat) : BufTy := match i % 128 with
  | 0 => ⟨S16000x128, .f32⟩
  | 1 => ⟨S512x128, .f32⟩
  | 2 => ⟨S2x256000, .i32⟩
  | 3 => ⟨S256000, .i32⟩
  | 4 => ⟨S16000, .i32⟩
  | 5 => ⟨S2x512000, .i32⟩
  | 6 => ⟨S256x128, .f32⟩
  | 7 => ⟨S128, .f32⟩
  | 8 => ⟨S128x1, .f32⟩
  | 9 => ⟨S1, .f32⟩
  | 10 => ⟨S256x256, .f32⟩
  | 11 => ⟨S256, .f32⟩
  | 12 => ⟨S256x128, .f32⟩
  | 13 => ⟨S128, .f32⟩
  | 14 => ⟨S384x512, .f32⟩
  | 15 => ⟨S512, .f32⟩
  | 16 => ⟨S512x128, .f32⟩
  | 17 => ⟨S128, .f32⟩
  | 18 => ⟨S256x128, .f32⟩
  | 19 => ⟨S128, .f32⟩
  | 20 => ⟨S128x1, .f32⟩
  | 21 => ⟨S1, .f32⟩
  | 22 => ⟨S2, .f32⟩
  | 23 => ⟨S1x256000, .i32⟩
  | 24 => ⟨S256000, .i32⟩
  | 25 => ⟨S1x256000, .i32⟩
  | 26 => ⟨S256000, .i32⟩
  | 27 => ⟨S1x512000, .i32⟩
  | 28 => ⟨S512000, .i32⟩
  | 29 => ⟨S1x512000, .i32⟩
  | 30 => ⟨S512000, .i32⟩
  | 31 => ⟨S_, .i32⟩
  | 32 => ⟨S256000, .i32⟩
  | 33 => ⟨S256000, .i1⟩
  | 34 => ⟨S_, .i32⟩
  | 35 => ⟨S256000, .i32⟩
  | 36 => ⟨S256000, .i32⟩
  | 37 => ⟨S256000, .i32⟩
  | 38 => ⟨S256000x1, .i32⟩
  | 39 => ⟨S256000x128, .f32⟩
  | 40 => ⟨S_, .i32⟩
  | 41 => ⟨S256000, .i32⟩
  | 42 => ⟨S256000, .i1⟩
  | 43 => ⟨S_, .i32⟩
  | 44 => ⟨S256000, .i32⟩
  | 45 => ⟨S256000, .i32⟩
  | 46 => ⟨S256000, .i32⟩
  | 47 => ⟨S256000x1, .i32⟩
  | 48 => ⟨S256000x128, .f32⟩
  | 49 => ⟨S_, .i32⟩
  | 50 => ⟨S256000, .i32⟩
  | 51 => ⟨S256000, .i1⟩
  | 52 => ⟨S_, .i32⟩
  | 53 => ⟨S256000, .i32⟩
  | 54 => ⟨S256000, .i32⟩
  | 55 => ⟨S256000, .i32⟩
  | 56 => ⟨S256000x1, .i32⟩
  | 57 => ⟨S256000, .i32⟩
  | 58 => ⟨S_, .i32⟩
  | 59 => ⟨S256000, .i32⟩
  | 60 => ⟨S256000, .i1⟩
  | 61 => ⟨S_, .i32⟩
  | 62 => ⟨S256000, .i32⟩
  | 63 => ⟨S256000, .i32⟩
  | 64 => ⟨S256000, .i32⟩
  | 65 => ⟨S256000x1, .i32⟩
  | 66 => ⟨S256000x128, .f32⟩
  | 67 => ⟨S_, .i32⟩
  | 68 => ⟨S16000, .i32⟩
  | 69 => ⟨S16000, .i1⟩
  | 70 => ⟨S_, .i32⟩
  | 71 => ⟨S16000, .i32⟩
  | 72 => ⟨S16000, .i32⟩
  | 73 => ⟨S16000, .i32⟩
  | 74 => ⟨S16000x1, .i32⟩
  | 75 => ⟨S16000x128, .f32⟩
  | 76 => ⟨S128x128, .f32⟩
  | 77 => ⟨S128x128, .f32⟩
  | 78 => ⟨S1x128, .f32⟩
  | 79 => ⟨S128, .f32⟩
  | 80 => ⟨S1x128, .f32⟩
  | 81 => ⟨S1x1, .f32⟩
  | 82 => ⟨S16000x1, .f32⟩
  | 83 => ⟨S16000, .f32⟩
  | 84 => ⟨S_, .i32⟩
  | 85 => ⟨S512000, .i32⟩
  | 86 => ⟨S512000, .i1⟩
  | 87 => ⟨S_, .i32⟩
  | 88 => ⟨S512000, .i32⟩
  | 89 => ⟨S512000, .i32⟩
  | 90 => ⟨S512000, .i32⟩
  | 91 => ⟨S512000x1, .i32⟩
  | 92 => ⟨S512000, .f32⟩
  | 93 => ⟨S_, .i32⟩
  | 94 => ⟨S512000, .i32⟩
  | 95 => ⟨S512000, .i1⟩
  | 96 => ⟨S_, .i32⟩
  | 97 => ⟨S512000, .i32⟩
  | 98 => ⟨S512000, .i32⟩
  | 99 => ⟨S512000, .i32⟩
  | 100 => ⟨S512000x1, .i32⟩
  | 101 => ⟨S512000, .f32⟩
  | 102 => ⟨S_, .f32⟩
  | 103 => ⟨S256000, .f32⟩
  | 104 => ⟨S512000x1, .i32⟩
  | 105 => ⟨S256000, .f32⟩
  | 106 => ⟨S_, .f32⟩
  | 107 => ⟨S256000, .f32⟩
  | 108 => ⟨S256000, .i1⟩
  | 109 => ⟨S_, .f32⟩
  | 110 => ⟨S256000, .f32⟩
  | 111 => ⟨S256000, .i1⟩
  | 112 => ⟨S_, .f32⟩
  | 113 => ⟨S_, .f32⟩
  | 114 => ⟨S256000, .f32⟩
  | 115 => ⟨S256000, .f32⟩
  | 116 => ⟨S_, .f32⟩
  | 117 => ⟨S256000, .f32⟩
  | 118 => ⟨S256000, .f32⟩
  | 119 => ⟨S_, .f32⟩
  | 120 => ⟨S_, .f32⟩
  | 121 => ⟨S256000, .f32⟩
  | 122 => ⟨S256000, .f32⟩
  | 123 => ⟨S_, .f32⟩
  | 124 => ⟨S512000, .f32⟩
  | 125 => ⟨S_, .f32⟩
  | 126 => ⟨S16000, .f32⟩
  | 127 => ⟨S512000x1, .i32⟩
  | _ => ⟨S16000x128, .f32⟩

abbrev hbmTy0_1 (i : Nat) : BufTy := match i % 128 with
  | 0 => ⟨S16000, .f32⟩
  | 1 => ⟨S_, .f32⟩
  | 2 => ⟨S16000, .f32⟩
  | 3 => ⟨S16000, .i1⟩
  | 4 => ⟨S_, .f32⟩
  | 5 => ⟨S16000, .f32⟩
  | 6 => ⟨S16000, .i1⟩
  | 7 => ⟨S_, .f32⟩
  | 8 => ⟨S_, .f32⟩
  | 9 => ⟨S16000, .f32⟩
  | 10 => ⟨S16000, .f32⟩
  | 11 => ⟨S_, .f32⟩
  | 12 => ⟨S16000, .f32⟩
  | 13 => ⟨S16000, .f32⟩
  | 14 => ⟨S_, .f32⟩
  | 15 => ⟨S_, .f32⟩
  | 16 => ⟨S16000, .f32⟩
  | 17 => ⟨S16000, .f32⟩
  | 18 => ⟨S128x256, .f32⟩
  | 19 => ⟨S128x256, .f32⟩
  | 20 => ⟨S256000x256, .f32⟩
  | 21 => ⟨S_, .i32⟩
  | 22 => ⟨S512000, .i32⟩
  | 23 => ⟨S512000, .i1⟩
  | 24 => ⟨S_, .i32⟩
  | 25 => ⟨S512000, .i32⟩
  | 26 => ⟨S512000, .i32⟩
  | 27 => ⟨S512000, .i32⟩
  | 28 => ⟨S512000x1, .i32⟩
  | 29 => ⟨S512000, .f32⟩
  | 30 => ⟨S512000x1, .f32⟩
  | 31 => ⟨S_, .i32⟩
  | 32 => ⟨S512000, .i32⟩
  | 33 => ⟨S512000, .i1⟩
  | 34 => ⟨S_, .i32⟩
  | 35 => ⟨S512000, .i32⟩
  | 36 => ⟨S512000, .i32⟩
  | 37 => ⟨S512000, .i32⟩
  | 38 => ⟨S512000x1, .i32⟩
  | 39 => ⟨S512000x256, .f32⟩
  | 40 => ⟨S512000x256, .f32⟩
  | 41 => ⟨S512000x256, .f32⟩
  | 42 => ⟨S_, .f32⟩
  | 43 => ⟨S16000x256, .f32⟩
  | 44 => ⟨S512000x1, .i32⟩
  | 45 => ⟨S16000x256, .f32⟩
  | 46 => ⟨S_, .i32⟩
  | 47 => ⟨S512000, .i32⟩
  | 48 => ⟨S512000, .i1⟩
  | 49 => ⟨S_, .i32⟩
  | 50 => ⟨S512000, .i32⟩
  | 51 => ⟨S512000, .i32⟩
  | 52 => ⟨S512000, .i32⟩
  | 53 => ⟨S512000x1, .i32⟩
  | 54 => ⟨S512000, .f32⟩
  | 55 => ⟨S512000x1, .f32⟩
  | 56 => ⟨S_, .i32⟩
  | 57 => ⟨S512000, .i32⟩
  | 58 => ⟨S512000, .i1⟩
  | 59 => ⟨S_, .i32⟩
  | 60 => ⟨S512000, .i32⟩
  | 61 => ⟨S512000, .i32⟩
  | 62 => ⟨S512000, .i32⟩
  | 63 => ⟨S512000x1, .i32⟩
  | 64 => ⟨S512000x256, .f32⟩
  | 65 => ⟨S512000x256, .f32⟩
  | 66 => ⟨S512000x256, .f32⟩
  | 67 => ⟨S_, .f32⟩
  | 68 => ⟨S256000x256, .f32⟩
  | 69 => ⟨S512000x1, .i32⟩
  | 70 => ⟨S256000x256, .f32⟩
  | 71 => ⟨S1x256, .f32⟩
  | 72 => ⟨S256000x128, .f32⟩
  | 73 => ⟨S_, .i32⟩
  | 74 => ⟨S512000, .i32⟩
  | 75 => ⟨S512000, .i1⟩
  | 76 => ⟨S_, .i32⟩
  | 77 => ⟨S512000, .i32⟩
  | 78 => ⟨S512000, .i32⟩
  | 79 => ⟨S512000, .i32⟩
  | 80 => ⟨S512000x1, .i32⟩
  | 81 => ⟨S512000, .f32⟩
  | 82 => ⟨S512000x1, .f32⟩
  | 83 => ⟨S_, .i32⟩
  | 84 => ⟨S512000, .i32⟩
  | 85 => ⟨S512000, .i1⟩
  | 86 => ⟨S_, .i32⟩
  | 87 => ⟨S512000, .i32⟩
  | 88 => ⟨S512000, .i32⟩
  | 89 => ⟨S512000, .i32⟩
  | 90 => ⟨S512000x1, .i32⟩
  | 91 => ⟨S512000x128, .f32⟩
  | 92 => ⟨S512000x128, .f32⟩
  | 93 => ⟨S512000x128, .f32⟩
  | 94 => ⟨S_, .f32⟩
  | 95 => ⟨S16000x128, .f32⟩
  | 96 => ⟨S512000x1, .i32⟩
  | 97 => ⟨S16000x128, .f32⟩
  | 98 => ⟨S_, .i32⟩
  | 99 => ⟨S512000, .i32⟩
  | 100 => ⟨S512000, .i1⟩
  | 101 => ⟨S_, .i32⟩
  | 102 => ⟨S512000, .i32⟩
  | 103 => ⟨S512000, .i32⟩
  | 104 => ⟨S512000, .i32⟩
  | 105 => ⟨S512000x1, .i32⟩
  | 106 => ⟨S512000, .f32⟩
  | 107 => ⟨S512000x1, .f32⟩
  | 108 => ⟨S_, .i32⟩
  | 109 => ⟨S512000, .i32⟩
  | 110 => ⟨S512000, .i1⟩
  | 111 => ⟨S_, .i32⟩
  | 112 => ⟨S512000, .i32⟩
  | 113 => ⟨S512000, .i32⟩
  | 114 => ⟨S512000, .i32⟩
  | 115 => ⟨S512000x1, .i32⟩
  | 116 => ⟨S512000x128, .f32⟩
  | 117 => ⟨S512000x128, .f32⟩
  | 118 => ⟨S512000x128, .f32⟩
  | 119 => ⟨S_, .f32⟩
  | 120 => ⟨S256000x128, .f32⟩
  | 121 => ⟨S512000x1, .i32⟩
  | 122 => ⟨S256000x128, .f32⟩
  | 123 => ⟨S1x2, .f32⟩
  | 124 => ⟨S128x512, .f32⟩
  | 125 => ⟨S128x512, .f32⟩
  | 126 => ⟨S128x512, .f32⟩
  | 127 => ⟨S1x512, .f32⟩
  | _ => ⟨S16000x128, .f32⟩

abbrev hbmTy0_2 (i : Nat) : BufTy := match i % 128 with
  | 0 => ⟨S1x128, .f32⟩
  | 1 => ⟨S1x128, .f32⟩
  | 2 => ⟨S128x128, .f32⟩
  | 3 => ⟨S128x128, .f32⟩
  | 4 => ⟨S1x128, .f32⟩
  | 5 => ⟨S1x1, .f32⟩
  | 6 => ⟨S256000x1, .f32⟩
  | _ => ⟨S16000x128, .f32⟩

abbrev hbmTy (i : Nat) : BufTy := match i / 128 with
  | 0 => hbmTy0_0 i
  | 1 => hbmTy0_1 i
  | 2 => hbmTy0_2 i
  | _ => ⟨S16000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S2000x1, .f32⟩
  | .local _ .vmem, ⟨10, _⟩ => ⟨S2000x1, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S128x256, .f32⟩
  | .local _ .vmem, ⟨16, _⟩ => ⟨S128x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S1x256, .f32⟩
  | .local _ .vmem, ⟨22, _⟩ => ⟨S256x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S1x2, .f32⟩
  | .local _ .vmem, ⟨34, _⟩ => ⟨S128x512, .f32⟩
  | .local _ .vmem, ⟨35, _⟩ => ⟨S128x512, .f32⟩
  | .local _ .vmem, ⟨36, _⟩ => ⟨S128x512, .f32⟩
  | .local _ .vmem, ⟨37, _⟩ => ⟨S1x512, .f32⟩
  | .local _ .vmem, ⟨38, _⟩ => ⟨S512x128, .f32⟩
  | .local _ .vmem, ⟨39, _⟩ => ⟨S1x128, .f32⟩
  | .local _ .vmem, ⟨40, _⟩ => ⟨S1x128, .f32⟩
  | .local _ .vmem, ⟨41, _⟩ => ⟨S128x128, .f32⟩
  | .local _ .vmem, ⟨42, _⟩ => ⟨S128x128, .f32⟩
  | .local _ .vmem, ⟨43, _⟩ => ⟨S1x128, .f32⟩
  | .local _ .vmem, ⟨44, _⟩ => ⟨S128x1, .f32⟩
  | .local _ .vmem, ⟨45, _⟩ => ⟨S1x1, .f32⟩
  | .local _ .vmem, ⟨46, _⟩ => ⟨S2048x1, .f32⟩
  | .local _ .vmem, ⟨47, _⟩ => ⟨S2048x1, .f32⟩
  | _, _ => ⟨S16000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_9 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_c_12 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_cst_14 : Ref sig .tc := ⟨.hbm, 109, rfl⟩
abbrev main_v70 : Ref sig .tc := ⟨.hbm, 110, rfl⟩
abbrev main_v71 : Ref sig .tc := ⟨.hbm, 111, rfl⟩
abbrev main_cst_15 : Ref sig .tc := ⟨.hbm, 112, rfl⟩
abbrev main_call0_v0 : Ref sig .tc := ⟨.hbm, 113, rfl⟩
abbrev main_call0_v1 : Ref sig .tc := ⟨.hbm, 114, rfl⟩
abbrev main_v72 : Ref sig .tc := ⟨.hbm, 115, rfl⟩
abbrev main_cst_16 : Ref sig .tc := ⟨.hbm, 116, rfl⟩
abbrev main_v73 : Ref sig .tc := ⟨.hbm, 117, rfl⟩
abbrev main_v74 : Ref sig .tc := ⟨.hbm, 118, rfl⟩
abbrev main_cst_17 : Ref sig .tc := ⟨.hbm, 119, rfl⟩
abbrev main_call1_v0 : Ref sig .tc := ⟨.hbm, 120, rfl⟩
abbrev main_call1_v1 : Ref sig .tc := ⟨.hbm, 121, rfl⟩
abbrev main_v75 : Ref sig .tc := ⟨.hbm, 122, rfl⟩
abbrev main_cst_18 : Ref sig .tc := ⟨.hbm, 123, rfl⟩
abbrev main_v76 : Ref sig .tc := ⟨.hbm, 124, rfl⟩
abbrev main_cst_19 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_20 : Ref sig .tc := ⟨.hbm, 129, rfl⟩
abbrev main_v80 : Ref sig .tc := ⟨.hbm, 130, rfl⟩
abbrev main_v81 : Ref sig .tc := ⟨.hbm, 131, rfl⟩
abbrev main_cst_21 : Ref sig .tc := ⟨.hbm, 132, rfl⟩
abbrev main_v82 : Ref sig .tc := ⟨.hbm, 133, rfl⟩
abbrev main_v83 : Ref sig .tc := ⟨.hbm, 134, rfl⟩
abbrev main_cst_22 : Ref sig .tc := ⟨.hbm, 135, rfl⟩
abbrev main_call2_v0 : Ref sig .tc := ⟨.hbm, 136, rfl⟩
abbrev main_call2_v1 : Ref sig .tc := ⟨.hbm, 137, rfl⟩
abbrev main_v84 : Ref sig .tc := ⟨.hbm, 138, rfl⟩
abbrev main_cst_23 : Ref sig .tc := ⟨.hbm, 139, rfl⟩
abbrev main_v85 : Ref sig .tc := ⟨.hbm, 140, rfl⟩
abbrev main_v86 : Ref sig .tc := ⟨.hbm, 141, rfl⟩
abbrev main_cst_24 : Ref sig .tc := ⟨.hbm, 142, rfl⟩
abbrev main_call3_v0 : Ref sig .tc := ⟨.hbm, 143, rfl⟩
abbrev main_call3_v1 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_c_25 : Ref sig .tc := ⟨.hbm, 149, rfl⟩
abbrev main_v91 : Ref sig .tc := ⟨.hbm, 150, rfl⟩
abbrev main_v92 : Ref sig .tc := ⟨.hbm, 151, rfl⟩
abbrev main_c_26 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_c_27 : Ref sig .tc := ⟨.hbm, 159, rfl⟩
abbrev main_v99 : Ref sig .tc := ⟨.hbm, 160, rfl⟩
abbrev main_v100 : Ref sig .tc := ⟨.hbm, 161, rfl⟩
abbrev main_c_28 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_cst_29 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_30 : Ref sig .tc := ⟨.hbm, 174, rfl⟩
abbrev main_v111 : Ref sig .tc := ⟨.hbm, 175, rfl⟩
abbrev main_v112 : Ref sig .tc := ⟨.hbm, 176, rfl⟩
abbrev main_c_31 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_c_32 : Ref sig .tc := ⟨.hbm, 184, rfl⟩
abbrev main_v119 : Ref sig .tc := ⟨.hbm, 185, rfl⟩
abbrev main_v120 : Ref sig .tc := ⟨.hbm, 186, rfl⟩
abbrev main_c_33 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_34 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_c_35 : Ref sig .tc := ⟨.hbm, 201, rfl⟩
abbrev main_v133 : Ref sig .tc := ⟨.hbm, 202, rfl⟩
abbrev main_v134 : Ref sig .tc := ⟨.hbm, 203, rfl⟩
abbrev main_c_36 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_c_37 : Ref sig .tc := ⟨.hbm, 211, rfl⟩
abbrev main_v141 : Ref sig .tc := ⟨.hbm, 212, rfl⟩
abbrev main_v142 : Ref sig .tc := ⟨.hbm, 213, rfl⟩
abbrev main_c_38 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_39 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_c_40 : Ref sig .tc := ⟨.hbm, 226, rfl⟩
abbrev main_v153 : Ref sig .tc := ⟨.hbm, 227, rfl⟩
abbrev main_v154 : Ref sig .tc := ⟨.hbm, 228, rfl⟩
abbrev main_c_41 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_c_42 : Ref sig .tc := ⟨.hbm, 236, rfl⟩
abbrev main_v161 : Ref sig .tc := ⟨.hbm, 237, rfl⟩
abbrev main_v162 : Ref sig .tc := ⟨.hbm, 238, rfl⟩
abbrev main_c_43 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_cst_44 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc3_stg14_0 : Ref sig .tc := ⟨.vmem, 43, rfl⟩
abbrev cc3_stg15_0 : Ref sig .tc := ⟨.vmem, 44, rfl⟩
abbrev cc3_stg16_0 : Ref sig .tc := ⟨.vmem, 45, rfl⟩
abbrev cc3_stg17_0 : Ref sig .tc := ⟨.vmem, 46, rfl⟩
abbrev cc3_stg17_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42
abbrev cc3_sem14_0 : DmaSem sig := 43
abbrev cc3_sem15_0 : DmaSem sig := 44
abbrev cc3_sem16_0 : DmaSem sig := 45
abbrev cc3_sem17_0 : DmaSem sig := 46
abbrev cc3_sem17_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S128x1 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x1 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 2 → Memref sig .tc .vmem S2048x1 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

class Facts₀ : Prop where
  slices_S2x256000_S1x256000_0_0 : S2x256000.Slices ![0, 0] S1x256000
  shapeCasts_S1x256000_S256000 : S1x256000.ShapeCasts S256000
  slices_S2x256000_S1x256000_1_0 : S2x256000.Slices ![1, 0] S1x256000
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S256000 : S_.BroadcastsInDim S256000 (![] : Fin 0 → Fin S256000.rank)
  bcast_S256000_S256000x1_0 : S256000.BroadcastsInDim S256000x1 (![0] : Fin 1 → Fin S256000x1.rank)
  bcast_S_S16000 : S_.BroadcastsInDim S16000 (![] : Fin 0 → Fin S16000.rank)
  bcast_S16000_S16000x1_0 : S16000.BroadcastsInDim S16000x1 (![0] : Fin 1 → Fin S16000x1.rank)
  slices_S256x128_S128x128_0_0 : S256x128.Slices ![0, 0] S128x128
  slices_S256x128_S128x128_128_0 : S256x128.Slices ![128, 0] S128x128
  shapeCasts_S128_S1x128 : S128.ShapeCasts S1x128
  shapeCasts_S128x1_S128 : S128x1.ShapeCasts S128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S16000x1_S16000 : S16000x1.ShapeCasts S16000
  bcast_S_S512000 : S_.BroadcastsInDim S512000 (![] : Fin 0 → Fin S512000.rank)
  bcast_S512000_S512000x1_0 : S512000.BroadcastsInDim S512000x1 (![0] : Fin 1 → Fin S512000x1.rank)
  slices_S256x256_S128x256_0_0 : S256x256.Slices ![0, 0] S128x256
  slices_S256x256_S128x256_128_0 : S256x256.Slices ![128, 0] S128x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  bcast_S512000x1_S512000x256_0_1 : S512000x1.BroadcastsInDim S512000x256 (![0, 1] : Fin 2 → Fin S512000x256.rank)
  bcast_S_S16000x256 : S_.BroadcastsInDim S16000x256 (![] : Fin 0 → Fin S16000x256.rank)
  bcast_S_S256000x256 : S_.BroadcastsInDim S256000x256 (![] : Fin 0 → Fin S256000x256.rank)
  shapeCasts_S256_S1x256 : S256.ShapeCasts S1x256
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  bcast_S512000x1_S512000x128_0_1 : S512000x1.BroadcastsInDim S512000x128 (![0, 1] : Fin 2 → Fin S512000x128.rank)
  bcast_S_S16000x128 : S_.BroadcastsInDim S16000x128 (![] : Fin 0 → Fin S16000x128.rank)
  bcast_S_S256000x128 : S_.BroadcastsInDim S256000x128 (![] : Fin 0 → Fin S256000x128.rank)
  shapeCasts_S2_S1x2 : S2.ShapeCasts S1x2
  slices_S384x512_S128x512_0_0 : S384x512.Slices ![0, 0] S128x512
  slices_S384x512_S128x512_128_0 : S384x512.Slices ![128, 0] S128x512
  slices_S384x512_S128x512_256_0 : S384x512.Slices ![256, 0] S128x512
  shapeCasts_S512_S1x512 : S512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  broadcasts_S1x128_S2048x128 : S1x128.Broadcasts S2048x128
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  inb_S128x1_S128x1_0_0 : ∀ a, (![0, 0] : Fin 2 → Nat) a + S128x1.size a ≤ S128x1.size a
  h_S128x1 : 0 < S128x1.numel
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S16000x128_S256000x1_S256000x128_1_0_n_n_0_1_1128_wf : GatherDims.WF S16000x128 S256000x1 S256000x128 [1] [0] [] [0] [] 1 ![1, 128]
  gather_S16000_S256000x1_S256000_n_0_n_n_0_1_1_wf : GatherDims.WF S16000 S256000x1 S256000 [] [0] [] [0] [] 1 ![1]
  gather_S512x128_S256000x1_S256000x128_1_0_n_n_0_1_1128_wf : GatherDims.WF S512x128 S256000x1 S256000x128 [1] [0] [] [0] [] 1 ![1, 128]
  gather_S512x128_S16000x1_S16000x128_1_0_n_n_0_1_1128_wf : GatherDims.WF S512x128 S16000x1 S16000x128 [1] [0] [] [0] [] 1 ![1, 128]
  dot_S2000x128_S128x128_S2000x128_1_0_0_1_n_n_wf : DotDims.WF S2000x128 S128x128 S2000x128 [1] [0] [0] [1] [] []
  gather_S16000_S512000x1_S512000_n_0_n_n_0_1_1_wf : GatherDims.WF S16000 S512000x1 S512000 [] [0] [] [0] [] 1 ![1]
  gather_S512000_S512000x1_S512000_n_0_n_n_0_1_1_wf : GatherDims.WF S512000 S512000x1 S512000 [] [0] [] [0] [] 1 ![1]
  scatter_S256000_S512000x1_S512000_n_0_0_1_wf : ScatterDims.WF S256000 S512000x1 S512000 [] [0] [0] 1
  scatter_S16000_S512000x1_S512000_n_0_0_1_wf : ScatterDims.WF S16000 S512000x1 S512000 [] [0] [0] 1
  dot_S2048x128_S128x256_S2048x256_1_0_0_1_n_n_wf : DotDims.WF S2048x128 S128x256 S2048x256 [1] [0] [0] [1] [] []
  gather_S256000x256_S512000x1_S512000x256_1_0_n_n_0_1_1256_wf : GatherDims.WF S256000x256 S512000x1 S512000x256 [1] [0] [] [0] [] 1 ![1, 256]
  scatter_S16000x256_S512000x1_S512000x256_1_0_0_1_wf : ScatterDims.WF S16000x256 S512000x1 S512000x256 [1] [0] [0] 1
  gather_S256000_S512000x1_S512000_n_0_n_n_0_1_1_wf : GatherDims.WF S256000 S512000x1 S512000 [] [0] [] [0] [] 1 ![1]
  gather_S16000x256_S512000x1_S512000x256_1_0_n_n_0_1_1256_wf : GatherDims.WF S16000x256 S512000x1 S512000x256 [1] [0] [] [0] [] 1 ![1, 256]
  scatter_S256000x256_S512000x1_S512000x256_1_0_0_1_wf : ScatterDims.WF S256000x256 S512000x1 S512000x256 [1] [0] [0] 1
  dot_S2048x256_S256x128_S2048x128_1_0_0_1_n_n_wf : DotDims.WF S2048x256 S256x128 S2048x128 [1] [0] [0] [1] [] []
  gather_S256000x128_S512000x1_S512000x128_1_0_n_n_0_1_1128_wf : GatherDims.WF S256000x128 S512000x1 S512000x128 [1] [0] [] [0] [] 1 ![1, 128]
  scatter_S16000x128_S512000x1_S512000x128_1_0_0_1_wf : ScatterDims.WF S16000x128 S512000x1 S512000x128 [1] [0] [0] 1
  gather_S16000x128_S512000x1_S512000x128_1_0_n_n_0_1_1128_wf : GatherDims.WF S16000x128 S512000x1 S512000x128 [1] [0] [] [0] [] 1 ![1, 128]
  scatter_S256000x128_S512000x1_S512000x128_1_0_0_1_wf : ScatterDims.WF S256000x128 S512000x1 S512000x128 [1] [0] [0] 1
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S16000x128.size a
  hwx0_0 : ∀ i : grid0.Coords, EltTy.bits .f32 = 32 ∨ (Rect.block (s := S16000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S16000x128.size a
  hwx0_1 : ∀ i : grid0.Coords, EltTy.bits .f32 = 32 ∨ (Rect.block (s := S16000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S16000x1.size a
  hwx0_7 : ∀ i : grid0.Coords, EltTy.bits .f32 = 32 ∨ (Rect.block (s := S16000x1) S2000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S256000x128.size a
  hwx1_0 : ∀ i : grid1.Coords, EltTy.bits .f32 = 32 ∨ (Rect.block (s := S256000x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S256000x128.size a
  hwx1_1 : ∀ i : grid1.Coords, EltTy.bits .f32 = 32 ∨ (Rect.block (s := S256000x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S256000x256.size a
  hwx1_4 : ∀ i : grid1.Coords, EltTy.bits .f32 = 32 ∨ (Rect.block (s := S256000x256) S2048x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S256000x256.size a
  hwx2_0 : ∀ i : grid2.Coords, EltTy.bits .f32 = 32 ∨ (Rect.block (s := S256000x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S256000x128.size a
  hwx2_3 : ∀ i : grid2.Coords, EltTy.bits .f32 = 32 ∨ (Rect.block (s := S256000x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S256000x128.size a
  hwx3_0 : ∀ i : grid3.Coords, EltTy.bits .f32 = 32 ∨ (Rect.block (s := S256000x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S256000x128.size a
  hwx3_1 : ∀ i : grid3.Coords, EltTy.bits .f32 = 32 ∨ (Rect.block (s := S256000x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S256000x128.size a
  hwx3_2 : ∀ i : grid3.Coords, EltTy.bits .f32 = 32 ∨ (Rect.block (s := S256000x128) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S256000x128.size a
  hwx3_3 : ∀ i : grid3.Coords, EltTy.bits .f32 = 32 ∨ (Rect.block (s := S256000x128) S2048x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x512.size a ≤ S128x512.size a
  hwx3_5 : ∀ i : grid3.Coords, EltTy.bits .f32 = 32 ∨ (Rect.block (s := S128x512) S128x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x512.size a ≤ S128x512.size a
  hwx3_6 : ∀ i : grid3.Coords, EltTy.bits .f32 = 32 ∨ (Rect.block (s := S128x512) S128x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x512.size a ≤ S128x512.size a
  hwx3_7 : ∀ i : grid3.Coords, EltTy.bits .f32 = 32 ∨ (Rect.block (s := S128x512) S128x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x128.size a ≤ S512x128.size a
  hwx3_9 : ∀ i : grid3.Coords, EltTy.bits .f32 = 32 ∨ (Rect.block (s := S512x128) S512x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128x128.size a ≤ S128x128.size a
  hwx3_12 : ∀ i : grid3.Coords, EltTy.bits .f32 = 32 ∨ (Rect.block (s := S128x128) S128x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128x128.size a ≤ S128x128.size a
  hwx3_13 : ∀ i : grid3.Coords, EltTy.bits .f32 = 32 ∨ (Rect.block (s := S128x128) S128x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x128.size a ≤ S1x128.size a
  hwx3_14 : ∀ i : grid3.Coords, EltTy.bits .f32 = 32 ∨ (Rect.block (s := S1x128) S1x128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S128x1.size a ≤ S128x1.size a
  hwx3_15 : ∀ i : grid3.Coords, EltTy.bits .f32 = 32 ∨ (Rect.block (s := S128x1) S128x1.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x1.size a ≤ S1x1.size a
  hwx3_16 : ∀ i : grid3.Coords, EltTy.bits .f32 = 32 ∨ (Rect.block (s := S1x1) S1x1.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S2048x1.size a ≤ S256000x1.size a
  hwx3_17 : ∀ i : grid3.Coords, EltTy.bits .f32 = 32 ∨ (Rect.block (s := S256000x1) S2048x1.size (cc3_transform_17 i) (hinb3_17 i)).WholeWords (EltTy.packing .f32)

variable [Facts₀]

def gather_S16000x128_S256000x1_S256000x128_1_0_n_n_0_1_1128 : GatherDims S16000x128 S256000x1 S256000x128 where
  offsetDims := [1]
  collapsedSliceDims := [0]
  operandBatchingDims := []
  startIndicesBatchingDims := []
  startIndexMap := [0]
  indexVectorDim := 1
  sliceSizes := ![1, 128]
  wf := gather_S16000x128_S256000x1_S256000x128_1_0_n_n_0_1_1128_wf
def gather_S16000_S256000x1_S256000_n_0_n_n_0_1_1 : GatherDims S16000 S256000x1 S256000 where
  offsetDims := []
  collapsedSliceDims := [0]
  operandBatchingDims := []
  startIndicesBatchingDims := []
  startIndexMap := [0]
  indexVectorDim := 1
  sliceSizes := ![1]
  wf := gather_S16000_S256000x1_S256000_n_0_n_n_0_1_1_wf
def gather_S512x128_S256000x1_S256000x128_1_0_n_n_0_1_1128 : GatherDims S512x128 S256000x1 S256000x128 where
  offsetDims := [1]
  collapsedSliceDims := [0]
  operandBatchingDims := []
  startIndicesBatchingDims := []
  startIndexMap := [0]
  indexVectorDim := 1
  sliceSizes := ![1, 128]
  wf := gather_S512x128_S256000x1_S256000x128_1_0_n_n_0_1_1128_wf
def gather_S512x128_S16000x1_S16000x128_1_0_n_n_0_1_1128 : GatherDims S512x128 S16000x1 S16000x128 where
  offsetDims := [1]
  collapsedSliceDims := [0]
  operandBatchingDims := []
  startIndicesBatchingDims := []
  startIndexMap := [0]
  indexVectorDim := 1
  sliceSizes := ![1, 128]
  wf := gather_S512x128_S16000x1_S16000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S16000_S512000x1_S512000_n_0_n_n_0_1_1 : GatherDims S16000 S512000x1 S512000 where
  offsetDims := []
  collapsedSliceDims := [0]
  operandBatchingDims := []
  startIndicesBatchingDims := []
  startIndexMap := [0]
  indexVectorDim := 1
  sliceSizes := ![1]
  wf := gather_S16000_S512000x1_S512000_n_0_n_n_0_1_1_wf
def gather_S512000_S512000x1_S512000_n_0_n_n_0_1_1 : GatherDims S512000 S512000x1 S512000 where
  offsetDims := []
  collapsedSliceDims := [0]
  operandBatchingDims := []
  startIndicesBatchingDims := []
  startIndexMap := [0]
  indexVectorDim := 1
  sliceSizes := ![1]
  wf := gather_S512000_S512000x1_S512000_n_0_n_n_0_1_1_wf
def scatter_S256000_S512000x1_S512000_n_0_0_1 : ScatterDims S256000 S512000x1 S512000 where
  updateWindowDims := []
  insertedWindowDims := [0]
  scatterDimsToOperandDims := [0]
  indexVectorDim := 1
  wf := scatter_S256000_S512000x1_S512000_n_0_0_1_wf
def scatter_S16000_S512000x1_S512000_n_0_0_1 : ScatterDims S16000 S512000x1 S512000 where
  updateWindowDims := []
  insertedWindowDims := [0]
  scatterDimsToOperandDims := [0]
  indexVectorDim := 1
  wf := scatter_S16000_S512000x1_S512000_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S256000x256_S512000x1_S512000x256_1_0_n_n_0_1_1256 : GatherDims S256000x256 S512000x1 S512000x256 where
  offsetDims := [1]
  collapsedSliceDims := [0]
  operandBatchingDims := []
  startIndicesBatchingDims := []
  startIndexMap := [0]
  indexVectorDim := 1
  sliceSizes := ![1, 256]
  wf := gather_S256000x256_S512000x1_S512000x256_1_0_n_n_0_1_1256_wf
def scatter_S16000x256_S512000x1_S512000x256_1_0_0_1 : ScatterDims S16000x256 S512000x1 S512000x256 where
  updateWindowDims := [1]
  insertedWindowDims := [0]
  scatterDimsToOperandDims := [0]
  indexVectorDim := 1
  wf := scatter_S16000x256_S512000x1_S512000x256_1_0_0_1_wf
def gather_S256000_S512000x1_S512000_n_0_n_n_0_1_1 : GatherDims S256000 S512000x1 S512000 where
  offsetDims := []
  collapsedSliceDims := [0]
  operandBatchingDims := []
  startIndicesBatchingDims := []
  startIndexMap := [0]
  indexVectorDim := 1
  sliceSizes := ![1]
  wf := gather_S256000_S512000x1_S512000_n_0_n_n_0_1_1_wf
def gather_S16000x256_S512000x1_S512000x256_1_0_n_n_0_1_1256 : GatherDims S16000x256 S512000x1 S512000x256 where
  offsetDims := [1]
  collapsedSliceDims := [0]
  operandBatchingDims := []
  startIndicesBatchingDims := []
  startIndexMap := [0]
  indexVectorDim := 1
  sliceSizes := ![1, 256]
  wf := gather_S16000x256_S512000x1_S512000x256_1_0_n_n_0_1_1256_wf
def scatter_S256000x256_S512000x1_S512000x256_1_0_0_1 : ScatterDims S256000x256 S512000x1 S512000x256 where
  updateWindowDims := [1]
  insertedWindowDims := [0]
  scatterDimsToOperandDims := [0]
  indexVectorDim := 1
  wf := scatter_S256000x256_S512000x1_S512000x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S256000x128_S512000x1_S512000x128_1_0_n_n_0_1_1128 : GatherDims S256000x128 S512000x1 S512000x128 where
  offsetDims := [1]
  collapsedSliceDims := [0]
  operandBatchingDims := []
  startIndicesBatchingDims := []
  startIndexMap := [0]
  indexVectorDim := 1
  sliceSizes := ![1, 128]
  wf := gather_S256000x128_S512000x1_S512000x128_1_0_n_n_0_1_1128_wf
def scatter_S16000x128_S512000x1_S512000x128_1_0_0_1 : ScatterDims S16000x128 S512000x1 S512000x128 where
  updateWindowDims := [1]
  insertedWindowDims := [0]
  scatterDimsToOperandDims := [0]
  indexVectorDim := 1
  wf := scatter_S16000x128_S512000x1_S512000x128_1_0_0_1_wf
def gather_S16000x128_S512000x1_S512000x128_1_0_n_n_0_1_1128 : GatherDims S16000x128 S512000x1 S512000x128 where
  offsetDims := [1]
  collapsedSliceDims := [0]
  operandBatchingDims := []
  startIndicesBatchingDims := []
  startIndexMap := [0]
  indexVectorDim := 1
  sliceSizes := ![1, 128]
  wf := gather_S16000x128_S512000x1_S512000x128_1_0_n_n_0_1_1128_wf
def scatter_S256000x128_S512000x1_S512000x128_1_0_0_1 : ScatterDims S256000x128 S512000x1 S512000x128 where
  updateWindowDims := [1]
  insertedWindowDims := [0]
  scatterDimsToOperandDims := [0]
  indexVectorDim := 1
  wf := scatter_S256000x128_S512000x1_S512000x128_1_0_0_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v88) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v89) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v90) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v130) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v131) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v132) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v172) S2048x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v173) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v174) S128x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v175) S128x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v176) S128x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v177) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg16) S512x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v178) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v179) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v180) S128x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v181) S128x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v182) S1x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg20) S128x1.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v183) S1x1.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v184) S2048x1.size cc3_transform_17 reads3_17 true false 2 stage3_17 sem3_17
    hrank3 hreads3_17 hinb3_17 nbuf3_17 (Memref.isWhole_whole _) hwx3_17 hstage3_17

abbrev win3 : Fin 18 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | ⟨_ + 18, h⟩ => absurd h (Nat.not_lt.2 (Nat.le_add_left _ _))
abbrev spec3 : Fin 18 → Pipeline.WinSpec sig grid3.rank := fun w => (win3 w).toWinSpec

class Facts : Prop extends Facts₀ where

variable [Facts]
-- ==== ReferenceIdeal.lean ====
abbrev S16000x128 : Shape := ⟨2, ![16000, 128]⟩
abbrev S512x128 : Shape := ⟨2, ![512, 128]⟩
abbrev S2x256000 : Shape := ⟨2, ![2, 256000]⟩
abbrev S256000 : Shape := ⟨1, ![256000]⟩
abbrev S16000 : Shape := ⟨1, ![16000]⟩
abbrev S2x512000 : Shape := ⟨2, ![2, 512000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x256 : Shape := ⟨2, ![256, 256]⟩
abbrev S256 : Shape := ⟨1, ![256]⟩
abbrev S384x512 : Shape := ⟨2, ![384, 512]⟩
abbrev S512 : Shape := ⟨1, ![512]⟩
abbrev S2 : Shape := ⟨1, ![2]⟩
abbrev S1x256000 : Shape := ⟨2, ![1, 256000]⟩
abbrev S_ : Shape := ⟨0, ![]⟩
abbrev S256000x1 : Shape := ⟨2, ![256000, 1]⟩
abbrev S256000x128 : Shape := ⟨2, ![256000, 128]⟩
abbrev S256000x256 : Shape := ⟨2, ![256000, 256]⟩
abbrev S16000x1 : Shape := ⟨2, ![16000, 1]⟩
abbrev S16000x256 : Shape := ⟨2, ![16000, 256]⟩
abbrev S1x128 : Shape := ⟨2, ![1, 128]⟩
abbrev S1x1 : Shape := ⟨2, ![1, 1]⟩
abbrev S1x512000 : Shape := ⟨2, ![1, 512000]⟩
abbrev S512000 : Shape := ⟨1, ![512000]⟩
abbrev S512000x1 : Shape := ⟨2, ![512000, 1]⟩
abbrev S512000x256 : Shape := ⟨2, ![512000, 256]⟩
abbrev S1x256 : Shape := ⟨2, ![1, 256]⟩
abbrev S512000x128 : Shape := ⟨2, ![512000, 128]⟩
abbrev S256000x384 : Shape := ⟨2, ![256000, 384]⟩
abbrev S256000x512 : Shape := ⟨2, ![256000, 512]⟩
abbrev S1x512 : Shape := ⟨2, ![1, 512]⟩

abbrev nBuf : Space → Nat
  | .hbm => 383
  | .vmem => 0
  | .smem => 0
  | _ => 0

abbrev hbmTy0_0 (i : Nat) : BufTy := match i % 128 with
  | 0 => ⟨S16000x128, .f32⟩
  | 1 => ⟨S512x128, .f32⟩
  | 2 => ⟨S2x256000, .i32⟩
  | 3 => ⟨S256000, .i32⟩
  | 4 => ⟨S16000, .i32⟩
  | 5 => ⟨S2x512000, .i32⟩
  | 6 => ⟨S256x128, .f32⟩
  | 7 => ⟨S128, .f32⟩
  | 8 => ⟨S128x1, .f32⟩
  | 9 => ⟨S1, .f32⟩
  | 10 => ⟨S256x256, .f32⟩
  | 11 => ⟨S256, .f32⟩
  | 12 => ⟨S256x128, .f32⟩
  | 13 => ⟨S128, .f32⟩
  | 14 => ⟨S384x512, .f32⟩
  | 15 => ⟨S512, .f32⟩
  | 16 => ⟨S512x128, .f32⟩
  | 17 => ⟨S128, .f32⟩
  | 18 => ⟨S256x128, .f32⟩
  | 19 => ⟨S128, .f32⟩
  | 20 => ⟨S128x1, .f32⟩
  | 21 => ⟨S1, .f32⟩
  | 22 => ⟨S2, .f32⟩
  | 23 => ⟨S1x256000, .i32⟩
  | 24 => ⟨S256000, .i32⟩
  | 25 => ⟨S1x256000, .i32⟩
  | 26 => ⟨S256000, .i32⟩
  | 27 => ⟨S_, .i32⟩
  | 28 => ⟨S256000, .i32⟩
  | 29 => ⟨S256000, .i1⟩
  | 30 => ⟨S_, .i32⟩
  | 31 => ⟨S256000, .i32⟩
  | 32 => ⟨S256000, .i32⟩
  | 33 => ⟨S256000, .i32⟩
  | 34 => ⟨S256000x1, .i32⟩
  | 35 => ⟨S256000x128, .f32⟩
  | 36 => ⟨S_, .i32⟩
  | 37 => ⟨S256000, .i32⟩
  | 38 => ⟨S256000, .i1⟩
  | 39 => ⟨S_, .i32⟩
  | 40 => ⟨S256000, .i32⟩
  | 41 => ⟨S256000, .i32⟩
  | 42 => ⟨S256000, .i32⟩
  | 43 => ⟨S256000x1, .i32⟩
  | 44 => ⟨S256000x128, .f32⟩
  | 45 => ⟨S256000x256, .f32⟩
  | 46 => ⟨S1x256000, .i32⟩
  | 47 => ⟨S256000, .i32⟩
  | 48 => ⟨S_, .i32⟩
  | 49 => ⟨S256000, .i32⟩
  | 50 => ⟨S256000, .i1⟩
  | 51 => ⟨S_, .i32⟩
  | 52 => ⟨S256000, .i32⟩
  | 53 => ⟨S256000, .i32⟩
  | 54 => ⟨S256000, .i32⟩
  | 55 => ⟨S256000x1, .i32⟩
  | 56 => ⟨S256000, .i32⟩
  | 57 => ⟨S_, .i32⟩
  | 58 => ⟨S256000, .i32⟩
  | 59 => ⟨S256000, .i1⟩
  | 60 => ⟨S_, .i32⟩
  | 61 => ⟨S256000, .i32⟩
  | 62 => ⟨S256000, .i32⟩
  | 63 => ⟨S256000, .i32⟩
  | 64 => ⟨S256000x1, .i32⟩
  | 65 => ⟨S256000x128, .f32⟩
  | 66 => ⟨S_, .i32⟩
  | 67 => ⟨S16000, .i32⟩
  | 68 => ⟨S16000, .i1⟩
  | 69 => ⟨S_, .i32⟩
  | 70 => ⟨S16000, .i32⟩
  | 71 => ⟨S16000, .i32⟩
  | 72 => ⟨S16000, .i32⟩
  | 73 => ⟨S16000x1, .i32⟩
  | 74 => ⟨S16000x128, .f32⟩
  | 75 => ⟨S16000x256, .f32⟩
  | 76 => ⟨S16000x128, .f32⟩
  | 77 => ⟨S1x128, .f32⟩
  | 78 => ⟨S16000x128, .f32⟩
  | 79 => ⟨S16000x128, .f32⟩
  | 80 => ⟨S_, .f32⟩
  | 81 => ⟨S16000x128, .f32⟩
  | 82 => ⟨S16000x128, .f32⟩
  | 83 => ⟨S16000x1, .f32⟩
  | 84 => ⟨S1x1, .f32⟩
  | 85 => ⟨S16000x1, .f32⟩
  | 86 => ⟨S16000x1, .f32⟩
  | 87 => ⟨S16000x1, .f32⟩
  | 88 => ⟨S16000x1, .f32⟩
  | 89 => ⟨S_, .f32⟩
  | 90 => ⟨S16000x1, .f32⟩
  | 91 => ⟨S16000x1, .f32⟩
  | 92 => ⟨S_, .f32⟩
  | 93 => ⟨S16000x1, .f32⟩
  | 94 => ⟨S16000x1, .f32⟩
  | 95 => ⟨S16000, .f32⟩
  | 96 => ⟨S1x512000, .i32⟩
  | 97 => ⟨S512000, .i32⟩
  | 98 => ⟨S1x512000, .i32⟩
  | 99 => ⟨S512000, .i32⟩
  | 100 => ⟨S_, .i32⟩
  | 101 => ⟨S512000, .i32⟩
  | 102 => ⟨S512000, .i1⟩
  | 103 => ⟨S_, .i32⟩
  | 104 => ⟨S512000, .i32⟩
  | 105 => ⟨S512000, .i32⟩
  | 106 => ⟨S512000, .i32⟩
  | 107 => ⟨S512000x1, .i32⟩
  | 108 => ⟨S512000, .f32⟩
  | 109 => ⟨S256000x256, .f32⟩
  | 110 => ⟨S_, .i32⟩
  | 111 => ⟨S512000, .i32⟩
  | 112 => ⟨S512000, .i1⟩
  | 113 => ⟨S_, .i32⟩
  | 114 => ⟨S512000, .i32⟩
  | 115 => ⟨S512000, .i32⟩
  | 116 => ⟨S512000, .i32⟩
  | 117 => ⟨S512000x1, .i32⟩
  | 118 => ⟨S512000, .f32⟩
  | 119 => ⟨S_, .f32⟩
  | 120 => ⟨S256000, .f32⟩
  | 121 => ⟨S512000x1, .i32⟩
  | 122 => ⟨S256000, .f32⟩
  | 123 => ⟨S_, .f32⟩
  | 124 => ⟨S256000, .f32⟩
  | 125 => ⟨S256000, .i1⟩
  | 126 => ⟨S_, .f32⟩
  | 127 => ⟨S256000, .f32⟩
  | _ => ⟨S16000x128, .f32⟩

abbrev hbmTy0_1 (i : Nat) : BufTy := match i % 128 with
  | 0 => ⟨S256000, .i1⟩
  | 1 => ⟨S_, .f32⟩
  | 2 => ⟨S_, .f32⟩
  | 3 => ⟨S256000, .f32⟩
  | 4 => ⟨S256000, .f32⟩
  | 5 => ⟨S_, .f32⟩
  | 6 => ⟨S256000, .f32⟩
  | 7 => ⟨S256000, .f32⟩
  | 8 => ⟨S_, .f32⟩
  | 9 => ⟨S_, .f32⟩
  | 10 => ⟨S256000, .f32⟩
  | 11 => ⟨S256000, .f32⟩
  | 12 => ⟨S_, .f32⟩
  | 13 => ⟨S512000, .f32⟩
  | 14 => ⟨S_, .f32⟩
  | 15 => ⟨S16000, .f32⟩
  | 16 => ⟨S512000x1, .i32⟩
  | 17 => ⟨S16000, .f32⟩
  | 18 => ⟨S_, .f32⟩
  | 19 => ⟨S16000, .f32⟩
  | 20 => ⟨S16000, .i1⟩
  | 21 => ⟨S_, .f32⟩
  | 22 => ⟨S16000, .f32⟩
  | 23 => ⟨S16000, .i1⟩
  | 24 => ⟨S_, .f32⟩
  | 25 => ⟨S_, .f32⟩
  | 26 => ⟨S16000, .f32⟩
  | 27 => ⟨S16000, .f32⟩
  | 28 => ⟨S_, .f32⟩
  | 29 => ⟨S16000, .f32⟩
  | 30 => ⟨S16000, .f32⟩
  | 31 => ⟨S_, .f32⟩
  | 32 => ⟨S_, .f32⟩
  | 33 => ⟨S16000, .f32⟩
  | 34 => ⟨S16000, .f32⟩
  | 35 => ⟨S_, .i32⟩
  | 36 => ⟨S512000, .i32⟩
  | 37 => ⟨S512000, .i1⟩
  | 38 => ⟨S_, .i32⟩
  | 39 => ⟨S512000, .i32⟩
  | 40 => ⟨S512000, .i32⟩
  | 41 => ⟨S512000, .i32⟩
  | 42 => ⟨S512000x1, .i32⟩
  | 43 => ⟨S512000, .f32⟩
  | 44 => ⟨S512000x1, .f32⟩
  | 45 => ⟨S_, .i32⟩
  | 46 => ⟨S512000, .i32⟩
  | 47 => ⟨S512000, .i1⟩
  | 48 => ⟨S_, .i32⟩
  | 49 => ⟨S512000, .i32⟩
  | 50 => ⟨S512000, .i32⟩
  | 51 => ⟨S512000, .i32⟩
  | 52 => ⟨S512000x1, .i32⟩
  | 53 => ⟨S512000x256, .f32⟩
  | 54 => ⟨S512000x256, .f32⟩
  | 55 => ⟨S512000x256, .f32⟩
  | 56 => ⟨S_, .f32⟩
  | 57 => ⟨S16000x256, .f32⟩
  | 58 => ⟨S512000x1, .i32⟩
  | 59 => ⟨S16000x256, .f32⟩
  | 60 => ⟨S_, .i32⟩
  | 61 => ⟨S512000, .i32⟩
  | 62 => ⟨S512000, .i1⟩
  | 63 => ⟨S_, .i32⟩
  | 64 => ⟨S512000, .i32⟩
  | 65 => ⟨S512000, .i32⟩
  | 66 => ⟨S512000, .i32⟩
  | 67 => ⟨S512000x1, .i32⟩
  | 68 => ⟨S512000, .f32⟩
  | 69 => ⟨S512000x1, .f32⟩
  | 70 => ⟨S_, .i32⟩
  | 71 => ⟨S512000, .i32⟩
  | 72 => ⟨S512000, .i1⟩
  | 73 => ⟨S_, .i32⟩
  | 74 => ⟨S512000, .i32⟩
  | 75 => ⟨S512000, .i32⟩
  | 76 => ⟨S512000, .i32⟩
  | 77 => ⟨S512000x1, .i32⟩
  | 78 => ⟨S512000x256, .f32⟩
  | 79 => ⟨S512000x256, .f32⟩
  | 80 => ⟨S512000x256, .f32⟩
  | 81 => ⟨S_, .f32⟩
  | 82 => ⟨S256000x256, .f32⟩
  | 83 => ⟨S512000x1, .i32⟩
  | 84 => ⟨S256000x256, .f32⟩
  | 85 => ⟨S1x256, .f32⟩
  | 86 => ⟨S256000x256, .f32⟩
  | 87 => ⟨S256000x256, .f32⟩
  | 88 => ⟨S256000x256, .f32⟩
  | 89 => ⟨S256000x256, .f32⟩
  | 90 => ⟨S_, .f32⟩
  | 91 => ⟨S256000x256, .f32⟩
  | 92 => ⟨S256000x256, .f32⟩
  | 93 => ⟨S_, .f32⟩
  | 94 => ⟨S256000x256, .f32⟩
  | 95 => ⟨S256000x256, .f32⟩
  | 96 => ⟨S256000x128, .f32⟩
  | 97 => ⟨S_, .i32⟩
  | 98 => ⟨S512000, .i32⟩
  | 99 => ⟨S512000, .i1⟩
  | 100 => ⟨S_, .i32⟩
  | 101 => ⟨S512000, .i32⟩
  | 102 => ⟨S512000, .i32⟩
  | 103 => ⟨S512000, .i32⟩
  | 104 => ⟨S512000x1, .i32⟩
  | 105 => ⟨S512000, .f32⟩
  | 106 => ⟨S_, .f32⟩
  | 107 => ⟨S256000, .f32⟩
  | 108 => ⟨S512000x1, .i32⟩
  | 109 => ⟨S256000, .f32⟩
  | 110 => ⟨S_, .f32⟩
  | 111 => ⟨S256000, .f32⟩
  | 112 => ⟨S256000, .i1⟩
  | 113 => ⟨S_, .f32⟩
  | 114 => ⟨S256000, .f32⟩
  | 115 => ⟨S256000, .i1⟩
  | 116 => ⟨S_, .f32⟩
  | 117 => ⟨S_, .f32⟩
  | 118 => ⟨S256000, .f32⟩
  | 119 => ⟨S256000, .f32⟩
  | 120 => ⟨S_, .f32⟩
  | 121 => ⟨S256000, .f32⟩
  | 122 => ⟨S256000, .f32⟩
  | 123 => ⟨S_, .f32⟩
  | 124 => ⟨S_, .f32⟩
  | 125 => ⟨S256000, .f32⟩
  | 126 => ⟨S256000, .f32⟩
  | 127 => ⟨S_, .f32⟩
  | _ => ⟨S16000x128, .f32⟩

abbrev hbmTy0_2 (i : Nat) : BufTy := match i % 128 with
  | 0 => ⟨S512000, .f32⟩
  | 1 => ⟨S_, .f32⟩
  | 2 => ⟨S16000, .f32⟩
  | 3 => ⟨S512000x1, .i32⟩
  | 4 => ⟨S16000, .f32⟩
  | 5 => ⟨S_, .f32⟩
  | 6 => ⟨S16000, .f32⟩
  | 7 => ⟨S16000, .i1⟩
  | 8 => ⟨S_, .f32⟩
  | 9 => ⟨S16000, .f32⟩
  | 10 => ⟨S16000, .i1⟩
  | 11 => ⟨S_, .f32⟩
  | 12 => ⟨S_, .f32⟩
  | 13 => ⟨S16000, .f32⟩
  | 14 => ⟨S16000, .f32⟩
  | 15 => ⟨S_, .f32⟩
  | 16 => ⟨S16000, .f32⟩
  | 17 => ⟨S16000, .f32⟩
  | 18 => ⟨S_, .f32⟩
  | 19 => ⟨S_, .f32⟩
  | 20 => ⟨S16000, .f32⟩
  | 21 => ⟨S16000, .f32⟩
  | 22 => ⟨S_, .i32⟩
  | 23 => ⟨S512000, .i32⟩
  | 24 => ⟨S512000, .i1⟩
  | 25 => ⟨S_, .i32⟩
  | 26 => ⟨S512000, .i32⟩
  | 27 => ⟨S512000, .i32⟩
  | 28 => ⟨S512000, .i32⟩
  | 29 => ⟨S512000x1, .i32⟩
  | 30 => ⟨S512000, .f32⟩
  | 31 => ⟨S512000x1, .f32⟩
  | 32 => ⟨S_, .i32⟩
  | 33 => ⟨S512000, .i32⟩
  | 34 => ⟨S512000, .i1⟩
  | 35 => ⟨S_, .i32⟩
  | 36 => ⟨S512000, .i32⟩
  | 37 => ⟨S512000, .i32⟩
  | 38 => ⟨S512000, .i32⟩
  | 39 => ⟨S512000x1, .i32⟩
  | 40 => ⟨S512000x128, .f32⟩
  | 41 => ⟨S512000x128, .f32⟩
  | 42 => ⟨S512000x128, .f32⟩
  | 43 => ⟨S_, .f32⟩
  | 44 => ⟨S16000x128, .f32⟩
  | 45 => ⟨S512000x1, .i32⟩
  | 46 => ⟨S16000x128, .f32⟩
  | 47 => ⟨S_, .i32⟩
  | 48 => ⟨S512000, .i32⟩
  | 49 => ⟨S512000, .i1⟩
  | 50 => ⟨S_, .i32⟩
  | 51 => ⟨S512000, .i32⟩
  | 52 => ⟨S512000, .i32⟩
  | 53 => ⟨S512000, .i32⟩
  | 54 => ⟨S512000x1, .i32⟩
  | 55 => ⟨S512000, .f32⟩
  | 56 => ⟨S512000x1, .f32⟩
  | 57 => ⟨S_, .i32⟩
  | 58 => ⟨S512000, .i32⟩
  | 59 => ⟨S512000, .i1⟩
  | 60 => ⟨S_, .i32⟩
  | 61 => ⟨S512000, .i32⟩
  | 62 => ⟨S512000, .i32⟩
  | 63 => ⟨S512000, .i32⟩
  | 64 => ⟨S512000x1, .i32⟩
  | 65 => ⟨S512000x128, .f32⟩
  | 66 => ⟨S512000x128, .f32⟩
  | 67 => ⟨S512000x128, .f32⟩
  | 68 => ⟨S_, .f32⟩
  | 69 => ⟨S256000x128, .f32⟩
  | 70 => ⟨S512000x1, .i32⟩
  | 71 => ⟨S256000x128, .f32⟩
  | 72 => ⟨S1x128, .f32⟩
  | 73 => ⟨S256000x128, .f32⟩
  | 74 => ⟨S256000x128, .f32⟩
  | 75 => ⟨S256000x128, .f32⟩
  | 76 => ⟨S256000x128, .f32⟩
  | 77 => ⟨S_, .f32⟩
  | 78 => ⟨S256000x128, .f32⟩
  | 79 => ⟨S256000x128, .f32⟩
  | 80 => ⟨S_, .f32⟩
  | 81 => ⟨S256000x128, .f32⟩
  | 82 => ⟨S256000x128, .f32⟩
  | 83 => ⟨S256000x384, .f32⟩
  | 84 => ⟨S256000x512, .f32⟩
  | 85 => ⟨S1x512, .f32⟩
  | 86 => ⟨S256000x512, .f32⟩
  | 87 => ⟨S256000x512, .f32⟩
  | 88 => ⟨S_, .f32⟩
  | 89 => ⟨S256000x512, .f32⟩
  | 90 => ⟨S256000x512, .f32⟩
  | 91 => ⟨S256000x128, .f32⟩
  | 92 => ⟨S1x128, .f32⟩
  | 93 => ⟨S256000x128, .f32⟩
  | 94 => ⟨S256000x128, .f32⟩
  | 95 => ⟨S_, .f32⟩
  | 96 => ⟨S256000x128, .f32⟩
  | 97 => ⟨S256000x128, .f32⟩
  | 98 => ⟨S1, .f32⟩
  | 99 => ⟨S_, .f32⟩
  | 100 => ⟨S256000x128, .f32⟩
  | 101 => ⟨S256000x128, .f32⟩
  | 102 => ⟨S1, .f32⟩
  | 103 => ⟨S_, .f32⟩
  | 104 => ⟨S256000x128, .f32⟩
  | 105 => ⟨S256000x128, .f32⟩
  | 106 => ⟨S256000x128, .f32⟩
  | 107 => ⟨S256000x256, .f32⟩
  | 108 => ⟨S256000x128, .f32⟩
  | 109 => ⟨S1x128, .f32⟩
  | 110 => ⟨S256000x128, .f32⟩
  | 111 => ⟨S256000x128, .f32⟩
  | 112 => ⟨S_, .f32⟩
  | 113 => ⟨S256000x128, .f32⟩
  | 114 => ⟨S256000x128, .f32⟩
  | 115 => ⟨S256000x1, .f32⟩
  | 116 => ⟨S1x1, .f32⟩
  | 117 => ⟨S256000x1, .f32⟩
  | 118 => ⟨S256000x1, .f32⟩
  | 119 => ⟨S256000x1, .f32⟩
  | 120 => ⟨S256000x1, .f32⟩
  | 121 => ⟨S_, .f32⟩
  | 122 => ⟨S256000x1, .f32⟩
  | 123 => ⟨S256000x1, .f32⟩
  | 124 => ⟨S_, .f32⟩
  | 125 => ⟨S256000x1, .f32⟩
  | 126 => ⟨S256000x1, .f32⟩
  | _ => ⟨S16000x128, .f32⟩

abbrev hbmTy (i : Nat) : BufTy := match i / 128 with
  | 0 => hbmTy0_0 i
  | 1 => hbmTy0_1 i
  | 2 => hbmTy0_2 i
  | _ => ⟨S16000x128, .f32⟩

abbrev bufTy : (tb : Table) → Fin (tcTables nBuf tb) → BufTy
  | .hbm, ⟨i, _⟩ => hbmTy i
  | _, _ => ⟨S16000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_c_4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_c_8 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call0_cst : Ref sig .tc := ⟨.hbm, 80, rfl⟩
abbrev main_call0_v0 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_10 : Ref sig .tc := ⟨.hbm, 100, rfl⟩
abbrev main_v63 : Ref sig .tc := ⟨.hbm, 101, rfl⟩
abbrev main_v64 : Ref sig .tc := ⟨.hbm, 102, rfl⟩
abbrev main_c_11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_12 : Ref sig .tc := ⟨.hbm, 110, rfl⟩
abbrev main_v71 : Ref sig .tc := ⟨.hbm, 111, rfl⟩
abbrev main_v72 : Ref sig .tc := ⟨.hbm, 112, rfl⟩
abbrev main_c_13 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_14 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_v82 : Ref sig .tc := ⟨.hbm, 125, rfl⟩
abbrev main_cst_16 : Ref sig .tc := ⟨.hbm, 126, rfl⟩
abbrev main_v83 : Ref sig .tc := ⟨.hbm, 127, rfl⟩
abbrev main_v84 : Ref sig .tc := ⟨.hbm, 128, rfl⟩
abbrev main_cst_17 : Ref sig .tc := ⟨.hbm, 129, rfl⟩
abbrev main_call1_v0 : Ref sig .tc := ⟨.hbm, 130, rfl⟩
abbrev main_call1_v1 : Ref sig .tc := ⟨.hbm, 131, rfl⟩
abbrev main_v85 : Ref sig .tc := ⟨.hbm, 132, rfl⟩
abbrev main_cst_18 : Ref sig .tc := ⟨.hbm, 133, rfl⟩
abbrev main_v86 : Ref sig .tc := ⟨.hbm, 134, rfl⟩
abbrev main_v87 : Ref sig .tc := ⟨.hbm, 135, rfl⟩
abbrev main_cst_19 : Ref sig .tc := ⟨.hbm, 136, rfl⟩
abbrev main_call2_v0 : Ref sig .tc := ⟨.hbm, 137, rfl⟩
abbrev main_call2_v1 : Ref sig .tc := ⟨.hbm, 138, rfl⟩
abbrev main_v88 : Ref sig .tc := ⟨.hbm, 139, rfl⟩
abbrev main_cst_20 : Ref sig .tc := ⟨.hbm, 140, rfl⟩
abbrev main_v89 : Ref sig .tc := ⟨.hbm, 141, rfl⟩
abbrev main_cst_21 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_22 : Ref sig .tc := ⟨.hbm, 146, rfl⟩
abbrev main_v93 : Ref sig .tc := ⟨.hbm, 147, rfl⟩
abbrev main_v94 : Ref sig .tc := ⟨.hbm, 148, rfl⟩
abbrev main_cst_23 : Ref sig .tc := ⟨.hbm, 149, rfl⟩
abbrev main_v95 : Ref sig .tc := ⟨.hbm, 150, rfl⟩
abbrev main_v96 : Ref sig .tc := ⟨.hbm, 151, rfl⟩
abbrev main_cst_24 : Ref sig .tc := ⟨.hbm, 152, rfl⟩
abbrev main_call3_v0 : Ref sig .tc := ⟨.hbm, 153, rfl⟩
abbrev main_call3_v1 : Ref sig .tc := ⟨.hbm, 154, rfl⟩
abbrev main_v97 : Ref sig .tc := ⟨.hbm, 155, rfl⟩
abbrev main_cst_25 : Ref sig .tc := ⟨.hbm, 156, rfl⟩
abbrev main_v98 : Ref sig .tc := ⟨.hbm, 157, rfl⟩
abbrev main_v99 : Ref sig .tc := ⟨.hbm, 158, rfl⟩
abbrev main_cst_26 : Ref sig .tc := ⟨.hbm, 159, rfl⟩
abbrev main_call4_v0 : Ref sig .tc := ⟨.hbm, 160, rfl⟩
abbrev main_call4_v1 : Ref sig .tc := ⟨.hbm, 161, rfl⟩
abbrev main_v100 : Ref sig .tc := ⟨.hbm, 162, rfl⟩
abbrev main_c_27 : Ref sig .tc := ⟨.hbm, 163, rfl⟩
abbrev main_v101 : Ref sig .tc := ⟨.hbm, 164, rfl⟩
abbrev main_v102 : Ref sig .tc := ⟨.hbm, 165, rfl⟩
abbrev main_c_28 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_c_29 : Ref sig .tc := ⟨.hbm, 173, rfl⟩
abbrev main_v109 : Ref sig .tc := ⟨.hbm, 174, rfl⟩
abbrev main_v110 : Ref sig .tc := ⟨.hbm, 175, rfl⟩
abbrev main_c_30 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_cst_31 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_32 : Ref sig .tc := ⟨.hbm, 188, rfl⟩
abbrev main_v121 : Ref sig .tc := ⟨.hbm, 189, rfl⟩
abbrev main_v122 : Ref sig .tc := ⟨.hbm, 190, rfl⟩
abbrev main_c_33 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_c_34 : Ref sig .tc := ⟨.hbm, 198, rfl⟩
abbrev main_v129 : Ref sig .tc := ⟨.hbm, 199, rfl⟩
abbrev main_v130 : Ref sig .tc := ⟨.hbm, 200, rfl⟩
abbrev main_c_35 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_36 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_cst_37 : Ref sig .tc := ⟨.hbm, 218, rfl⟩
abbrev main_v146 : Ref sig .tc := ⟨.hbm, 219, rfl⟩
abbrev main_v147 : Ref sig .tc := ⟨.hbm, 220, rfl⟩
abbrev main_cst_38 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_c_39 : Ref sig .tc := ⟨.hbm, 225, rfl⟩
abbrev main_v151 : Ref sig .tc := ⟨.hbm, 226, rfl⟩
abbrev main_v152 : Ref sig .tc := ⟨.hbm, 227, rfl⟩
abbrev main_c_40 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_cst_41 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_cst_42 : Ref sig .tc := ⟨.hbm, 238, rfl⟩
abbrev main_v161 : Ref sig .tc := ⟨.hbm, 239, rfl⟩
abbrev main_v162 : Ref sig .tc := ⟨.hbm, 240, rfl⟩
abbrev main_cst_43 : Ref sig .tc := ⟨.hbm, 241, rfl⟩
abbrev main_v163 : Ref sig .tc := ⟨.hbm, 242, rfl⟩
abbrev main_v164 : Ref sig .tc := ⟨.hbm, 243, rfl⟩
abbrev main_cst_44 : Ref sig .tc := ⟨.hbm, 244, rfl⟩
abbrev main_call5_v0 : Ref sig .tc := ⟨.hbm, 245, rfl⟩
abbrev main_call5_v1 : Ref sig .tc := ⟨.hbm, 246, rfl⟩
abbrev main_v165 : Ref sig .tc := ⟨.hbm, 247, rfl⟩
abbrev main_cst_45 : Ref sig .tc := ⟨.hbm, 248, rfl⟩
abbrev main_v166 : Ref sig .tc := ⟨.hbm, 249, rfl⟩
abbrev main_v167 : Ref sig .tc := ⟨.hbm, 250, rfl⟩
abbrev main_cst_46 : Ref sig .tc := ⟨.hbm, 251, rfl⟩
abbrev main_call6_v0 : Ref sig .tc := ⟨.hbm, 252, rfl⟩
abbrev main_call6_v1 : Ref sig .tc := ⟨.hbm, 253, rfl⟩
abbrev main_v168 : Ref sig .tc := ⟨.hbm, 254, rfl⟩
abbrev main_cst_47 : Ref sig .tc := ⟨.hbm, 255, rfl⟩
abbrev main_v169 : Ref sig .tc := ⟨.hbm, 256, rfl⟩
abbrev main_cst_48 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_cst_49 : Ref sig .tc := ⟨.hbm, 261, rfl⟩
abbrev main_v173 : Ref sig .tc := ⟨.hbm, 262, rfl⟩
abbrev main_v174 : Ref sig .tc := ⟨.hbm, 263, rfl⟩
abbrev main_cst_50 : Ref sig .tc := ⟨.hbm, 264, rfl⟩
abbrev main_v175 : Ref sig .tc := ⟨.hbm, 265, rfl⟩
abbrev main_v176 : Ref sig .tc := ⟨.hbm, 266, rfl⟩
abbrev main_cst_51 : Ref sig .tc := ⟨.hbm, 267, rfl⟩
abbrev main_call7_v0 : Ref sig .tc := ⟨.hbm, 268, rfl⟩
abbrev main_call7_v1 : Ref sig .tc := ⟨.hbm, 269, rfl⟩
abbrev main_v177 : Ref sig .tc := ⟨.hbm, 270, rfl⟩
abbrev main_cst_52 : Ref sig .tc := ⟨.hbm, 271, rfl⟩
abbrev main_v178 : Ref sig .tc := ⟨.hbm, 272, rfl⟩
abbrev main_v179 : Ref sig .tc := ⟨.hbm, 273, rfl⟩
abbrev main_cst_53 : Ref sig .tc := ⟨.hbm, 274, rfl⟩
abbrev main_call8_v0 : Ref sig .tc := ⟨.hbm, 275, rfl⟩
abbrev main_call8_v1 : Ref sig .tc := ⟨.hbm, 276, rfl⟩
abbrev main_v180 : Ref sig .tc := ⟨.hbm, 277, rfl⟩
abbrev main_c_54 : Ref sig .tc := ⟨.hbm, 278, rfl⟩
abbrev main_v181 : Ref sig .tc := ⟨.hbm, 279, rfl⟩
abbrev main_v182 : Ref sig .tc := ⟨.hbm, 280, rfl⟩
abbrev main_c_55 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_c_56 : Ref sig .tc := ⟨.hbm, 288, rfl⟩
abbrev main_v189 : Ref sig .tc := ⟨.hbm, 289, rfl⟩
abbrev main_v190 : Ref sig .tc := ⟨.hbm, 290, rfl⟩
abbrev main_c_57 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_cst_58 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_c_59 : Ref sig .tc := ⟨.hbm, 303, rfl⟩
abbrev main_v201 : Ref sig .tc := ⟨.hbm, 304, rfl⟩
abbrev main_v202 : Ref sig .tc := ⟨.hbm, 305, rfl⟩
abbrev main_c_60 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_c_61 : Ref sig .tc := ⟨.hbm, 313, rfl⟩
abbrev main_v209 : Ref sig .tc := ⟨.hbm, 314, rfl⟩
abbrev main_v210 : Ref sig .tc := ⟨.hbm, 315, rfl⟩
abbrev main_c_62 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_cst_63 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_cst_64 : Ref sig .tc := ⟨.hbm, 333, rfl⟩
abbrev main_v226 : Ref sig .tc := ⟨.hbm, 334, rfl⟩
abbrev main_v227 : Ref sig .tc := ⟨.hbm, 335, rfl⟩
abbrev main_cst_65 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_call9_cst : Ref sig .tc := ⟨.hbm, 344, rfl⟩
abbrev main_call9_v0 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_call10_cst : Ref sig .tc := ⟨.hbm, 351, rfl⟩
abbrev main_call10_v0 : Ref sig .tc := ⟨.hbm, 352, rfl⟩
abbrev main_v240 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_call11_cst : Ref sig .tc := ⟨.hbm, 368, rfl⟩
abbrev main_call11_v0 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_cst_66 : Ref sig .tc := ⟨.hbm, 377, rfl⟩
abbrev main_v262 : Ref sig .tc := ⟨.hbm, 378, rfl⟩
abbrev main_v263 : Ref sig .tc := ⟨.hbm, 379, rfl⟩
abbrev main_cst_67 : Ref sig .tc := ⟨.hbm, 380, rfl⟩
abbrev main_v264 : Ref sig .tc := ⟨.hbm, 381, rfl⟩
abbrev main_v265 : Ref sig .tc := ⟨.hbm, 382, rfl⟩

abbrev nD : Nat := 1
abbrev τ : Topo := Topo.v7x

variable {F : FTy → Type} [FloatOps F]

class Facts₀ : Prop where
  slices_S2x256000_S1x256000_0_0 : S2x256000.Slices ![0, 0] S1x256000
  shapeCasts_S1x256000_S256000 : S1x256000.ShapeCasts S256000
  slices_S2x256000_S1x256000_1_0 : S2x256000.Slices ![1, 0] S1x256000
  bcast_S_S256000 : S_.BroadcastsInDim S256000 (![] : Fin 0 → Fin S256000.rank)
  bcast_S256000_S256000x1_0 : S256000.BroadcastsInDim S256000x1 (![0] : Fin 1 → Fin S256000x1.rank)
  concatenates_S256000x128_S256000x128_S256000x256_d1 : Shape.Concatenates [S256000x128, S256000x128] S256000x256 1
  bcast_S_S16000 : S_.BroadcastsInDim S16000 (![] : Fin 0 → Fin S16000.rank)
  bcast_S16000_S16000x1_0 : S16000.BroadcastsInDim S16000x1 (![0] : Fin 1 → Fin S16000x1.rank)
  concatenates_S16000x128_S16000x128_S16000x256_d1 : Shape.Concatenates [S16000x128, S16000x128] S16000x256 1
  bcast_S128_S1x128_1 : S128.BroadcastsInDim S1x128 (![1] : Fin 1 → Fin S1x128.rank)
  bcast_S1x128_S16000x128_0_1 : S1x128.BroadcastsInDim S16000x128 (![0, 1] : Fin 2 → Fin S16000x128.rank)
  bcast_S_S16000x128 : S_.BroadcastsInDim S16000x128 (![] : Fin 0 → Fin S16000x128.rank)
  bcast_S1_S1x1_1 : S1.BroadcastsInDim S1x1 (![1] : Fin 1 → Fin S1x1.rank)
  bcast_S1x1_S16000x1_0_1 : S1x1.BroadcastsInDim S16000x1 (![0, 1] : Fin 2 → Fin S16000x1.rank)
  bcast_S_S16000x1 : S_.BroadcastsInDim S16000x1 (![] : Fin 0 → Fin S16000x1.rank)
  shapeCasts_S16000x1_S16000 : S16000x1.ShapeCasts S16000
  slices_S2x512000_S1x512000_0_0 : S2x512000.Slices ![0, 0] S1x512000
  shapeCasts_S1x512000_S512000 : S1x512000.ShapeCasts S512000
  slices_S2x512000_S1x512000_1_0 : S2x512000.Slices ![1, 0] S1x512000
  bcast_S_S512000 : S_.BroadcastsInDim S512000 (![] : Fin 0 → Fin S512000.rank)
  bcast_S512000_S512000x1_0 : S512000.BroadcastsInDim S512000x1 (![0] : Fin 1 → Fin S512000x1.rank)
  bcast_S512000x1_S512000x256_0_1 : S512000x1.BroadcastsInDim S512000x256 (![0, 1] : Fin 2 → Fin S512000x256.rank)
  bcast_S_S16000x256 : S_.BroadcastsInDim S16000x256 (![] : Fin 0 → Fin S16000x256.rank)
  bcast_S_S256000x256 : S_.BroadcastsInDim S256000x256 (![] : Fin 0 → Fin S256000x256.rank)
  bcast_S256_S1x256_1 : S256.BroadcastsInDim S1x256 (![1] : Fin 1 → Fin S1x256.rank)
  bcast_S1x256_S256000x256_0_1 : S1x256.BroadcastsInDim S256000x256 (![0, 1] : Fin 2 → Fin S256000x256.rank)
  bcast_S512000x1_S512000x128_0_1 : S512000x1.BroadcastsInDim S512000x128 (![0, 1] : Fin 2 → Fin S512000x128.rank)
  bcast_S_S256000x128 : S_.BroadcastsInDim S256000x128 (![] : Fin 0 → Fin S256000x128.rank)
  bcast_S1x128_S256000x128_0_1 : S1x128.BroadcastsInDim S256000x128 (![0, 1] : Fin 2 → Fin S256000x128.rank)
  concatenates_S256000x256_S256000x128_S256000x384_d1 : Shape.Concatenates [S256000x256, S256000x128] S256000x384 1
  bcast_S512_S1x512_1 : S512.BroadcastsInDim S1x512 (![1] : Fin 1 → Fin S1x512.rank)
  bcast_S1x512_S256000x512_0_1 : S1x512.BroadcastsInDim S256000x512 (![0, 1] : Fin 2 → Fin S256000x512.rank)
  bcast_S_S256000x512 : S_.BroadcastsInDim S256000x512 (![] : Fin 0 → Fin S256000x512.rank)
  slices_S2_S1_0 : S2.Slices ![0] S1
  shapeCasts_S1_S_ : S1.ShapeCasts S_
  slices_S2_S1_1 : S2.Slices ![1] S1
  bcast_S1x1_S256000x1_0_1 : S1x1.BroadcastsInDim S256000x1 (![0, 1] : Fin 2 → Fin S256000x1.rank)
  bcast_S_S256000x1 : S_.BroadcastsInDim S256000x1 (![] : Fin 0 → Fin S256000x1.rank)
  gather_S16000x128_S256000x1_S256000x128_1_0_n_n_0_1_1128_wf : GatherDims.WF S16000x128 S256000x1 S256000x128 [1] [0] [] [0] [] 1 ![1, 128]
  gather_S16000_S256000x1_S256000_n_0_n_n_0_1_1_wf : GatherDims.WF S16000 S256000x1 S256000 [] [0] [] [0] [] 1 ![1]
  gather_S512x128_S256000x1_S256000x128_1_0_n_n_0_1_1128_wf : GatherDims.WF S512x128 S256000x1 S256000x128 [1] [0] [] [0] [] 1 ![1, 128]
  gather_S512x128_S16000x1_S16000x128_1_0_n_n_0_1_1128_wf : GatherDims.WF S512x128 S16000x1 S16000x128 [1] [0] [] [0] [] 1 ![1, 128]
  dot_S16000x256_S256x128_S16000x128_1_0_0_1_n_n_wf : DotDims.WF S16000x256 S256x128 S16000x128 [1] [0] [0] [1] [] []
  dot_S16000x128_S128x1_S16000x1_1_0_0_1_n_n_wf : DotDims.WF S16000x128 S128x1 S16000x1 [1] [0] [0] [1] [] []
  gather_S16000_S512000x1_S512000_n_0_n_n_0_1_1_wf : GatherDims.WF S16000 S512000x1 S512000 [] [0] [] [0] [] 1 ![1]
  dot_S256000x256_S256x256_S256000x256_1_0_0_1_n_n_wf : DotDims.WF S256000x256 S256x256 S256000x256 [1] [0] [0] [1] [] []
  gather_S512000_S512000x1_S512000_n_0_n_n_0_1_1_wf : GatherDims.WF S512000 S512000x1 S512000 [] [0] [] [0] [] 1 ![1]
  scatter_S256000_S512000x1_S512000_n_0_0_1_wf : ScatterDims.WF S256000 S512000x1 S512000 [] [0] [0] 1
  scatter_S16000_S512000x1_S512000_n_0_0_1_wf : ScatterDims.WF S16000 S512000x1 S512000 [] [0] [0] 1
  gather_S256000x256_S512000x1_S512000x256_1_0_n_n_0_1_1256_wf : GatherDims.WF S256000x256 S512000x1 S512000x256 [1] [0] [] [0] [] 1 ![1, 256]
  scatter_S16000x256_S512000x1_S512000x256_1_0_0_1_wf : ScatterDims.WF S16000x256 S512000x1 S512000x256 [1] [0] [0] 1
  gather_S256000_S512000x1_S512000_n_0_n_n_0_1_1_wf : GatherDims.WF S256000 S512000x1 S512000 [] [0] [] [0] [] 1 ![1]
  gather_S16000x256_S512000x1_S512000x256_1_0_n_n_0_1_1256_wf : GatherDims.WF S16000x256 S512000x1 S512000x256 [1] [0] [] [0] [] 1 ![1, 256]
  scatter_S256000x256_S512000x1_S512000x256_1_0_0_1_wf : ScatterDims.WF S256000x256 S512000x1 S512000x256 [1] [0] [0] 1
  dot_S256000x256_S256x128_S256000x128_1_0_0_1_n_n_wf : DotDims.WF S256000x256 S256x128 S256000x128 [1] [0] [0] [1] [] []
  gather_S256000x128_S512000x1_S512000x128_1_0_n_n_0_1_1128_wf : GatherDims.WF S256000x128 S512000x1 S512000x128 [1] [0] [] [0] [] 1 ![1, 128]
  scatter_S16000x128_S512000x1_S512000x128_1_0_0_1_wf : ScatterDims.WF S16000x128 S512000x1 S512000x128 [1] [0] [0] 1
  gather_S16000x128_S512000x1_S512000x128_1_0_n_n_0_1_1128_wf : GatherDims.WF S16000x128 S512000x1 S512000x128 [1] [0] [] [0] [] 1 ![1, 128]
  scatter_S256000x128_S512000x1_S512000x128_1_0_0_1_wf : ScatterDims.WF S256000x128 S512000x1 S512000x128 [1] [0] [0] 1
  dot_S256000x384_S384x512_S256000x512_1_0_0_1_n_n_wf : DotDims.WF S256000x384 S384x512 S256000x512 [1] [0] [0] [1] [] []
  dot_S256000x512_S512x128_S256000x128_1_0_0_1_n_n_wf : DotDims.WF S256000x512 S512x128 S256000x128 [1] [0] [0] [1] [] []
  dot_S256000x128_S128x1_S256000x1_1_0_0_1_n_n_wf : DotDims.WF S256000x128 S128x1 S256000x1 [1] [0] [0] [1] [] []

variable [Facts₀]

def gather_S16000x128_S256000x1_S256000x128_1_0_n_n_0_1_1128 : GatherDims S16000x128 S256000x1 S256000x128 where
  offsetDims := [1]
  collapsedSliceDims := [0]
  operandBatchingDims := []
  startIndicesBatchingDims := []
  startIndexMap := [0]
  indexVectorDim := 1
  sliceSizes := ![1, 128]
  wf := gather_S16000x128_S256000x1_S256000x128_1_0_n_n_0_1_1128_wf
def gather_S16000_S256000x1_S256000_n_0_n_n_0_1_1 : GatherDims S16000 S256000x1 S256000 where
  offsetDims := []
  collapsedSliceDims := [0]
  operandBatchingDims := []
  startIndicesBatchingDims := []
  startIndexMap := [0]
  indexVectorDim := 1
  sliceSizes := ![1]
  wf := gather_S16000_S256000x1_S256000_n_0_n_n_0_1_1_wf
def gather_S512x128_S256000x1_S256000x128_1_0_n_n_0_1_1128 : GatherDims S512x128 S256000x1 S256000x128 where
  offsetDims := [1]
  collapsedSliceDims := [0]
  operandBatchingDims := []
  startIndicesBatchingDims := []
  startIndexMap := [0]
  indexVectorDim := 1
  sliceSizes := ![1, 128]
  wf := gather_S512x128_S256000x1_S256000x128_1_0_n_n_0_1_1128_wf
def gather_S512x128_S16000x1_S16000x128_1_0_n_n_0_1_1128 : GatherDims S512x128 S16000x1 S16000x128 where
  offsetDims := [1]
  collapsedSliceDims := [0]
  operandBatchingDims := []
  startIndicesBatchingDims := []
  startIndexMap := [0]
  indexVectorDim := 1
  sliceSizes := ![1, 128]
  wf := gather_S512x128_S16000x1_S16000x128_1_0_n_n_0_1_1128_wf
def dot_S16000x256_S256x128_S16000x128_1_0_0_1_n_n : DotDims S16000x256 S256x128 S16000x128 where
  lhsContracting := [1]
  rhsContracting := [0]
  lhsNonContracting := [0]
  rhsNonContracting := [1]
  lhsBatch := []
  rhsBatch := []
  wf := dot_S16000x256_S256x128_S16000x128_1_0_0_1_n_n_wf
def dot_S16000x128_S128x1_S16000x1_1_0_0_1_n_n : DotDims S16000x128 S128x1 S16000x1 where
  lhsContracting := [1]
  rhsContracting := [0]
  lhsNonContracting := [0]
  rhsNonContracting := [1]
  lhsBatch := []
  rhsBatch := []
  wf := dot_S16000x128_S128x1_S16000x1_1_0_0_1_n_n_wf
def gather_S16000_S512000x1_S512000_n_0_n_n_0_1_1 : GatherDims S16000 S512000x1 S512000 where
  offsetDims := []
  collapsedSliceDims := [0]
  operandBatchingDims := []
  startIndicesBatchingDims := []
  startIndexMap := [0]
  indexVectorDim := 1
  sliceSizes := ![1]
  wf := gather_S16000_S512000x1_S512000_n_0_n_n_0_1_1_wf
def dot_S256000x256_S256x256_S256000x256_1_0_0_1_n_n : DotDims S256000x256 S256x256 S256000x256 where
  lhsContracting := [1]
  rhsContracting := [0]
  lhsNonContracting := [0]
  rhsNonContracting := [1]
  lhsBatch := []
  rhsBatch := []
  wf := dot_S256000x256_S256x256_S256000x256_1_0_0_1_n_n_wf
def gather_S512000_S512000x1_S512000_n_0_n_n_0_1_1 : GatherDims S512000 S512000x1 S512000 where
  offsetDims := []
  collapsedSliceDims := [0]
  operandBatchingDims := []
  startIndicesBatchingDims := []
  startIndexMap := [0]
  indexVectorDim := 1
  sliceSizes := ![1]
  wf := gather_S512000_S512000x1_S512000_n_0_n_n_0_1_1_wf
def scatter_S256000_S512000x1_S512000_n_0_0_1 : ScatterDims S256000 S512000x1 S512000 where
  updateWindowDims := []
  insertedWindowDims := [0]
  scatterDimsToOperandDims := [0]
  indexVectorDim := 1
  wf := scatter_S256000_S512000x1_S512000_n_0_0_1_wf
def scatter_S16000_S512000x1_S512000_n_0_0_1 : ScatterDims S16000 S512000x1 S512000 where
  updateWindowDims := []
  insertedWindowDims := [0]
  scatterDimsToOperandDims := [0]
  indexVectorDim := 1
  wf := scatter_S16000_S512000x1_S512000_n_0_0_1_wf
def gather_S256000x256_S512000x1_S512000x256_1_0_n_n_0_1_1256 : GatherDims S256000x256 S512000x1 S512000x256 where
  offsetDims := [1]
  collapsedSliceDims := [0]
  operandBatchingDims := []
  startIndicesBatchingDims := []
  startIndexMap := [0]
  indexVectorDim := 1
  sliceSizes := ![1, 256]
  wf := gather_S256000x256_S512000x1_S512000x256_1_0_n_n_0_1_1256_wf
def scatter_S16000x256_S512000x1_S512000x256_1_0_0_1 : ScatterDims S16000x256 S512000x1 S512000x256 where
  updateWindowDims := [1]
  insertedWindowDims := [0]
  scatterDimsToOperandDims := [0]
  indexVectorDim := 1
  wf := scatter_S16000x256_S512000x1_S512000x256_1_0_0_1_wf
def gather_S256000_S512000x1_S512000_n_0_n_n_0_1_1 : GatherDims S256000 S512000x1 S512000 where
  offsetDims := []
  collapsedSliceDims := [0]
  operandBatchingDims := []
  startIndicesBatchingDims := []
  startIndexMap := [0]
  indexVectorDim := 1
  sliceSizes := ![1]
  wf := gather_S256000_S512000x1_S512000_n_0_n_n_0_1_1_wf
def gather_S16000x256_S512000x1_S512000x256_1_0_n_n_0_1_1256 : GatherDims S16000x256 S512000x1 S512000x256 where
  offsetDims := [1]
  collapsedSliceDims := [0]
  operandBatchingDims := []
  startIndicesBatchingDims := []
  startIndexMap := [0]
  indexVectorDim := 1
  sliceSizes := ![1, 256]
  wf := gather_S16000x256_S512000x1_S512000x256_1_0_n_n_0_1_1256_wf
def scatter_S256000x256_S512000x1_S512000x256_1_0_0_1 : ScatterDims S256000x256 S512000x1 S512000x256 where
  updateWindowDims := [1]
  insertedWindowDims := [0]
  scatterDimsToOperandDims := [0]
  indexVectorDim := 1
  wf := scatter_S256000x256_S512000x1_S512000x256_1_0_0_1_wf
def dot_S256000x256_S256x128_S256000x128_1_0_0_1_n_n : DotDims S256000x256 S256x128 S256000x128 where
  lhsContracting := [1]
  rhsContracting := [0]
  lhsNonContracting := [0]
  rhsNonContracting := [1]
  lhsBatch := []
  rhsBatch := []
  wf := dot_S256000x256_S256x128_S256000x128_1_0_0_1_n_n_wf
def gather_S256000x128_S512000x1_S512000x128_1_0_n_n_0_1_1128 : GatherDims S256000x128 S512000x1 S512000x128 where
  offsetDims := [1]
  collapsedSliceDims := [0]
  operandBatchingDims := []
  startIndicesBatchingDims := []
  startIndexMap := [0]
  indexVectorDim := 1
  sliceSizes := ![1, 128]
  wf := gather_S256000x128_S512000x1_S512000x128_1_0_n_n_0_1_1128_wf
def scatter_S16000x128_S512000x1_S512000x128_1_0_0_1 : ScatterDims S16000x128 S512000x1 S512000x128 where
  updateWindowDims := [1]
  insertedWindowDims := [0]
  scatterDimsToOperandDims := [0]
  indexVectorDim := 1
  wf := scatter_S16000x128_S512000x1_S512000x128_1_0_0_1_wf
def gather_S16000x128_S512000x1_S512000x128_1_0_n_n_0_1_1128 : GatherDims S16000x128 S512000x1 S512000x128 where
  offsetDims := [1]
  collapsedSliceDims := [0]
  operandBatchingDims := []
  startIndicesBatchingDims := []
  startIndexMap := [0]
  indexVectorDim := 1
  sliceSizes := ![1, 128]
  wf := gather_S16000x128_S512000x1_S512000x128_1_0_n_n_0_1_1128_wf
def scatter_S256000x128_S512000x1_S512000x128_1_0_0_1 : ScatterDims S256000x128 S512000x1 S512000x128 where
  updateWindowDims := [1]
  insertedWindowDims := [0]
  scatterDimsToOperandDims := [0]
  indexVectorDim := 1
  wf := scatter_S256000x128_S512000x1_S512000x128_1_0_0_1_wf
def dot_S256000x384_S384x512_S256000x512_1_0_0_1_n_n : DotDims S256000x384 S384x512 S256000x512 where
  lhsContracting := [1]
  rhsContracting := [0]
  lhsNonContracting := [0]
  rhsNonContracting := [1]
  lhsBatch := []
  rhsBatch := []
  wf := dot_S256000x384_S384x512_S256000x512_1_0_0_1_n_n_wf
def dot_S256000x512_S512x128_S256000x128_1_0_0_1_n_n : DotDims S256000x512 S512x128 S256000x128 where
  lhsContracting := [1]
  rhsContracting := [0]
  lhsNonContracting := [0]
  rhsNonContracting := [1]
  lhsBatch := []
  rhsBatch := []
  wf := dot_S256000x512_S512x128_S256000x128_1_0_0_1_n_n_wf
def dot_S256000x128_S128x1_S256000x1_1_0_0_1_n_n : DotDims S256000x128 S128x1 S256000x1 where
  lhsContracting := [1]
  rhsContracting := [0]
  lhsNonContracting := [0]
  rhsNonContracting := [1]
  lhsBatch := []
  rhsBatch := []
  wf := dot_S256000x128_S128x1_S256000x1_1_0_0_1_n_n_wf

class Facts : Prop extends Facts₀ where

variable [Facts]
-- ==== Proof.HostBase.lean ====
import proofs.«166373_j81312320848270_2_alg».proof.Proof.Gen.KernelIdeal.Launch
import proofs.«166373_j81312320848270_2_alg».proof.Proof.RefStages
import Idealize.ShloMosaic.Lib.StableHlo.Run

noncomputable section

namespace Cert.Bridge.Host

open Idealize.ShloMosaic Idealize.ShloMosaic.TcCoe Idealize.SL.Sem Idealize.ShloMosaic.StableHlo
open Cert.KernelIdeal Cert.KernelIdeal.Gen

variable {F : FTy → Type} [FloatOps F]

/-! # A buffer that a stretch of host operations does not write keeps its contents

The kernel program interleaves four kernel launches with stretches of host operations. Each stretch is a fold
`StableHlo.after ops W` over the buffer contents `W` it starts from; a buffer written by none of its operations
holds after the stretch what it held before. -/

/-- Closes `StableHlo.after ops W b = W b` for a literal stretch `ops` (a reducible name) none of whose operations
    writes `b`: each operation writes one literal buffer, and distinct references are decided apart. -/
macro "stretch_keeps" : tactic =>
  `(tactic| (refine StableHlo.after_of_forall_not_mem _ _ (List.forall_iff_forall_mem.mp ?_)
             simp only [List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Two stretches run one after the other are their concatenation run as one. -/
theorem after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by
    rw [List.cons_append, StableHlo.after_cons, StableHlo.after_cons, after_append l₁ l₂]

end Cert.Bridge.Host

end
-- ==== Proof.HostA.lean ====
import proofs.«166373_j81312320848270_2_alg».proof.Proof.HostBase

noncomputable section

namespace Cert.Bridge.Host

open Idealize.ShloMosaic Idealize.ShloMosaic.TcCoe Idealize.SL.Sem Idealize.ShloMosaic.StableHlo
open Cert.KernelIdeal Cert.KernelIdeal.Gen

variable {F : FTy → Type} [FloatOps F]

/-! # The first stretch: the index vectors and the gathered rows

Before the first launch the kernel program splits the two index arrays into their rows (the hyperedge incidence's
edge ids and node ids), wraps negative indices, and gathers: the node features at each edge's two endpoints, each
node's graph embedding (through the batch vector), and each edge's graph embedding. The reference program computes
the same arrays by the same operations; the equalities below are between the two programs' terms, for any float
instance. -/

variable (W : Valuation τ sig (Elt F))

/-- The incidence's edge ids: row 0 of the incidence array. -/
theorem edgeIds : StableHlo.after hostOps0 W (Proc.devRef .tc main_v5) = Cert.ReferenceIdeal.Read.val_main_v60 (F := F) (W (Proc.devRef .tc main_arg5)) := by
  dsimp only [hostOps0]
  after_results_simp
  rfl

/-- The incidence's node ids: row 1 of the incidence array. -/
theorem nodeIds : StableHlo.after hostOps0 W (Proc.devRef .tc main_v7) = Cert.ReferenceIdeal.Read.val_main_v62 (F := F) (W (Proc.devRef .tc main_arg5)) := by
  dsimp only [hostOps0]
  after_results_simp
  rfl

/-- The node features at each edge's first endpoint. -/
theorem featCol : StableHlo.after hostOps0 W (Proc.devRef .tc main_v14)
    = Cert.ReferenceIdeal.Read.val_main_v10 (F := F) (W (Proc.devRef .tc main_arg0)) (W (Proc.devRef .tc main_arg2)) := by
  dsimp only [hostOps0]
  after_results_simp
  rfl

/-- The node features at each edge's second endpoint. -/
theorem featRow : StableHlo.after hostOps0 W (Proc.devRef .tc main_v21)
    = Cert.ReferenceIdeal.Read.val_main_v17 (F := F) (W (Proc.devRef .tc main_arg0)) (W (Proc.devRef .tc main_arg2)) := by
  dsimp only [hostOps0]
  after_results_simp
  rfl

/-- Each edge's graph embedding (the embedding of its first endpoint's graph). -/
theorem edgeEmb : StableHlo.after hostOps0 W (Proc.devRef .tc main_v35)
    = Cert.ReferenceIdeal.Read.val_main_v34 (F := F) (W (Proc.devRef .tc main_arg1)) (W (Proc.devRef .tc main_arg2)) (W (Proc.devRef .tc main_arg4)) := by
  dsimp only [hostOps0]
  after_results_simp
  rfl

/-- Each node's graph embedding. -/
theorem nodeEmb : StableHlo.after hostOps0 W (Proc.devRef .tc main_v42)
    = Cert.ReferenceIdeal.Read.val_main_v41 (F := F) (W (Proc.devRef .tc main_arg1)) (W (Proc.devRef .tc main_arg4)) := by
  dsimp only [hostOps0]
  after_results_simp
  rfl

end Cert.Bridge.Host

end
-- ==== Proof.HostB.lean ====
import proofs.«166373_j81312320848270_2_alg».proof.Proof.HostBase

noncomputable section

namespace Cert.Bridge.Host

open Idealize.ShloMosaic Idealize.ShloMosaic.TcCoe Idealize.SL.Sem Idealize.ShloMosaic.StableHlo
open Cert.KernelIdeal Cert.KernelIdeal.Gen

variable {F : FTy → Type} [FloatOps F]

/-! # The stretch between the first and the second launch: the two degree normalisers

From the per-node weight (the first launch's result) the kernel program gathers the weight of each incidence's node,
gathers it once more through the same node ids, sums it per edge (a scatter-add), and inverts that degree where it is
not zero; it counts the incidences of each node and inverts that count where it is not zero. The reference program
computes both normalisers by the same operations from the same per-node weight. -/

/-- The buffer contents after the nine consecutive host stretches between the first and the second launch. -/
abbrev afterNormalisers (W : Valuation τ sig (Elt F)) : Valuation τ sig (Elt F) :=
  StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
      (StableHlo.after hostOps1 W))))))))

variable (W : Valuation τ sig (Elt F))

/-- The inverse edge degree: if the stretch starts from the reference's per-node weight and incidence rows, it
    leaves the reference's inverse edge degree. -/
theorem invEdgeDegree (x0 : (⟨S16000x128, .f32⟩ : BufTy).Contents (Elt F)) (x1 : (⟨S512x128, .f32⟩ : BufTy).Contents (Elt F)) (x4 : (⟨S16000, .i32⟩ : BufTy).Contents (Elt F)) (x5 : (⟨S2x512000, .i32⟩ : BufTy).Contents (Elt F)) (x6 : (⟨S256x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F))
    (hw : W (Proc.devRef .tc main_v49) = Cert.ReferenceIdeal.Read.val_main_v57 (F := F) x0 x1 x4 x6 x7 x8 x9)
    (he : W (Proc.devRef .tc main_v5) = Cert.ReferenceIdeal.Read.val_main_v60 (F := F) x5) (hn : W (Proc.devRef .tc main_v7) = Cert.ReferenceIdeal.Read.val_main_v62 (F := F) x5) :
    afterNormalisers W (Proc.devRef .tc main_v75) = Cert.ReferenceIdeal.Read.val_main_v88 (F := F) x0 x1 x4 x5 x6 x7 x8 x9 := by
  dsimp only [afterNormalisers, hostOps1, hostOps1_1, hostOps1_2, hostOps1_3, hostOps1_4, hostOps1_5, hostOps1_6, hostOps1_7, hostOps1_8]
  after_results_simp
  rw [hw, he, hn]
  rfl

/-- The inverse node degree (the inverse of each node's incidence count). -/
theorem invNodeDegree (x5 : (⟨S2x512000, .i32⟩ : BufTy).Contents (Elt F))
    (hn : W (Proc.devRef .tc main_v7) = Cert.ReferenceIdeal.Read.val_main_v62 (F := F) x5) :
    afterNormalisers W (Proc.devRef .tc main_v87) = Cert.ReferenceIdeal.Read.val_main_v100 (F := F) x5 := by
  dsimp only [afterNormalisers, hostOps1, hostOps1_1, hostOps1_2, hostOps1_3, hostOps1_4, hostOps1_5, hostOps1_6, hostOps1_7, hostOps1_8]
  after_results_simp
  rw [hn]
  rfl

/-- The reference computes each normaliser once per convolution; the two computations are one term. -/
theorem invEdgeDegree_again (x0 : (⟨S16000x128, .f32⟩ : BufTy).Contents (Elt F)) (x1 : (⟨S512x128, .f32⟩ : BufTy).Contents (Elt F)) (x4 : (⟨S16000, .i32⟩ : BufTy).Contents (Elt F)) (x5 : (⟨S2x512000, .i32⟩ : BufTy).Contents (Elt F)) (x6 : (⟨S256x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F)) :
    Cert.ReferenceIdeal.Read.val_main_v168 (F := F) x0 x1 x4 x5 x6 x7 x8 x9 = Cert.ReferenceIdeal.Read.val_main_v88 (F := F) x0 x1 x4 x5 x6 x7 x8 x9 := rfl

theorem invNodeDegree_again (x5 : (⟨S2x512000, .i32⟩ : BufTy).Contents (Elt F)) :
    Cert.ReferenceIdeal.Read.val_main_v180 (F := F) x5 = Cert.ReferenceIdeal.Read.val_main_v100 (F := F) x5 := rfl

end Cert.Bridge.Host

end
-- ==== Proof.HostC.lean ====
import proofs.«166373_j81312320848270_2_alg».proof.Proof.HostBase

noncomputable section

namespace Cert.Bridge.Host

open Idealize.ShloMosaic Idealize.ShloMosaic.TcCoe Idealize.SL.Sem Idealize.ShloMosaic.StableHlo
open Cert.KernelIdeal Cert.KernelIdeal.Gen

variable {F : FTy → Type} [FloatOps F]

/-! # The message passing after a launch

After the second launch (the first convolution's linear map) and again after the third (the second's), the kernel
program passes messages along the incidences: each node sums, over its incidences, its inverse degree times the
incident edge's row; each edge then sums, over its incidences, its inverse degree times the incident node's row.
The reference program does the same by the same gathers, products and scatter-adds. -/

variable (W : Valuation τ sig (Elt F))

/-- The first convolution's raw output (before bias and activation). -/
theorem firstConvRaw (x0 : (⟨S16000x128, .f32⟩ : BufTy).Contents (Elt F)) (x1 : (⟨S512x128, .f32⟩ : BufTy).Contents (Elt F)) (x2 : (⟨S2x256000, .i32⟩ : BufTy).Contents (Elt F)) (x4 : (⟨S16000, .i32⟩ : BufTy).Contents (Elt F)) (x5 : (⟨S2x512000, .i32⟩ : BufTy).Contents (Elt F)) (x6 : (⟨S256x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F)) (x10 : (⟨S256x256, .f32⟩ : BufTy).Contents (Elt F))
    (hx : W (Proc.devRef .tc main_v90) = Cert.ReferenceIdeal.Read.val_main_v70 (F := F) x0 x2 x10)
    (hb : W (Proc.devRef .tc main_v87) = Cert.ReferenceIdeal.Read.val_main_v100 (F := F) x5)
    (hd : W (Proc.devRef .tc main_v75) = Cert.ReferenceIdeal.Read.val_main_v88 (F := F) x0 x1 x4 x5 x6 x7 x8 x9)
    (he : W (Proc.devRef .tc main_v5) = Cert.ReferenceIdeal.Read.val_main_v60 (F := F) x5) (hn : W (Proc.devRef .tc main_v7) = Cert.ReferenceIdeal.Read.val_main_v62 (F := F) x5) :
    StableHlo.after hostOps2 W (Proc.devRef .tc main_v130) = Cert.ReferenceIdeal.Read.val_main_v140 (F := F) x0 x1 x2 x4 x5 x6 x7 x8 x9 x10 := by
  dsimp only [hostOps2]
  after_results_simp
  rw [hx, hb, hd, he, hn]
  rfl

/-- The second convolution's raw output. The reference recomputes the two normalisers for it; they are the same
    terms as for the first. -/
theorem secondConvRaw (x0 : (⟨S16000x128, .f32⟩ : BufTy).Contents (Elt F)) (x1 : (⟨S512x128, .f32⟩ : BufTy).Contents (Elt F)) (x2 : (⟨S2x256000, .i32⟩ : BufTy).Contents (Elt F)) (x4 : (⟨S16000, .i32⟩ : BufTy).Contents (Elt F)) (x5 : (⟨S2x512000, .i32⟩ : BufTy).Contents (Elt F)) (x6 : (⟨S256x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F)) (x10 : (⟨S256x256, .f32⟩ : BufTy).Contents (Elt F)) (x11 : (⟨S256, .f32⟩ : BufTy).Contents (Elt F)) (x12 : (⟨S256x128, .f32⟩ : BufTy).Contents (Elt F))
    (hx : W (Proc.devRef .tc main_v132) = Cert.ReferenceIdeal.Read.val_main_v150 (F := F) x0 x1 x2 x4 x5 x6 x7 x8 x9 x10 x11 x12)
    (hb : W (Proc.devRef .tc main_v87) = Cert.ReferenceIdeal.Read.val_main_v100 (F := F) x5)
    (hd : W (Proc.devRef .tc main_v75) = Cert.ReferenceIdeal.Read.val_main_v88 (F := F) x0 x1 x4 x5 x6 x7 x8 x9)
    (he : W (Proc.devRef .tc main_v5) = Cert.ReferenceIdeal.Read.val_main_v60 (F := F) x5) (hn : W (Proc.devRef .tc main_v7) = Cert.ReferenceIdeal.Read.val_main_v62 (F := F) x5) :
    StableHlo.after hostOps3 W (Proc.devRef .tc main_v172) = Cert.ReferenceIdeal.Read.val_main_v220 (F := F) x0 x1 x2 x4 x5 x6 x7 x8 x9 x10 x11 x12 := by
  dsimp only [hostOps3]
  after_results_simp
  rw [hx, hb, hd, he, hn]
  rfl

end Cert.Bridge.Host

end
-- ==== Proof.Levels.lean ====
import proofs.«166373_j81312320848270_2_alg».proof.Proof.Gen.KernelIdeal.Frame
import proofs.«166373_j81312320848270_2_alg».proof.Proof.HostA
import proofs.«166373_j81312320848270_2_alg».proof.Proof.HostB
import proofs.«166373_j81312320848270_2_alg».proof.Proof.HostC

noncomputable section

namespace Cert.Bridge.Levels

open Idealize.ShloMosaic Idealize.ShloMosaic.TcCoe Idealize.SL.Sem Idealize.ShloMosaic.StableHlo
open Cert.KernelIdeal Cert.KernelIdeal.Gen

variable {F : FTy → Type} [FloatOps F]

open Cert.Bridge.Host

/-! # The buffer contents at each boundary of the kernel program

The kernel program runs: a host stretch, the first launch (the per-node weight), nine short host stretches (the two
degree normalisers), the second launch (the first convolution's linear map), a host stretch (message passing), the
third launch (bias, activation and the second convolution's linear map), a host stretch (message passing, and the
weights' slices and reshapes), the fourth launch (the generator, the combination and the classifier). `W j` is the
buffer contents at boundary `j` of that run. This module follows the buffers that live across boundaries: an argument
array is never written; an index vector, a gathered array or a normaliser, once computed, is kept by every later
stretch and launch; and each message-passing stretch maps the reference's term for its input to the reference's term
for its output. Nothing here depends on the float instance. -/

variable (m : (ℓ : Loc nD τ sig) → Buf (Elt F) ℓ) (ρ : Dev nD → PrngReg) (c : Dev nD)

/-- Closes `afterNormalisers W b = W b`: none of the nine stretches writes `b`. -/
macro "normalisers_keep" : tactic =>
  `(tactic| (iterate 9 (refine Eq.trans (by stretch_keeps) ?_)
             rfl))

/-! ## The argument arrays -/

theorem arg10_W1 : W1 m ρ c (Proc.devRef .tc main_arg10) = (m ((c : Thread nD τ).loc main_arg10)) := by
  show StableHlo.after hostOps0 (W0 m ρ c) (Proc.devRef .tc main_arg10) = W0 m ρ c (Proc.devRef .tc main_arg10)
  stretch_keeps
theorem arg10_W2 : W2 m ρ c (Proc.devRef .tc main_arg10) = (m ((c : Thread nD τ).loc main_arg10)) := (W2_of_ne m ρ c main_arg10 (by decide)).trans (arg10_W1 m ρ c)
theorem arg10_W11 : W11 m ρ c (Proc.devRef .tc main_arg10) = (m ((c : Thread nD τ).loc main_arg10)) :=
  (show afterNormalisers (W2 m ρ c) (Proc.devRef .tc main_arg10) = W2 m ρ c (Proc.devRef .tc main_arg10) by normalisers_keep).trans (arg10_W2 m ρ c)
theorem arg10_W12 : W12 m ρ c (Proc.devRef .tc main_arg10) = (m ((c : Thread nD τ).loc main_arg10)) := (W12_of_ne m ρ c main_arg10 (by decide)).trans (arg10_W11 m ρ c)
theorem arg10_W13 : W13 m ρ c (Proc.devRef .tc main_arg10) = (m ((c : Thread nD τ).loc main_arg10)) :=
  (show StableHlo.after hostOps2 (W12 m ρ c) (Proc.devRef .tc main_arg10) = W12 m ρ c (Proc.devRef .tc main_arg10) by stretch_keeps).trans (arg10_W12 m ρ c)
theorem arg10_W14 : W14 m ρ c (Proc.devRef .tc main_arg10) = (m ((c : Thread nD τ).loc main_arg10)) := (W14_of_ne m ρ c main_arg10 (by decide)).trans (arg10_W13 m ρ c)

theorem arg11_W1 : W1 m ρ c (Proc.devRef .tc main_arg11) = (m ((c : Thread nD τ).loc main_arg11)) := by
  show StableHlo.after hostOps0 (W0 m ρ c) (Proc.devRef .tc main_arg11) = W0 m ρ c (Proc.devRef .tc main_arg11)
  stretch_keeps
theorem arg11_W2 : W2 m ρ c (Proc.devRef .tc main_arg11) = (m ((c : Thread nD τ).loc main_arg11)) := (W2_of_ne m ρ c main_arg11 (by decide)).trans (arg11_W1 m ρ c)
theorem arg11_W11 : W11 m ρ c (Proc.devRef .tc main_arg11) = (m ((c : Thread nD τ).loc main_arg11)) :=
  (show afterNormalisers (W2 m ρ c) (Proc.devRef .tc main_arg11) = W2 m ρ c (Proc.devRef .tc main_arg11) by normalisers_keep).trans (arg11_W2 m ρ c)
theorem arg11_W12 : W12 m ρ c (Proc.devRef .tc main_arg11) = (m ((c : Thread nD τ).loc main_arg11)) := (W12_of_ne m ρ c main_arg11 (by decide)).trans (arg11_W11 m ρ c)
theorem arg11_W13 : W13 m ρ c (Proc.devRef .tc main_arg11) = (m ((c : Thread nD τ).loc main_arg11)) :=
  (show StableHlo.after hostOps2 (W12 m ρ c) (Proc.devRef .tc main_arg11) = W12 m ρ c (Proc.devRef .tc main_arg11) by stretch_keeps).trans (arg11_W12 m ρ c)
theorem arg11_W14 : W14 m ρ c (Proc.devRef .tc main_arg11) = (m ((c : Thread nD τ).loc main_arg11)) := (W14_of_ne m ρ c main_arg11 (by decide)).trans (arg11_W13 m ρ c)

theorem arg12_W1 : W1 m ρ c (Proc.devRef .tc main_arg12) = (m ((c : Thread nD τ).loc main_arg12)) := by
  show StableHlo.after hostOps0 (W0 m ρ c) (Proc.devRef .tc main_arg12) = W0 m ρ c (Proc.devRef .tc main_arg12)
  stretch_keeps
theorem arg12_W2 : W2 m ρ c (Proc.devRef .tc main_arg12) = (m ((c : Thread nD τ).loc main_arg12)) := (W2_of_ne m ρ c main_arg12 (by decide)).trans (arg12_W1 m ρ c)
theorem arg12_W11 : W11 m ρ c (Proc.devRef .tc main_arg12) = (m ((c : Thread nD τ).loc main_arg12)) :=
  (show afterNormalisers (W2 m ρ c) (Proc.devRef .tc main_arg12) = W2 m ρ c (Proc.devRef .tc main_arg12) by normalisers_keep).trans (arg12_W2 m ρ c)
theorem arg12_W12 : W12 m ρ c (Proc.devRef .tc main_arg12) = (m ((c : Thread nD τ).loc main_arg12)) := (W12_of_ne m ρ c main_arg12 (by decide)).trans (arg12_W11 m ρ c)
theorem arg12_W13 : W13 m ρ c (Proc.devRef .tc main_arg12) = (m ((c : Thread nD τ).loc main_arg12)) :=
  (show StableHlo.after hostOps2 (W12 m ρ c) (Proc.devRef .tc main_arg12) = W12 m ρ c (Proc.devRef .tc main_arg12) by stretch_keeps).trans (arg12_W12 m ρ c)

theorem arg13_W1 : W1 m ρ c (Proc.devRef .tc main_arg13) = (m ((c : Thread nD τ).loc main_arg13)) := by
  show StableHlo.after hostOps0 (W0 m ρ c) (Proc.devRef .tc main_arg13) = W0 m ρ c (Proc.devRef .tc main_arg13)
  stretch_keeps
theorem arg13_W2 : W2 m ρ c (Proc.devRef .tc main_arg13) = (m ((c : Thread nD τ).loc main_arg13)) := (W2_of_ne m ρ c main_arg13 (by decide)).trans (arg13_W1 m ρ c)
theorem arg13_W11 : W11 m ρ c (Proc.devRef .tc main_arg13) = (m ((c : Thread nD τ).loc main_arg13)) :=
  (show afterNormalisers (W2 m ρ c) (Proc.devRef .tc main_arg13) = W2 m ρ c (Proc.devRef .tc main_arg13) by normalisers_keep).trans (arg13_W2 m ρ c)
theorem arg13_W12 : W12 m ρ c (Proc.devRef .tc main_arg13) = (m ((c : Thread nD τ).loc main_arg13)) := (W12_of_ne m ρ c main_arg13 (by decide)).trans (arg13_W11 m ρ c)
theorem arg13_W13 : W13 m ρ c (Proc.devRef .tc main_arg13) = (m ((c : Thread nD τ).loc main_arg13)) :=
  (show StableHlo.after hostOps2 (W12 m ρ c) (Proc.devRef .tc main_arg13) = W12 m ρ c (Proc.devRef .tc main_arg13) by stretch_keeps).trans (arg13_W12 m ρ c)
theorem arg13_W14 : W14 m ρ c (Proc.devRef .tc main_arg13) = (m ((c : Thread nD τ).loc main_arg13)) := (W14_of_ne m ρ c main_arg13 (by decide)).trans (arg13_W13 m ρ c)

theorem arg14_W1 : W1 m ρ c (Proc.devRef .tc main_arg14) = (m ((c : Thread nD τ).loc main_arg14)) := by
  show StableHlo.after hostOps0 (W0 m ρ c) (Proc.devRef .tc main_arg14) = W0 m ρ c (Proc.devRef .tc main_arg14)
  stretch_keeps
theorem arg14_W2 : W2 m ρ c (Proc.devRef .tc main_arg14) = (m ((c : Thread nD τ).loc main_arg14)) := (W2_of_ne m ρ c main_arg14 (by decide)).trans (arg14_W1 m ρ c)
theorem arg14_W11 : W11 m ρ c (Proc.devRef .tc main_arg14) = (m ((c : Thread nD τ).loc main_arg14)) :=
  (show afterNormalisers (W2 m ρ c) (Proc.devRef .tc main_arg14) = W2 m ρ c (Proc.devRef .tc main_arg14) by normalisers_keep).trans (arg14_W2 m ρ c)
theorem arg14_W12 : W12 m ρ c (Proc.devRef .tc main_arg14) = (m ((c : Thread nD τ).loc main_arg14)) := (W12_of_ne m ρ c main_arg14 (by decide)).trans (arg14_W11 m ρ c)
theorem arg14_W13 : W13 m ρ c (Proc.devRef .tc main_arg14) = (m ((c : Thread nD τ).loc main_arg14)) :=
  (show StableHlo.after hostOps2 (W12 m ρ c) (Proc.devRef .tc main_arg14) = W12 m ρ c (Proc.devRef .tc main_arg14) by stretch_keeps).trans (arg14_W12 m ρ c)
theorem arg14_W14 : W14 m ρ c (Proc.devRef .tc main_arg14) = (m ((c : Thread nD τ).loc main_arg14)) := (W14_of_ne m ρ c main_arg14 (by decide)).trans (arg14_W13 m ρ c)

theorem arg15_W1 : W1 m ρ c (Proc.devRef .tc main_arg15) = (m ((c : Thread nD τ).loc main_arg15)) := by
  show StableHlo.after hostOps0 (W0 m ρ c) (Proc.devRef .tc main_arg15) = W0 m ρ c (Proc.devRef .tc main_arg15)
  stretch_keeps
theorem arg15_W2 : W2 m ρ c (Proc.devRef .tc main_arg15) = (m ((c : Thread nD τ).loc main_arg15)) := (W2_of_ne m ρ c main_arg15 (by decide)).trans (arg15_W1 m ρ c)
theorem arg15_W11 : W11 m ρ c (Proc.devRef .tc main_arg15) = (m ((c : Thread nD τ).loc main_arg15)) :=
  (show afterNormalisers (W2 m ρ c) (Proc.devRef .tc main_arg15) = W2 m ρ c (Proc.devRef .tc main_arg15) by normalisers_keep).trans (arg15_W2 m ρ c)
theorem arg15_W12 : W12 m ρ c (Proc.devRef .tc main_arg15) = (m ((c : Thread nD τ).loc main_arg15)) := (W12_of_ne m ρ c main_arg15 (by decide)).trans (arg15_W11 m ρ c)
theorem arg15_W13 : W13 m ρ c (Proc.devRef .tc main_arg15) = (m ((c : Thread nD τ).loc main_arg15)) :=
  (show StableHlo.after hostOps2 (W12 m ρ c) (Proc.devRef .tc main_arg15) = W12 m ρ c (Proc.devRef .tc main_arg15) by stretch_keeps).trans (arg15_W12 m ρ c)
theorem arg15_W14 : W14 m ρ c (Proc.devRef .tc main_arg15) = (m ((c : Thread nD τ).loc main_arg15)) := (W14_of_ne m ρ c main_arg15 (by decide)).trans (arg15_W13 m ρ c)

theorem arg16_W1 : W1 m ρ c (Proc.devRef .tc main_arg16) = (m ((c : Thread nD τ).loc main_arg16)) := by
  show StableHlo.after hostOps0 (W0 m ρ c) (Proc.devRef .tc main_arg16) = W0 m ρ c (Proc.devRef .tc main_arg16)
  stretch_keeps
theorem arg16_W2 : W2 m ρ c (Proc.devRef .tc main_arg16) = (m ((c : Thread nD τ).loc main_arg16)) := (W2_of_ne m ρ c main_arg16 (by decide)).trans (arg16_W1 m ρ c)
theorem arg16_W11 : W11 m ρ c (Proc.devRef .tc main_arg16) = (m ((c : Thread nD τ).loc main_arg16)) :=
  (show afterNormalisers (W2 m ρ c) (Proc.devRef .tc main_arg16) = W2 m ρ c (Proc.devRef .tc main_arg16) by normalisers_keep).trans (arg16_W2 m ρ c)
theorem arg16_W12 : W12 m ρ c (Proc.devRef .tc main_arg16) = (m ((c : Thread nD τ).loc main_arg16)) := (W12_of_ne m ρ c main_arg16 (by decide)).trans (arg16_W11 m ρ c)
theorem arg16_W13 : W13 m ρ c (Proc.devRef .tc main_arg16) = (m ((c : Thread nD τ).loc main_arg16)) :=
  (show StableHlo.after hostOps2 (W12 m ρ c) (Proc.devRef .tc main_arg16) = W12 m ρ c (Proc.devRef .tc main_arg16) by stretch_keeps).trans (arg16_W12 m ρ c)
theorem arg16_W14 : W14 m ρ c (Proc.devRef .tc main_arg16) = (m ((c : Thread nD τ).loc main_arg16)) := (W14_of_ne m ρ c main_arg16 (by decide)).trans (arg16_W13 m ρ c)
theorem arg16_W15 : W15 m ρ c (Proc.devRef .tc main_arg16) = (m ((c : Thread nD τ).loc main_arg16)) :=
  (show StableHlo.after hostOps3 (W14 m ρ c) (Proc.devRef .tc main_arg16) = W14 m ρ c (Proc.devRef .tc main_arg16) by stretch_keeps).trans (arg16_W14 m ρ c)

theorem arg17_W1 : W1 m ρ c (Proc.devRef .tc main_arg17) = (m ((c : Thread nD τ).loc main_arg17)) := by
  show StableHlo.after hostOps0 (W0 m ρ c) (Proc.devRef .tc main_arg17) = W0 m ρ c (Proc.devRef .tc main_arg17)
  stretch_keeps
theorem arg17_W2 : W2 m ρ c (Proc.devRef .tc main_arg17) = (m ((c : Thread nD τ).loc main_arg17)) := (W2_of_ne m ρ c main_arg17 (by decide)).trans (arg17_W1 m ρ c)
theorem arg17_W11 : W11 m ρ c (Proc.devRef .tc main_arg17) = (m ((c : Thread nD τ).loc main_arg17)) :=
  (show afterNormalisers (W2 m ρ c) (Proc.devRef .tc main_arg17) = W2 m ρ c (Proc.devRef .tc main_arg17) by normalisers_keep).trans (arg17_W2 m ρ c)
theorem arg17_W12 : W12 m ρ c (Proc.devRef .tc main_arg17) = (m ((c : Thread nD τ).loc main_arg17)) := (W12_of_ne m ρ c main_arg17 (by decide)).trans (arg17_W11 m ρ c)
theorem arg17_W13 : W13 m ρ c (Proc.devRef .tc main_arg17) = (m ((c : Thread nD τ).loc main_arg17)) :=
  (show StableHlo.after hostOps2 (W12 m ρ c) (Proc.devRef .tc main_arg17) = W12 m ρ c (Proc.devRef .tc main_arg17) by stretch_keeps).trans (arg17_W12 m ρ c)
theorem arg17_W14 : W14 m ρ c (Proc.devRef .tc main_arg17) = (m ((c : Thread nD τ).loc main_arg17)) := (W14_of_ne m ρ c main_arg17 (by decide)).trans (arg17_W13 m ρ c)

theorem arg18_W1 : W1 m ρ c (Proc.devRef .tc main_arg18) = (m ((c : Thread nD τ).loc main_arg18)) := by
  show StableHlo.after hostOps0 (W0 m ρ c) (Proc.devRef .tc main_arg18) = W0 m ρ c (Proc.devRef .tc main_arg18)
  stretch_keeps
theorem arg18_W2 : W2 m ρ c (Proc.devRef .tc main_arg18) = (m ((c : Thread nD τ).loc main_arg18)) := (W2_of_ne m ρ c main_arg18 (by decide)).trans (arg18_W1 m ρ c)
theorem arg18_W11 : W11 m ρ c (Proc.devRef .tc main_arg18) = (m ((c : Thread nD τ).loc main_arg18)) :=
  (show afterNormalisers (W2 m ρ c) (Proc.devRef .tc main_arg18) = W2 m ρ c (Proc.devRef .tc main_arg18) by normalisers_keep).trans (arg18_W2 m ρ c)
theorem arg18_W12 : W12 m ρ c (Proc.devRef .tc main_arg18) = (m ((c : Thread nD τ).loc main_arg18)) := (W12_of_ne m ρ c main_arg18 (by decide)).trans (arg18_W11 m ρ c)
theorem arg18_W13 : W13 m ρ c (Proc.devRef .tc main_arg18) = (m ((c : Thread nD τ).loc main_arg18)) :=
  (show StableHlo.after hostOps2 (W12 m ρ c) (Proc.devRef .tc main_arg18) = W12 m ρ c (Proc.devRef .tc main_arg18) by stretch_keeps).trans (arg18_W12 m ρ c)
theorem arg18_W14 : W14 m ρ c (Proc.devRef .tc main_arg18) = (m ((c : Thread nD τ).loc main_arg18)) := (W14_of_ne m ρ c main_arg18 (by decide)).trans (arg18_W13 m ρ c)

theorem arg19_W1 : W1 m ρ c (Proc.devRef .tc main_arg19) = (m ((c : Thread nD τ).loc main_arg19)) := by
  show StableHlo.after hostOps0 (W0 m ρ c) (Proc.devRef .tc main_arg19) = W0 m ρ c (Proc.devRef .tc main_arg19)
  stretch_keeps
theorem arg19_W2 : W2 m ρ c (Proc.devRef .tc main_arg19) = (m ((c : Thread nD τ).loc main_arg19)) := (W2_of_ne m ρ c main_arg19 (by decide)).trans (arg19_W1 m ρ c)
theorem arg19_W11 : W11 m ρ c (Proc.devRef .tc main_arg19) = (m ((c : Thread nD τ).loc main_arg19)) :=
  (show afterNormalisers (W2 m ρ c) (Proc.devRef .tc main_arg19) = W2 m ρ c (Proc.devRef .tc main_arg19) by normalisers_keep).trans (arg19_W2 m ρ c)
theorem arg19_W12 : W12 m ρ c (Proc.devRef .tc main_arg19) = (m ((c : Thread nD τ).loc main_arg19)) := (W12_of_ne m ρ c main_arg19 (by decide)).trans (arg19_W11 m ρ c)
theorem arg19_W13 : W13 m ρ c (Proc.devRef .tc main_arg19) = (m ((c : Thread nD τ).loc main_arg19)) :=
  (show StableHlo.after hostOps2 (W12 m ρ c) (Proc.devRef .tc main_arg19) = W12 m ρ c (Proc.devRef .tc main_arg19) by stretch_keeps).trans (arg19_W12 m ρ c)
theorem arg19_W14 : W14 m ρ c (Proc.devRef .tc main_arg19) = (m ((c : Thread nD τ).loc main_arg19)) := (W14_of_ne m ρ c main_arg19 (by decide)).trans (arg19_W13 m ρ c)

theorem arg20_W1 : W1 m ρ c (Proc.devRef .tc main_arg20) = (m ((c : Thread nD τ).loc main_arg20)) := by
  show StableHlo.after hostOps0 (W0 m ρ c) (Proc.devRef .tc main_arg20) = W0 m ρ c (Proc.devRef .tc main_arg20)
  stretch_keeps
theorem arg20_W2 : W2 m ρ c (Proc.devRef .tc main_arg20) = (m ((c : Thread nD τ).loc main_arg20)) := (W2_of_ne m ρ c main_arg20 (by decide)).trans (arg20_W1 m ρ c)
theorem arg20_W11 : W11 m ρ c (Proc.devRef .tc main_arg20) = (m ((c : Thread nD τ).loc main_arg20)) :=
  (show afterNormalisers (W2 m ρ c) (Proc.devRef .tc main_arg20) = W2 m ρ c (Proc.devRef .tc main_arg20) by normalisers_keep).trans (arg20_W2 m ρ c)
theorem arg20_W12 : W12 m ρ c (Proc.devRef .tc main_arg20) = (m ((c : Thread nD τ).loc main_arg20)) := (W12_of_ne m ρ c main_arg20 (by decide)).trans (arg20_W11 m ρ c)
theorem arg20_W13 : W13 m ρ c (Proc.devRef .tc main_arg20) = (m ((c : Thread nD τ).loc main_arg20)) :=
  (show StableHlo.after hostOps2 (W12 m ρ c) (Proc.devRef .tc main_arg20) = W12 m ρ c (Proc.devRef .tc main_arg20) by stretch_keeps).trans (arg20_W12 m ρ c)
theorem arg20_W14 : W14 m ρ c (Proc.devRef .tc main_arg20) = (m ((c : Thread nD τ).loc main_arg20)) := (W14_of_ne m ρ c main_arg20 (by decide)).trans (arg20_W13 m ρ c)
theorem arg20_W15 : W15 m ρ c (Proc.devRef .tc main_arg20) = (m ((c : Thread nD τ).loc main_arg20)) :=
  (show StableHlo.after hostOps3 (W14 m ρ c) (Proc.devRef .tc main_arg20) = W14 m ρ c (Proc.devRef .tc main_arg20) by stretch_keeps).trans (arg20_W14 m ρ c)

theorem arg21_W1 : W1 m ρ c (Proc.devRef .tc main_arg21) = (m ((c : Thread nD τ).loc main_arg21)) := by
  show StableHlo.after hostOps0 (W0 m ρ c) (Proc.devRef .tc main_arg21) = W0 m ρ c (Proc.devRef .tc main_arg21)
  stretch_keeps
theorem arg21_W2 : W2 m ρ c (Proc.devRef .tc main_arg21) = (m ((c : Thread nD τ).loc main_arg21)) := (W2_of_ne m ρ c main_arg21 (by decide)).trans (arg21_W1 m ρ c)
theorem arg21_W11 : W11 m ρ c (Proc.devRef .tc main_arg21) = (m ((c : Thread nD τ).loc main_arg21)) :=
  (show afterNormalisers (W2 m ρ c) (Proc.devRef .tc main_arg21) = W2 m ρ c (Proc.devRef .tc main_arg21) by normalisers_keep).trans (arg21_W2 m ρ c)
theorem arg21_W12 : W12 m ρ c (Proc.devRef .tc main_arg21) = (m ((c : Thread nD τ).loc main_arg21)) := (W12_of_ne m ρ c main_arg21 (by decide)).trans (arg21_W11 m ρ c)
theorem arg21_W13 : W13 m ρ c (Proc.devRef .tc main_arg21) = (m ((c : Thread nD τ).loc main_arg21)) :=
  (show StableHlo.after hostOps2 (W12 m ρ c) (Proc.devRef .tc main_arg21) = W12 m ρ c (Proc.devRef .tc main_arg21) by stretch_keeps).trans (arg21_W12 m ρ c)
theorem arg21_W14 : W14 m ρ c (Proc.devRef .tc main_arg21) = (m ((c : Thread nD τ).loc main_arg21)) := (W14_of_ne m ρ c main_arg21 (by decide)).trans (arg21_W13 m ρ c)

theorem arg22_W1 : W1 m ρ c (Proc.devRef .tc main_arg22) = (m ((c : Thread nD τ).loc main_arg22)) := by
  show StableHlo.after hostOps0 (W0 m ρ c) (Proc.devRef .tc main_arg22) = W0 m ρ c (Proc.devRef .tc main_arg22)
  stretch_keeps
theorem arg22_W2 : W2 m ρ c (Proc.devRef .tc main_arg22) = (m ((c : Thread nD τ).loc main_arg22)) := (W2_of_ne m ρ c main_arg22 (by decide)).trans (arg22_W1 m ρ c)
theorem arg22_W11 : W11 m ρ c (Proc.devRef .tc main_arg22) = (m ((c : Thread nD τ).loc main_arg22)) :=
  (show afterNormalisers (W2 m ρ c) (Proc.devRef .tc main_arg22) = W2 m ρ c (Proc.devRef .tc main_arg22) by normalisers_keep).trans (arg22_W2 m ρ c)
theorem arg22_W12 : W12 m ρ c (Proc.devRef .tc main_arg22) = (m ((c : Thread nD τ).loc main_arg22)) := (W12_of_ne m ρ c main_arg22 (by decide)).trans (arg22_W11 m ρ c)
theorem arg22_W13 : W13 m ρ c (Proc.devRef .tc main_arg22) = (m ((c : Thread nD τ).loc main_arg22)) :=
  (show StableHlo.after hostOps2 (W12 m ρ c) (Proc.devRef .tc main_arg22) = W12 m ρ c (Proc.devRef .tc main_arg22) by stretch_keeps).trans (arg22_W12 m ρ c)
theorem arg22_W14 : W14 m ρ c (Proc.devRef .tc main_arg22) = (m ((c : Thread nD τ).loc main_arg22)) := (W14_of_ne m ρ c main_arg22 (by decide)).trans (arg22_W13 m ρ c)

/-! ## The index vectors and the gathered arrays, kept from the first stretch on -/

theorem v5_W1 : W1 m ρ c (Proc.devRef .tc main_v5) = Cert.ReferenceIdeal.Read.val_main_v60 (F := F) (m ((c : Thread nD τ).loc main_arg5)) := edgeIds (W0 m ρ c)
theorem v5_W2 : W2 m ρ c (Proc.devRef .tc main_v5) = Cert.ReferenceIdeal.Read.val_main_v60 (F := F) (m ((c : Thread nD τ).loc main_arg5)) :=
  (W2_of_ne m ρ c main_v5 (by decide)).trans (v5_W1 m ρ c)
theorem v5_W11 : W11 m ρ c (Proc.devRef .tc main_v5) = Cert.ReferenceIdeal.Read.val_main_v60 (F := F) (m ((c : Thread nD τ).loc main_arg5)) :=
  (show afterNormalisers (W2 m ρ c) (Proc.devRef .tc main_v5) = W2 m ρ c (Proc.devRef .tc main_v5) by normalisers_keep).trans (v5_W2 m ρ c)
theorem v5_W12 : W12 m ρ c (Proc.devRef .tc main_v5) = Cert.ReferenceIdeal.Read.val_main_v60 (F := F) (m ((c : Thread nD τ).loc main_arg5)) :=
  (W12_of_ne m ρ c main_v5 (by decide)).trans (v5_W11 m ρ c)
theorem v5_W13 : W13 m ρ c (Proc.devRef .tc main_v5) = Cert.ReferenceIdeal.Read.val_main_v60 (F := F) (m ((c : Thread nD τ).loc main_arg5)) :=
  (show StableHlo.after hostOps2 (W12 m ρ c) (Proc.devRef .tc main_v5) = W12 m ρ c (Proc.devRef .tc main_v5) by stretch_keeps).trans (v5_W12 m ρ c)
theorem v5_W14 : W14 m ρ c (Proc.devRef .tc main_v5) = Cert.ReferenceIdeal.Read.val_main_v60 (F := F) (m ((c : Thread nD τ).loc main_arg5)) :=
  (W14_of_ne m ρ c main_v5 (by decide)).trans (v5_W13 m ρ c)

theorem v7_W1 : W1 m ρ c (Proc.devRef .tc main_v7) = Cert.ReferenceIdeal.Read.val_main_v62 (F := F) (m ((c : Thread nD τ).loc main_arg5)) := nodeIds (W0 m ρ c)
theorem v7_W2 : W2 m ρ c (Proc.devRef .tc main_v7) = Cert.ReferenceIdeal.Read.val_main_v62 (F := F) (m ((c : Thread nD τ).loc main_arg5)) :=
  (W2_of_ne m ρ c main_v7 (by decide)).trans (v7_W1 m ρ c)
theorem v7_W11 : W11 m ρ c (Proc.devRef .tc main_v7) = Cert.ReferenceIdeal.Read.val_main_v62 (F := F) (m ((c : Thread nD τ).loc main_arg5)) :=
  (show afterNormalisers (W2 m ρ c) (Proc.devRef .tc main_v7) = W2 m ρ c (Proc.devRef .tc main_v7) by normalisers_keep).trans (v7_W2 m ρ c)
theorem v7_W12 : W12 m ρ c (Proc.devRef .tc main_v7) = Cert.ReferenceIdeal.Read.val_main_v62 (F := F) (m ((c : Thread nD τ).loc main_arg5)) :=
  (W12_of_ne m ρ c main_v7 (by decide)).trans (v7_W11 m ρ c)
theorem v7_W13 : W13 m ρ c (Proc.devRef .tc main_v7) = Cert.ReferenceIdeal.Read.val_main_v62 (F := F) (m ((c : Thread nD τ).loc main_arg5)) :=
  (show StableHlo.after hostOps2 (W12 m ρ c) (Proc.devRef .tc main_v7) = W12 m ρ c (Proc.devRef .tc main_v7) by stretch_keeps).trans (v7_W12 m ρ c)
theorem v7_W14 : W14 m ρ c (Proc.devRef .tc main_v7) = Cert.ReferenceIdeal.Read.val_main_v62 (F := F) (m ((c : Thread nD τ).loc main_arg5)) :=
  (W14_of_ne m ρ c main_v7 (by decide)).trans (v7_W13 m ρ c)

theorem v14_W1 : W1 m ρ c (Proc.devRef .tc main_v14) = Cert.ReferenceIdeal.Read.val_main_v10 (F := F) (m ((c : Thread nD τ).loc main_arg0)) (m ((c : Thread nD τ).loc main_arg2)) := featCol (W0 m ρ c)
theorem v14_W2 : W2 m ρ c (Proc.devRef .tc main_v14) = Cert.ReferenceIdeal.Read.val_main_v10 (F := F) (m ((c : Thread nD τ).loc main_arg0)) (m ((c : Thread nD τ).loc main_arg2)) :=
  (W2_of_ne m ρ c main_v14 (by decide)).trans (v14_W1 m ρ c)
theorem v14_W11 : W11 m ρ c (Proc.devRef .tc main_v14) = Cert.ReferenceIdeal.Read.val_main_v10 (F := F) (m ((c : Thread nD τ).loc main_arg0)) (m ((c : Thread nD τ).loc main_arg2)) :=
  (show afterNormalisers (W2 m ρ c) (Proc.devRef .tc main_v14) = W2 m ρ c (Proc.devRef .tc main_v14) by normalisers_keep).trans (v14_W2 m ρ c)
theorem v14_W12 : W12 m ρ c (Proc.devRef .tc main_v14) = Cert.ReferenceIdeal.Read.val_main_v10 (F := F) (m ((c : Thread nD τ).loc main_arg0)) (m ((c : Thread nD τ).loc main_arg2)) :=
  ((W12_arr m ρ c 0).trans (((dat1 (V11 m ρ) c).arrAt_in 0 rfl _).trans (A_eq1 (V11 m ρ) c 0))).trans (v14_W11 m ρ c)
theorem v14_W13 : W13 m ρ c (Proc.devRef .tc main_v14) = Cert.ReferenceIdeal.Read.val_main_v10 (F := F) (m ((c : Thread nD τ).loc main_arg0)) (m ((c : Thread nD τ).loc main_arg2)) :=
  (show StableHlo.after hostOps2 (W12 m ρ c) (Proc.devRef .tc main_v14) = W12 m ρ c (Proc.devRef .tc main_v14) by stretch_keeps).trans (v14_W12 m ρ c)
theorem v14_W14 : W14 m ρ c (Proc.devRef .tc main_v14) = Cert.ReferenceIdeal.Read.val_main_v10 (F := F) (m ((c : Thread nD τ).loc main_arg0)) (m ((c : Thread nD τ).loc main_arg2)) :=
  (W14_of_ne m ρ c main_v14 (by decide)).trans (v14_W13 m ρ c)
theorem v14_W15 : W15 m ρ c (Proc.devRef .tc main_v14) = Cert.ReferenceIdeal.Read.val_main_v10 (F := F) (m ((c : Thread nD τ).loc main_arg0)) (m ((c : Thread nD τ).loc main_arg2)) :=
  (show StableHlo.after hostOps3 (W14 m ρ c) (Proc.devRef .tc main_v14) = W14 m ρ c (Proc.devRef .tc main_v14) by stretch_keeps).trans (v14_W14 m ρ c)

theorem v21_W1 : W1 m ρ c (Proc.devRef .tc main_v21) = Cert.ReferenceIdeal.Read.val_main_v17 (F := F) (m ((c : Thread nD τ).loc main_arg0)) (m ((c : Thread nD τ).loc main_arg2)) := featRow (W0 m ρ c)
theorem v21_W2 : W2 m ρ c (Proc.devRef .tc main_v21) = Cert.ReferenceIdeal.Read.val_main_v17 (F := F) (m ((c : Thread nD τ).loc main_arg0)) (m ((c : Thread nD τ).loc main_arg2)) :=
  (W2_of_ne m ρ c main_v21 (by decide)).trans (v21_W1 m ρ c)
theorem v21_W11 : W11 m ρ c (Proc.devRef .tc main_v21) = Cert.ReferenceIdeal.Read.val_main_v17 (F := F) (m ((c : Thread nD τ).loc main_arg0)) (m ((c : Thread nD τ).loc main_arg2)) :=
  (show afterNormalisers (W2 m ρ c) (Proc.devRef .tc main_v21) = W2 m ρ c (Proc.devRef .tc main_v21) by normalisers_keep).trans (v21_W2 m ρ c)
theorem v21_W12 : W12 m ρ c (Proc.devRef .tc main_v21) = Cert.ReferenceIdeal.Read.val_main_v17 (F := F) (m ((c : Thread nD τ).loc main_arg0)) (m ((c : Thread nD τ).loc main_arg2)) :=
  ((W12_arr m ρ c 1).trans (((dat1 (V11 m ρ) c).arrAt_in 1 rfl _).trans (A_eq1 (V11 m ρ) c 1))).trans (v21_W11 m ρ c)
theorem v21_W13 : W13 m ρ c (Proc.devRef .tc main_v21) = Cert.ReferenceIdeal.Read.val_main_v17 (F := F) (m ((c : Thread nD τ).loc main_arg0)) (m ((c : Thread nD τ).loc main_arg2)) :=
  (show StableHlo.after hostOps2 (W12 m ρ c) (Proc.devRef .tc main_v21) = W12 m ρ c (Proc.devRef .tc main_v21) by stretch_keeps).trans (v21_W12 m ρ c)
theorem v21_W14 : W14 m ρ c (Proc.devRef .tc main_v21) = Cert.ReferenceIdeal.Read.val_main_v17 (F := F) (m ((c : Thread nD τ).loc main_arg0)) (m ((c : Thread nD τ).loc main_arg2)) :=
  (W14_of_ne m ρ c main_v21 (by decide)).trans (v21_W13 m ρ c)
theorem v21_W15 : W15 m ρ c (Proc.devRef .tc main_v21) = Cert.ReferenceIdeal.Read.val_main_v17 (F := F) (m ((c : Thread nD τ).loc main_arg0)) (m ((c : Thread nD τ).loc main_arg2)) :=
  (show StableHlo.after hostOps3 (W14 m ρ c) (Proc.devRef .tc main_v21) = W14 m ρ c (Proc.devRef .tc main_v21) by stretch_keeps).trans (v21_W14 m ρ c)

theorem v35_W1 : W1 m ρ c (Proc.devRef .tc main_v35) = Cert.ReferenceIdeal.Read.val_main_v34 (F := F) (m ((c : Thread nD τ).loc main_arg1)) (m ((c : Thread nD τ).loc main_arg2)) (m ((c : Thread nD τ).loc main_arg4)) := edgeEmb (W0 m ρ c)
theorem v35_W2 : W2 m ρ c (Proc.devRef .tc main_v35) = Cert.ReferenceIdeal.Read.val_main_v34 (F := F) (m ((c : Thread nD τ).loc main_arg1)) (m ((c : Thread nD τ).loc main_arg2)) (m ((c : Thread nD τ).loc main_arg4)) :=
  (W2_of_ne m ρ c main_v35 (by decide)).trans (v35_W1 m ρ c)
theorem v35_W11 : W11 m ρ c (Proc.devRef .tc main_v35) = Cert.ReferenceIdeal.Read.val_main_v34 (F := F) (m ((c : Thread nD τ).loc main_arg1)) (m ((c : Thread nD τ).loc main_arg2)) (m ((c : Thread nD τ).loc main_arg4)) :=
  (show afterNormalisers (W2 m ρ c) (Proc.devRef .tc main_v35) = W2 m ρ c (Proc.devRef .tc main_v35) by normalisers_keep).trans (v35_W2 m ρ c)
theorem v35_W12 : W12 m ρ c (Proc.devRef .tc main_v35) = Cert.ReferenceIdeal.Read.val_main_v34 (F := F) (m ((c : Thread nD τ).loc main_arg1)) (m ((c : Thread nD τ).loc main_arg2)) (m ((c : Thread nD τ).loc main_arg4)) :=
  (W12_of_ne m ρ c main_v35 (by decide)).trans (v35_W11 m ρ c)
theorem v35_W13 : W13 m ρ c (Proc.devRef .tc main_v35) = Cert.ReferenceIdeal.Read.val_main_v34 (F := F) (m ((c : Thread nD τ).loc main_arg1)) (m ((c : Thread nD τ).loc main_arg2)) (m ((c : Thread nD τ).loc main_arg4)) :=
  (show StableHlo.after hostOps2 (W12 m ρ c) (Proc.devRef .tc main_v35) = W12 m ρ c (Proc.devRef .tc main_v35) by stretch_keeps).trans (v35_W12 m ρ c)
theorem v35_W14 : W14 m ρ c (Proc.devRef .tc main_v35) = Cert.ReferenceIdeal.Read.val_main_v34 (F := F) (m ((c : Thread nD τ).loc main_arg1)) (m ((c : Thread nD τ).loc main_arg2)) (m ((c : Thread nD τ).loc main_arg4)) :=
  (W14_of_ne m ρ c main_v35 (by decide)).trans (v35_W13 m ρ c)
theorem v35_W15 : W15 m ρ c (Proc.devRef .tc main_v35) = Cert.ReferenceIdeal.Read.val_main_v34 (F := F) (m ((c : Thread nD τ).loc main_arg1)) (m ((c : Thread nD τ).loc main_arg2)) (m ((c : Thread nD τ).loc main_arg4)) :=
  (show StableHlo.after hostOps3 (W14 m ρ c) (Proc.devRef .tc main_v35) = W14 m ρ c (Proc.devRef .tc main_v35) by stretch_keeps).trans (v35_W14 m ρ c)

theorem v42_W1 : W1 m ρ c (Proc.devRef .tc main_v42) = Cert.ReferenceIdeal.Read.val_main_v41 (F := F) (m ((c : Thread nD τ).loc main_arg1)) (m ((c : Thread nD τ).loc main_arg4)) := nodeEmb (W0 m ρ c)

/-! ## The two normalisers, from the first launch's result on -/

section AfterFirstLaunch
variable (h0 : W2 m ρ c (Proc.devRef .tc main_v49) = Cert.ReferenceIdeal.Read.val_main_v57 (F := F) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg9)))
include h0

theorem v75_W11 : W11 m ρ c (Proc.devRef .tc main_v75) = Cert.ReferenceIdeal.Read.val_main_v88 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  invEdgeDegree (W2 m ρ c) _ _ _ _ _ _ _ _ h0 (v5_W2 m ρ c) (v7_W2 m ρ c)
theorem v75_W12 : W12 m ρ c (Proc.devRef .tc main_v75) = Cert.ReferenceIdeal.Read.val_main_v88 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W12_of_ne m ρ c main_v75 (by decide)).trans (v75_W11 m ρ c h0)
theorem v75_W13 : W13 m ρ c (Proc.devRef .tc main_v75) = Cert.ReferenceIdeal.Read.val_main_v88 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (show StableHlo.after hostOps2 (W12 m ρ c) (Proc.devRef .tc main_v75) = W12 m ρ c (Proc.devRef .tc main_v75) by stretch_keeps).trans (v75_W12 m ρ c h0)
theorem v75_W14 : W14 m ρ c (Proc.devRef .tc main_v75) = Cert.ReferenceIdeal.Read.val_main_v88 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W14_of_ne m ρ c main_v75 (by decide)).trans (v75_W13 m ρ c h0)
omit h0 in
theorem v87_W11 : W11 m ρ c (Proc.devRef .tc main_v87) = Cert.ReferenceIdeal.Read.val_main_v100 (F := F) (m ((c : Thread nD τ).loc main_arg5)) :=
  invNodeDegree (W2 m ρ c) _ (v7_W2 m ρ c)
omit h0 in
theorem v87_W12 : W12 m ρ c (Proc.devRef .tc main_v87) = Cert.ReferenceIdeal.Read.val_main_v100 (F := F) (m ((c : Thread nD τ).loc main_arg5)) :=
  (W12_of_ne m ρ c main_v87 (by decide)).trans (v87_W11 m ρ c)
omit h0 in
theorem v87_W13 : W13 m ρ c (Proc.devRef .tc main_v87) = Cert.ReferenceIdeal.Read.val_main_v100 (F := F) (m ((c : Thread nD τ).loc main_arg5)) :=
  (show StableHlo.after hostOps2 (W12 m ρ c) (Proc.devRef .tc main_v87) = W12 m ρ c (Proc.devRef .tc main_v87) by stretch_keeps).trans (v87_W12 m ρ c)
omit h0 in
theorem v87_W14 : W14 m ρ c (Proc.devRef .tc main_v87) = Cert.ReferenceIdeal.Read.val_main_v100 (F := F) (m ((c : Thread nD τ).loc main_arg5)) :=
  (W14_of_ne m ρ c main_v87 (by decide)).trans (v87_W13 m ρ c)

/-! ## Message passing after the second and after the third launch -/

theorem v130_W13 (h1 : W12 m ρ c (Proc.devRef .tc main_v90) = Cert.ReferenceIdeal.Read.val_main_v70 (F := F) (m ((c : Thread nD τ).loc main_arg0)) (m ((c : Thread nD τ).loc main_arg2)) (m ((c : Thread nD τ).loc main_arg10))) : W13 m ρ c (Proc.devRef .tc main_v130) = Cert.ReferenceIdeal.Read.val_main_v140 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  firstConvRaw (W12 m ρ c) _ _ _ _ _ _ _ _ _ _ h1 (v87_W12 m ρ c) (v75_W12 m ρ c h0) (v5_W12 m ρ c) (v7_W12 m ρ c)

theorem v172_W15 (h2 : W14 m ρ c (Proc.devRef .tc main_v132) = Cert.ReferenceIdeal.Read.val_main_v150 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) : W15 m ρ c (Proc.devRef .tc main_v172) = Cert.ReferenceIdeal.Read.val_main_v220 (F := F) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  secondConvRaw (W14 m ρ c) _ _ _ _ _ _ _ _ _ _ _ _ h2 (v87_W14 m ρ c) (v75_W14 m ρ c h0) (v5_W14 m ρ c) (v7_W14 m ρ c)

end AfterFirstLaunch

end Cert.Bridge.Levels

end
-- ==== Proof.Region0Spec.lean ====
/- The node weight of the first stage, as one function of its arrays, index by index.

   A node has a feature row and a prototype row of 128 numbers each. Its 128 hidden units are the
   feature row times the upper 128 x 128 block of the first weight matrix, plus the prototype row
   times the lower block, plus the first bias; each hidden unit is clipped below at zero; the
   clipped units are weighted by the second weight row and summed over the 128 lanes; the second
   bias is added; and the logistic function is taken. Everything is on the extended reals, where
   sums regroup freely. -/
import Idealize.ShloMosaic.Lib.ValueIdx
import Idealize.ShloMosaic.PureOps.Ideal.Laws

noncomputable section

open scoped BigOperators

namespace Cert.Bridge.Region0

open Idealize.ShloMosaic Idealize.ShloMosaic.ValueIdx

/-- One node's weight from its feature row `xr` and its prototype row `pr`:
    `logistic (sum_j max (sum_k xr k * w1a (k, j) + sum_k pr k * w1b (k, j) + b1 (0, j)) 0 * w2 (0, j) + b2 (0, 0))`. -/
def rowWeight (xr pr : Fin 128 → EReal) (w1a w1b : FVec Ideal ⟨2, ![128, 128]⟩ .f32)
    (b1 w2 : FVec Ideal ⟨2, ![1, 128]⟩ .f32) (b2 : FVec Ideal ⟨2, ![1, 1]⟩ .f32) : EReal :=
  Ideal.logistic
    ((∑ j : Fin 128,
        max ((∑ k : Fin 128, xr k * w1a (ix2 k j)) + (∑ k : Fin 128, pr k * w1b (ix2 k j)) + b1 (ix2 (0 : Fin 1) j)) 0
          * w2 (ix2 (0 : Fin 1) j))
      + b2 (ix2 (0 : Fin 1) (0 : Fin 1)))

/-- The column of node weights: entry `(r, 0)` is the weight of node `r`, from row `r` of the features and row `r` of
    the prototypes. -/
def nodeWeight (x proto : FVec Ideal ⟨2, ![16000, 128]⟩ .f32) (w1a w1b : FVec Ideal ⟨2, ![128, 128]⟩ .f32)
    (b1 w2 : FVec Ideal ⟨2, ![1, 128]⟩ .f32) (b2 : FVec Ideal ⟨2, ![1, 1]⟩ .f32) : FVec Ideal ⟨2, ![16000, 1]⟩ .f32 :=
  fun i => rowWeight (fun k => x (ix2 (i 0) k)) (fun k => proto (ix2 (i 0) k)) w1a w1b b1 w2 b2

/-- The weight column at `(r, q)` is the row weight of row `r`. -/
theorem nodeWeight_apply (x proto : FVec Ideal ⟨2, ![16000, 128]⟩ .f32) (w1a w1b : FVec Ideal ⟨2, ![128, 128]⟩ .f32)
    (b1 w2 : FVec Ideal ⟨2, ![1, 128]⟩ .f32) (b2 : FVec Ideal ⟨2, ![1, 1]⟩ .f32) (r : Fin 16000) (q : Fin 1) :
    nodeWeight x proto w1a w1b b1 w2 b2 (ix2 r q)
      = rowWeight (fun k => x (ix2 r k)) (fun k => proto (ix2 r k)) w1a w1b b1 w2 b2 := rfl

/-- The weight column at any index is the row weight of the index's row. -/
theorem nodeWeight_eq (x proto : FVec Ideal ⟨2, ![16000, 128]⟩ .f32) (w1a w1b : FVec Ideal ⟨2, ![128, 128]⟩ .f32)
    (b1 w2 : FVec Ideal ⟨2, ![1, 128]⟩ .f32) (b2 : FVec Ideal ⟨2, ![1, 1]⟩ .f32) (i : (⟨2, ![16000, 1]⟩ : Shape).Idx) :
    nodeWeight x proto w1a w1b b1 w2 b2 i
      = rowWeight (fun k => x (ix2 (i 0) k)) (fun k => proto (ix2 (i 0) k)) w1a w1b b1 w2 b2 := rfl

/-- The row weight depends on its rows entry by entry and on the weight arrays as a whole. -/
theorem rowWeight_congr {xr xr' pr pr' : Fin 128 → EReal} {w1a w1a' w1b w1b' : FVec Ideal ⟨2, ![128, 128]⟩ .f32}
    {b1 b1' w2 w2' : FVec Ideal ⟨2, ![1, 128]⟩ .f32} {b2 b2' : FVec Ideal ⟨2, ![1, 1]⟩ .f32}
    (hx : ∀ k, xr k = xr' k) (hp : ∀ k, pr k = pr' k) (h1a : w1a = w1a') (h1b : w1b = w1b') (hb1 : b1 = b1')
    (hw2 : w2 = w2') (hb2 : b2 = b2') :
    rowWeight xr pr w1a w1b b1 w2 b2 = rowWeight xr' pr' w1a' w1b' b1' w2' b2' := by
  obtain rfl : xr = xr' := funext hx
  obtain rfl : pr = pr' := funext hp
  subst h1a h1b hb1 hw2 hb2
  rfl

/-- A sum over 256 terms is the sum of its first 128 terms plus the sum of its last 128 terms. -/
theorem sum_fin256 (f : Fin 256 → EReal) :
    ∑ k : Fin 256, f k
      = (∑ k : Fin 128, f ⟨k.val, by have := k.isLt; omega⟩) + ∑ k : Fin 128, f ⟨128 + k.val, by have := k.isLt; omega⟩ :=
  Fin.sum_univ_add (a := 128) (b := 128) f

/-- The word `0x3F800000` read as an extended real is one. -/
theorem ofBits_one_f32 : Ideal.ofBits .f32 0x3F800000#32 = 1 := IdealRules.sign_bit.ideal_onePat .f32

end Cert.Bridge.Region0

end
-- ==== Proof.Region0.lean ====
/- The first stage's output array after its run is the column of node weights.

   The stage runs over 8 grid points. Point `t` sees rows `2000 t … 2000 t + 1999` of the features and of the
   prototypes, the whole of the two 128 x 128 weight blocks, of the two 128-lane rows and of the 1 x 1 bias, and
   writes rows `2000 t … 2000 t + 1999` of the output column. What it writes at local row `p` is the row weight of
   the block's row `p` (the two matrix products are sums over the 128 contracted lanes, the lane reduction is a sum
   over the 128 lanes, the row and scalar broadcasts read their one row or entry, a change of float format is the
   identity on extended reals); a block's row `p` is the array's row `2000 t + p`; and the 8 blocks of 2000 rows
   cover the 16000 rows. -/
import proofs.«166373_j81312320848270_2_alg».proof.Proof.Gen.KernelIdeal.Frame
import proofs.«166373_j81312320848270_2_alg».proof.Proof.Region0Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's operations at an index -/

/-- The logistic function of a vector at an index is the logistic function of the element. -/
theorem logistic_apply {s : Shape} {φ : FTy} (a : FVec Ideal s φ) (i : s.Idx) : logistic a i = Ideal.logistic (a i) := rfl

/-- A 2000 x 128 by 128 x 128 product into a zero accumulator, at `(p, j)`: the sum over the contracted lane `k` of
    the left operand at `(p, k)` times the right operand at `(k, j)`. -/
theorem matmul_entry {φ₁ φ₂ : FTy} (a : FVec Ideal S2000x128 φ₁) (b : FVec Ideal S128x128 φ₂) (p : Fin 2000) (j : Fin 128) :
    FloatOps.matmul dot_S2000x128_S128x128_S2000x128_1_0_0_1_n_n none a b (constant (F := Ideal) S2000x128 .f32 0x00000000#32) (ix2 p j)
      = ∑ k : Fin 128, a (ix2 p k) * b (ix2 k j) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun ax => Fin.ext (by
    match ax with
    | ⟨0, _⟩ =>
      show (dot_S2000x128_S128x128_S2000x128_1_0_0_1_n_n.lhsIdx (ix2 p j) _ 0).val = p.val
      unfold DotDims.lhsIdx
      rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
      rfl
    | ⟨1, _⟩ => exact (dot_S2000x128_S128x128_S2000x128_1_0_0_1_n_n.lhsIdx_val_of_single rfl (ix2 p j) _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun ax => Fin.ext (by
    match ax with
    | ⟨0, _⟩ => exact (dot_S2000x128_S128x128_S2000x128_1_0_0_1_n_n.rhsIdx_val_of_single rfl (ix2 p j) _).trans hk
    | ⟨1, _⟩ =>
      show (dot_S2000x128_S128x128_S2000x128_1_0_0_1_n_n.rhsIdx (ix2 p j) _ 1).val = j.val
      unfold DotDims.rhsIdx
      rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
      rfl)
  rw [el, er]

/-- The sum over the 128 lanes of a 2000 x 128 vector, at row `p`. -/
theorem lane_sum (src : FVec Ideal S2000x128 .f32) (p : Fin 2000) :
    multiReduction .add [1] S2000 src 0x00000000#32 reduces_S2000x128_S2000 (.inl rfl) rfl (ix1 p)
      = ∑ j : Fin 128, src (ix2 p j) := by
  refine (Ideal.multiReduction_add_single src 0x00000000#32 reduces_S2000x128_S2000 (.inl rfl) rfl (ix1 p)).trans ?_
  refine Finset.sum_congr rfl fun j _ => congrArg src (funext fun ax => Fin.ext ?_)
  match ax with
  | ⟨0, _⟩ => rfl
  | ⟨1, _⟩ => rfl

/-- A vector of 2000 entries recast as a 2000 x 1 column, at `(p, 0)`, is the entry `p`. -/
theorem column_cast (v : FVec Ideal S2000 .f32) (p : Fin 2000) :
    shapeCast S2000x1 v shapeCasts_S2000_S2000x1 (ix2 p (0 : Fin 1)) = v (ix1 p) :=
  shapeCast_apply v shapeCasts_S2000_S2000x1 (ix2 p (0 : Fin 1)) (ix1 p) (by
    rw [Shape.rowMajor_val_two, Shape.rowMajor_val_one]
    show p.val = p.val * 1 + 0
    omega)

/-- THE BODY'S STORED VALUE at local row `p` is the row weight of row `p` of the two row blocks. -/
theorem payload_row (v0 v2 : Vec Ideal S2000x128 .f32) (v5 v8 : Vec Ideal S128x128 .f32) (v14 v20 : Vec Ideal S1x128 .f32)
    (v26 : Vec Ideal S1x1 .f32) (p : Fin 2000) (q : Fin 1) :
    k0_pay1 (F := Ideal) v0 v2 v5 v8 v14 v20 v26 (ix2 p q)
      = rowWeight (fun k => v0 (ix2 p k)) (fun k => v2 (ix2 p k)) v5 v8 v14 v20 v26 := by
  obtain rfl : q = 0 := Subsingleton.elim _ _
  unfold k0_pay1 rowWeight
  simp only [shapeCast_self, logistic_apply, addf_apply, matmul]
  refine congrArg Ideal.logistic (congrArg₂ (· + ·) ?_ (broadcastTo_1b_ab_apply v26 _ p (0 : Fin 1)))
  refine (column_cast _ p).trans ((lane_sum _ p).trans (Finset.sum_congr rfl fun j _ => ?_))
  simp only [mulf_apply, maximumf_apply, addf_apply, broadcast_apply]
  refine congrArg₂ (· * ·) (congrArg₂ max (congrArg₂ (· + ·) (congrArg₂ (· + ·) ?_ ?_) ?_) ?_) ?_
  · exact matmul_entry _ _ p j
  · exact matmul_entry _ _ p j
  · exact broadcastTo_1b_ab_apply v14 _ p j
  · exact Ideal.ofBits_zero_f32
  · exact broadcastTo_1b_ab_apply v20 _ p j

/-! ## The windows' blocks as parts of their arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 8 grid points: the three row-blocked windows (features, prototypes,
    output) are at block row `t`, block column 0; the five others are at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of the feature block at point `t` is row `2000 t + p` of the feature array. -/
theorem feature_block (c : Dev nD) (t : Fin cfg0.N) (p : Fin 2000) (k : Fin 128) (r : Fin 16000)
    (hr : r.val = t.val * 2000 + p.val) :
    (iblk0 V c 0 t : Vec Ideal S2000x128 .f32) (ix2 p k) = (V c main_arg0 : S16000x128.Idx → EReal) (ix2 r k) := by
  obtain ⟨e0, e1, -⟩ := block_indices t
  unfold iblk0
  rw [View.read_apply]
  show (V c main_arg0 : S16000x128.Idx → EReal) _ = (V c main_arg0 : S16000x128.Idx → EReal) _
  refine congrArg (V c main_arg0 : S16000x128.Idx → EReal) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row `p` of the prototype block at point `t` is row `2000 t + p` of the prototype array. -/
theorem prototype_block (c : Dev nD) (t : Fin cfg0.N) (p : Fin 2000) (k : Fin 128) (r : Fin 16000)
    (hr : r.val = t.val * 2000 + p.val) :
    (iblk0 V c 1 t : Vec Ideal S2000x128 .f32) (ix2 p k) = (V c main_v42 : S16000x128.Idx → EReal) (ix2 r k) := by
  obtain ⟨-, -, e0, e1, -⟩ := block_indices t
  unfold iblk0
  rw [View.read_apply]
  show (V c main_v42 : S16000x128.Idx → EReal) _ = (V c main_v42 : S16000x128.Idx → EReal) _
  refine congrArg (V c main_v42 : S16000x128.Idx → EReal) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The upper weight block's window holds its whole array at every point. -/
theorem upper_weights_block (c : Dev nD) (t : Fin cfg0.N) :
    (iblk0 V c 2 t : Vec Ideal S128x128 .f32) = (V c main_v43 : S128x128.Idx → EReal) := by
  obtain ⟨-, -, -, -, -, -, e0, e1, -⟩ := block_indices t
  funext y
  unfold iblk0
  rw [View.read_apply]
  show (V c main_v43 : S128x128.Idx → EReal) _ = (V c main_v43 : S128x128.Idx → EReal) _
  refine congrArg (V c main_v43 : S128x128.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The lower weight block's window holds its whole array at every point. -/
theorem lower_weights_block (c : Dev nD) (t : Fin cfg0.N) :
    (iblk0 V c 3 t : Vec Ideal S128x128 .f32) = (V c main_v44 : S128x128.Idx → EReal) := by
  obtain ⟨-, -, -, -, -, -, -, -, e0, e1, -⟩ := block_indices t
  funext y
  unfold iblk0
  rw [View.read_apply]
  show (V c main_v44 : S128x128.Idx → EReal) _ = (V c main_v44 : S128x128.Idx → EReal) _
  refine congrArg (V c main_v44 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first bias row's window holds its whole array at every point. -/
theorem first_bias_block (c : Dev nD) (t : Fin cfg0.N) :
    (iblk0 V c 4 t : Vec Ideal S1x128 .f32) = (V c main_v45 : S1x128.Idx → EReal) := by
  obtain ⟨-, -, -, -, -, -, -, -, -, -, e0, e1, -⟩ := block_indices t
  funext y
  unfold iblk0
  rw [View.read_apply]
  show (V c main_v45 : S1x128.Idx → EReal) _ = (V c main_v45 : S1x128.Idx → EReal) _
  refine congrArg (V c main_v45 : S1x128.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight row's window holds its whole array at every point. -/
theorem second_weights_block (c : Dev nD) (t : Fin cfg0.N) :
    (iblk0 V c 5 t : Vec Ideal S1x128 .f32) = (V c main_v47 : S1x128.Idx → EReal) := by
  obtain ⟨-, -, -, -, -, -, -, -, -, -, -, -, e0, e1, -⟩ := block_indices t
  funext y
  unfold iblk0
  rw [View.read_apply]
  show (V c main_v47 : S1x128.Idx → EReal) _ = (V c main_v47 : S1x128.Idx → EReal) _
  refine congrArg (V c main_v47 : S1x128.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The second bias's window holds its whole array at every point. -/
theorem second_bias_block (c : Dev nD) (t : Fin cfg0.N) :
    (iblk0 V c 6 t : Vec Ideal S1x1 .f32) = (V c main_v48 : S1x1.Idx → EReal) := by
  obtain ⟨-, -, -, -, -, -, -, -, -, -, -, -, -, -, e0, e1⟩ := block_indices t
  funext y
  unfold iblk0
  rw [View.read_apply]
  show (V c main_v48 : S1x1.Idx → EReal) _ = (V c main_v48 : S1x1.Idx → EReal) _
  refine congrArg (V c main_v48 : S1x1.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-- Local row `p` of the output block at point `t` is row `2000 t + p` of the output column. -/
theorem output_row (t : Fin cfg0.N) (p : Fin 2000) (q : Fin 1) :
    ((((cfg0.win 7).blk t).view.emb (ix2 p q : S2000x1.Idx)) 0).val = t.val * 2000 + p.val := by
  obtain ⟨-, -, -, -, e0, -⟩ := block_indices t
  show win0_7.index t (0 : Fin 2) * 2000 + 1 * p.val = _
  rw [e0]; omega

/-! ## From the blocks to the array -/

/-- WHAT POINT `t` WRITES BACK is block `t` of the column of node weights of the arrays as the stage finds them. -/
theorem written_back (c : Dev nD) (t : Fin cfg0.N) :
    (dat0 (F := Ideal) V c).flushed 7 t
      = ((cfg0.win 7).blk t).view.read (Elt Ideal)
          (nodeWeight (V c main_arg0) (V c main_v42) (V c main_v43) (V c main_v44) (V c main_v45) (V c main_v47) (V c main_v48)) := by
  show (cfg0.win 7).cut (grid0.coords t) ((dat0 (F := Ideal) V c).after 7 t) = _
  rw [after0_7]
  unfold out0_7
  rw [View.canon_unit_zero zero_offsets]
  simp only [View.ld_unit_zero (S := S2000x128) zero_offsets, View.ld_unit_zero (S := S128x128) zero_offsets,
    View.ld_unit_zero (S := S1x128) zero_offsets, View.ld_unit_zero (S := S1x1) zero_offsets]
  funext j
  obtain ⟨p, q, rfl⟩ : ∃ (p : Fin 2000) (q : Fin 1), j = (ix2 p q : S2000x1.Idx) := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = nodeWeight (V c main_arg0) (V c main_v42) (V c main_v43) (V c main_v44) (V c main_v45) (V c main_v47) (V c main_v48)
        (((cfg0.win 7).blk t).view.emb (ix2 p q : S2000x1.Idx))
  refine (payload_row _ _ _ _ _ _ _ p q).trans ?_
  refine Eq.trans ?_ (nodeWeight_eq _ _ _ _ _ _ _ _).symm
  have hrow := output_row t p q
  exact rowWeight_congr (fun k => feature_block V c t p k _ hrow) (fun k => prototype_block V c t p k _ hrow)
    (upper_weights_block V c t) (lower_weights_block V c t) (first_bias_block V c t) (second_weights_block V c t)
    (second_bias_block V c t)

/-- An index of the output column is in point `t`'s block iff each coordinate is in the block's range on its axis. -/
theorem mem_output_block (t : Fin cfg0.N) (i : S16000x1.Idx) :
    i ∈ ((cfg0.win 7).blk t).view.set
      ↔ ∀ a : Fin 2, win0_7.index t a * S2000x1.size a ≤ (i a).val ∧ (i a).val < win0_7.index t a * S2000x1.size a + S2000x1.size a := by
  show i ∈ ((View.whole main_v49).slice (win0_7.rect t)).set ↔ _
  rw [View.set_slice_whole, Rect.mem_set_unit]
  exact Iff.rfl

/-- Every row of the output column is in some point's block: row `r` in the block of point `r / 2000`. -/
theorem rows_covered (i : S16000x1.Idx) :
    ∃ t : Fin cfg0.N, (cfg0.win 7).flush t = true ∧ i ∈ ((cfg0.win 7).blk t).view.set := by
  have hi0 : (i 0).val < 16000 := idx2_lt0 i
  have hi1 : (i 1).val < 1 := idx2_lt1 i
  have hN : grid0.N = 8 := N_0
  obtain ⟨t, ht⟩ : ∃ t : Fin cfg0.N, t.val = (i 0).val / 2000 := ⟨⟨(i 0).val / 2000, by show _ < grid0.N; rw [hN]; omega⟩, rfl⟩
  obtain ⟨-, -, -, -, e0, e1, -⟩ := block_indices t
  refine ⟨t, flush0_7 t, ?_⟩
  rw [mem_output_block]
  intro a
  match a with
  | ⟨0, _⟩ =>
    show win0_7.index t (0 : Fin 2) * 2000 ≤ (i 0).val ∧ (i 0).val < win0_7.index t (0 : Fin 2) * 2000 + 2000
    rw [e0, ht]; omega
  | ⟨1, _⟩ =>
    show win0_7.index t (1 : Fin 2) * 1 ≤ (i 1).val ∧ (i 1).val < win0_7.index t (1 : Fin 2) * 1 + 1
    rw [e1]; omega

/-- THE OUTPUT ARRAY after the stage's run is the column of node weights of the arrays as the stage finds them. -/
theorem final0 (c : Dev nD) :
    (dat0 (F := Ideal) V c).arrAt 7 cfg0.N
      = nodeWeight (V c main_arg0) (V c main_v42) (V c main_v43) (V c main_v44) (V c main_v45) (V c main_v47) (V c main_v48) :=
  (dat0 (F := Ideal) V c).arrAt_eq_of_cover 7 _ (fun t _ => written_back V c t) rows_covered

end Cert.Bridge.Region0

end
-- ==== Proof.Region0Ref.lean ====
/- The reference's node weights are the column of node weights of the same arrays.

   The reference joins each node's feature row and prototype row into one row of 256, multiplies by the whole
   256 x 128 first weight matrix, adds the first bias, clips below at zero, multiplies by the 128 x 1 second weight
   column, adds the second bias, and takes one over one plus the exponential of the negation. A sum over the 256
   joined lanes is the sum over the first 128 (the feature row against the upper block of the matrix) plus the sum
   over the last 128 (the prototype row against the lower block); the bias, weight and scalar arrays read through
   their reshapes are the same entries; one over one plus the exponential of the negation is the logistic function. -/
import proofs.«166373_j81312320848270_2_alg».proof.Proof.Gen.KernelIdeal
import proofs.«166373_j81312320848270_2_alg».proof.Proof.RefStages
import proofs.«166373_j81312320848270_2_alg».proof.Proof.Region0Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Region0

open Cert.ReferenceIdeal Cert.ReferenceIdeal.Gen Cert.ReferenceIdeal.Read Idealize.ShloMosaic Idealize.ShloMosaic.TcCoe Idealize.SL.Sem
open Idealize.ShloMosaic.ValueIdx

/-! ## The weight, bias and scalar arrays through their slices and reshapes -/

/-- The upper block of the first weight matrix at `(k, j)` is the matrix at `(k, j)`. -/
theorem upper_block (x6 : FVec Ideal S256x128 .f32) (k j : Fin 128) :
    extractStridedSlice Cert.KernelIdeal.S128x128 ![0, 0] x6 Cert.KernelIdeal.Facts₀.slices_S256x128_S128x128_0_0 (ix2 k j)
      = x6 (ix2 (⟨k.val, by have := k.isLt; omega⟩ : Fin 256) j) :=
  slice2_axis0_apply 0 x6 Cert.KernelIdeal.Facts₀.slices_S256x128_S128x128_0_0 k j _ (Nat.zero_add _).symm

/-- The lower block of the first weight matrix at `(k, j)` is the matrix at `(128 + k, j)`. -/
theorem lower_block (x6 : FVec Ideal S256x128 .f32) (k j : Fin 128) :
    extractStridedSlice Cert.KernelIdeal.S128x128 ![128, 0] x6 Cert.KernelIdeal.Facts₀.slices_S256x128_S128x128_128_0 (ix2 k j)
      = x6 (ix2 (⟨128 + k.val, by have := k.isLt; omega⟩ : Fin 256) j) :=
  slice2_axis0_apply 128 x6 Cert.KernelIdeal.Facts₀.slices_S256x128_S128x128_128_0 k j _ rfl

/-- The first bias as a row, at `(0, j)`, is the bias at `j`. -/
theorem bias_row (x7 : FVec Ideal S128 .f32) (j : Fin 128) :
    shapeCast Cert.KernelIdeal.S1x128 x7 Cert.KernelIdeal.Facts₀.shapeCasts_S128_S1x128 (ix2 (0 : Fin 1) j) = x7 (ix1 j) :=
  shapeCast_a_1a_apply x7 Cert.KernelIdeal.Facts₀.shapeCasts_S128_S1x128 0 j

/-- The second weight column as a row, at `(0, j)`, is the column at `(j, 0)`. -/
theorem weight_row (x8 : FVec Ideal S128x1 .f32) (j : Fin 128) :
    shapeCast Cert.KernelIdeal.S1x128 (shapeCast Cert.KernelIdeal.S128 x8 Cert.KernelIdeal.Facts₀.shapeCasts_S128x1_S128) Cert.KernelIdeal.Facts₀.shapeCasts_S128_S1x128 (ix2 (0 : Fin 1) j)
      = x8 (ix2 j (0 : Fin 1)) :=
  (shapeCast_a_1a_apply _ Cert.KernelIdeal.Facts₀.shapeCasts_S128_S1x128 0 j).trans
    (shapeCast_apply x8 Cert.KernelIdeal.Facts₀.shapeCasts_S128x1_S128 (ix1 j) (ix2 j (0 : Fin 1)) (by
      rw [Shape.rowMajor_val_two, Shape.rowMajor_val_one]
      show j.val * 1 + 0 = j.val
      omega))

/-- The second bias as a 1 x 1 array, at `(0, 0)`, is the bias's one entry. -/
theorem bias_cell (x9 : FVec Ideal S1 .f32) :
    shapeCast Cert.KernelIdeal.S1x1 x9 Cert.KernelIdeal.Facts₀.shapeCasts_S1_S1x1 (ix2 (0 : Fin 1) (0 : Fin 1)) = x9 (ix1 (0 : Fin 1)) :=
  shapeCast_a_1a_apply x9 Cert.KernelIdeal.Facts₀.shapeCasts_S1_S1x1 0 0

/-! ## The joined rows -/

/-- The joined row at a lane below 128 is the feature row at that lane. -/
theorem joined_left (x0 : FVec Ideal S16000x128 .f32) (x1 : FVec Ideal S512x128 .f32) (x4 : (⟨S16000, .i32⟩ : BufTy).Contents (Elt Ideal))
    (p : Fin 16000) (k : Fin 128) :
    val_main_v42 (F := Ideal) x0 x1 x4 (ix2 p (⟨k.val, by have := k.isLt; omega⟩ : Fin 256)) = x0 (ix2 p k) := by
  unfold val_main_v42
  refine concatenate_pair_apply_left (t := S16000x256) (s₁ := S16000x128) (s₂ := S16000x128) (1 : Fin 2) x0 _ concatenates_S16000x128_S16000x128_S16000x256_d1 _ rfl (ix2 p k) fun b => ?_
  match b with
  | ⟨0, _⟩ => rfl
  | ⟨1, _⟩ => rfl

/-- The joined row at lane `128 + k` is the prototype row at lane `k`. -/
theorem joined_right (x0 : FVec Ideal S16000x128 .f32) (x1 : FVec Ideal S512x128 .f32) (x4 : (⟨S16000, .i32⟩ : BufTy).Contents (Elt Ideal))
    (p : Fin 16000) (k : Fin 128) :
    val_main_v42 (F := Ideal) x0 x1 x4 (ix2 p (⟨128 + k.val, by have := k.isLt; omega⟩ : Fin 256))
      = val_main_v41 (F := Ideal) x1 x4 (ix2 p k) := by
  unfold val_main_v42
  refine concatenate_pair_apply_right (t := S16000x256) (s₁ := S16000x128) (s₂ := S16000x128) (1 : Fin 2) x0 _ concatenates_S16000x128_S16000x128_S16000x256_d1 _ rfl rfl (ix2 p k) (fun b hb => ?_) ?_
  · match b with
    | ⟨0, _⟩ => rfl
    | ⟨1, _⟩ => exact absurd rfl hb
  · show k.val + 128 = 128 + k.val
    omega

/-! ## The reference's stages at a row -/

/-- A hidden unit before clipping, in the reference: the joined row against column `j` of the first weight matrix
    plus the bias, split at lane 128. -/
theorem hidden_unit (x0 : FVec Ideal S16000x128 .f32) (x1 : FVec Ideal S512x128 .f32) (x4 : (⟨S16000, .i32⟩ : BufTy).Contents (Elt Ideal))
    (x6 : FVec Ideal S256x128 .f32) (x7 : FVec Ideal S128 .f32) (p : Fin 16000) (j : Fin 128) :
    val_main_v46 (F := Ideal) x0 x1 x4 x6 x7 (ix2 p j)
      = (∑ k : Fin 128, x0 (ix2 p k) * extractStridedSlice Cert.KernelIdeal.S128x128 ![0, 0] x6 Cert.KernelIdeal.Facts₀.slices_S256x128_S128x128_0_0 (ix2 k j))
        + (∑ k : Fin 128, val_main_v41 (F := Ideal) x1 x4 (ix2 p k) * extractStridedSlice Cert.KernelIdeal.S128x128 ![128, 0] x6 Cert.KernelIdeal.Facts₀.slices_S256x128_S128x128_128_0 (ix2 k j))
        + shapeCast Cert.KernelIdeal.S1x128 x7 Cert.KernelIdeal.Facts₀.shapeCasts_S128_S1x128 (ix2 (0 : Fin 1) j) := by
  rw [val_main_v46_apply, val_main_v45_apply, val_main_v44_apply, val_main_v43_apply, bias_row]
  have hb : idx_main_v44 (idx_main_v45 (ix2 p j : S16000x128.Idx)) = ix1 j := funext fun a => by
    match a with
    | ⟨0, _⟩ => rfl
  rw [hb]
  show (_ : EReal) + _ = _
  refine congrArg₂ (· + ·) ?_ rfl
  have hl : ∀ k : Fin 256, lidx_main_v43 (ix2 p j : S16000x128.Idx) k = ix2 p k := fun k => funext fun a => by
    match a with
    | ⟨0, _⟩ => rfl
    | ⟨1, _⟩ => rfl
  have hr : ∀ k : Fin 256, ridx_main_v43 (ix2 p j : S16000x128.Idx) k = ix2 k j := fun k => funext fun a => by
    match a with
    | ⟨0, _⟩ => rfl
    | ⟨1, _⟩ => rfl
  refine (Finset.sum_congr rfl fun k _ => ?_).trans
    ((sum_fin256 (fun k : Fin 256 => val_main_v42 (F := Ideal) x0 x1 x4 (ix2 p k) * x6 (ix2 k j))).trans ?_)
  · rw [hl k, hr k]
  refine congrArg₂ (· + ·) (Finset.sum_congr rfl fun k _ => ?_) (Finset.sum_congr rfl fun k _ => ?_)
  · rw [upper_block]; exact congrArg (· * _) (joined_left x0 x1 x4 p k)
  · rw [lower_block]; exact congrArg (· * _) (joined_right x0 x1 x4 p k)

/-- The reference's value before the logistic function, at row `p`. -/
theorem before_logistic (x0 : FVec Ideal S16000x128 .f32) (x1 : FVec Ideal S512x128 .f32) (x4 : (⟨S16000, .i32⟩ : BufTy).Contents (Elt Ideal))
    (x6 : FVec Ideal S256x128 .f32) (x7 : FVec Ideal S128 .f32) (x8 : FVec Ideal S128x1 .f32) (x9 : FVec Ideal S1 .f32)
    (p : Fin 16000) :
    val_main_v51 (F := Ideal) x0 x1 x4 x6 x7 x8 x9 (ix2 p (0 : Fin 1))
      = (∑ j : Fin 128, max (val_main_v46 (F := Ideal) x0 x1 x4 x6 x7 (ix2 p j)) 0
            * shapeCast Cert.KernelIdeal.S1x128 (shapeCast Cert.KernelIdeal.S128 x8 Cert.KernelIdeal.Facts₀.shapeCasts_S128x1_S128) Cert.KernelIdeal.Facts₀.shapeCasts_S128_S1x128 (ix2 (0 : Fin 1) j))
        + shapeCast Cert.KernelIdeal.S1x1 x9 Cert.KernelIdeal.Facts₀.shapeCasts_S1_S1x1 (ix2 (0 : Fin 1) (0 : Fin 1)) := by
  rw [val_main_v51_apply, val_main_v50_apply, val_main_v49_apply, val_main_v48_apply, bias_cell]
  have hb : idx_main_v49 (idx_main_v50 (ix2 p (0 : Fin 1) : S16000x1.Idx)) = ix1 (0 : Fin 1) := funext fun a => by
    match a with
    | ⟨0, _⟩ => rfl
  rw [hb]
  show (_ : EReal) + _ = _
  refine congrArg₂ (· + ·) (Finset.sum_congr rfl fun j _ => ?_) rfl
  have hl : lidx_main_v48 (ix2 p (0 : Fin 1) : S16000x1.Idx) j = ix2 p j := funext fun a => by
    match a with
    | ⟨0, _⟩ => rfl
    | ⟨1, _⟩ => rfl
  have hr : ridx_main_v48 (ix2 p (0 : Fin 1) : S16000x1.Idx) j = ix2 j (0 : Fin 1) := funext fun a => by
    match a with
    | ⟨0, _⟩ => rfl
    | ⟨1, _⟩ => rfl
  rw [hl, hr, weight_row, val_main_v47_apply, val_main_call0_v0_apply, val_main_call0_cst_apply]
  show max _ (Ideal.ofBits .f32 0x00000000#32) * _ = _
  rw [Ideal.ofBits_zero_f32]

/-- THE REFERENCE'S NODE WEIGHTS are the column of node weights of the feature array, the gathered prototype rows, the
    two blocks of the first weight matrix, and the biases and second weights read through their reshapes. -/
theorem ref0 (x0 : FVec Ideal S16000x128 .f32) (x1 : FVec Ideal S512x128 .f32) (x4 : (⟨S16000, .i32⟩ : BufTy).Contents (Elt Ideal))
    (x6 : FVec Ideal S256x128 .f32) (x7 : FVec Ideal S128 .f32) (x8 : FVec Ideal S128x1 .f32) (x9 : FVec Ideal S1 .f32) :
    val_main_v57 (F := Ideal) x0 x1 x4 x6 x7 x8 x9
      = nodeWeight x0 (val_main_v41 (F := Ideal) x1 x4)
          (extractStridedSlice Cert.KernelIdeal.S128x128 ![0, 0] x6 Cert.KernelIdeal.Facts₀.slices_S256x128_S128x128_0_0)
          (extractStridedSlice Cert.KernelIdeal.S128x128 ![128, 0] x6 Cert.KernelIdeal.Facts₀.slices_S256x128_S128x128_128_0)
          (shapeCast Cert.KernelIdeal.S1x128 x7 Cert.KernelIdeal.Facts₀.shapeCasts_S128_S1x128)
          (shapeCast Cert.KernelIdeal.S1x128 (shapeCast Cert.KernelIdeal.S128 x8 Cert.KernelIdeal.Facts₀.shapeCasts_S128x1_S128) Cert.KernelIdeal.Facts₀.shapeCasts_S128_S1x128)
          (shapeCast Cert.KernelIdeal.S1x1 x9 Cert.KernelIdeal.Facts₀.shapeCasts_S1_S1x1) := by
  funext i
  obtain ⟨p, q, rfl⟩ : ∃ (p : Fin 16000) (q : Fin 1), i = (ix2 p q : S16000x1.Idx) := ⟨i 0, i 1, eq_ix2 i⟩
  obtain rfl : q = 0 := Subsingleton.elim _ _
  rw [nodeWeight_apply, val_main_v57_apply, val_main_v56_apply, val_main_cst_9_apply, val_main_v55_apply, val_main_v54_apply,
    val_main_cst_apply, val_main_v53_apply, val_main_v52_apply, before_logistic]
  unfold rowWeight
  show Ideal.div (Ideal.ofBits .f32 0x3F800000#32) (Ideal.ofBits .f32 0x3F800000#32 + Ideal.exp (-_)) = Ideal.logistic _
  rw [ofBits_one_f32]
  unfold Ideal.logistic
  refine congrArg (fun z => Ideal.div 1 (1 + Ideal.exp (-z))) (congrArg₂ (· + ·) (Finset.sum_congr rfl fun j _ => ?_) rfl)
  rw [hidden_unit]

end Cert.Bridge.Region0

end
-- ==== Proof.Region1.lean ====
/- The first linear layer of the edge network. For every edge (row) the kernel multiplies the two gathered
   node-feature rows by the two halves of one weight matrix and adds the two products; the reference joins the
   two gathered rows into one row of twice the length and multiplies it by the whole weight matrix. Both are the
   function `xw1` of four arrays: at row `r` and column `q`,
   `∑ k < 128, xc r k * wa k q + ∑ k < 128, xr r k * wb k q`. The kernel computes it one block of 2048 rows
   per grid point (each block needs only its own rows of the two left factors and the whole right factors, and
   the 125 blocks tile the 256000 rows); the reference's sum over 256 splits into the sum over the first 128
   indices, which lie in the first joined piece and the upper half of the weights, and the sum over the last
   128, which lie in the second piece and the lower half. Only the splitting of a finite sum is used. -/
import proofs.«166373_j81312320848270_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Region1

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The function both programs compute -/

/-- At row `i 0` and column `i 1`: the row of `xc` against the column of `wa`, plus the row of `xr` against
    the column of `wb`, each a sum over the 128 shared indices. -/
def xw1 (xc xr : FVec Ideal S256000x128 .f32) (wa wb : FVec Ideal S128x256 .f32) : FVec Ideal S256000x256 .f32 :=
  fun i => (∑ k : Fin 128, xc (ix2 (i 0) k) * wa (ix2 k (i 1))) + ∑ k : Fin 128, xr (ix2 (i 0) k) * wb (ix2 k (i 1))

/-! ## One block: the product of a [2048,128] block with a [128,256] matrix, at an index -/

theorem lhs_row (j : S2048x256.Idx) (q : dot_S2048x128_S128x256_S2048x256_1_0_0_1_n_n.contr.Idx) :
    (dot_S2048x128_S128x256_S2048x256_1_0_0_1_n_n.lhsIdx j q 0).val = (j 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl

theorem rhs_col (j : S2048x256.Idx) (q : dot_S2048x128_S128x256_S2048x256_1_0_0_1_n_n.contr.Idx) :
    (dot_S2048x128_S128x256_S2048x256_1_0_0_1_n_n.rhsIdx j q 1).val = (j 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- The block product into a zero accumulator, at an index: the row against the column. -/
theorem matmul_row_col (l : FVec Ideal S2048x128 .bf16) (r : FVec Ideal S128x256 .bf16) (j : S2048x256.Idx) :
    matmul dot_S2048x128_S128x256_S2048x256_1_0_0_1_n_n none l r (constant (F := Ideal) S2048x256 .f32 0x00000000#32) j
      = ∑ k : Fin 128, l (ix2 (j 0) k) * r (ix2 k (j 1)) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx j ((contrEquiv1 dot_S2048x128_S128x256_S2048x256_1_0_0_1_n_n 128 rfl rfl).symm k) = ix2 (j 0) k := funext fun a => Fin.ext (by
    match a with
    | ⟨0, _⟩ => exact lhs_row _ _
    | ⟨1, _⟩ => exact (dot_S2048x128_S128x256_S2048x256_1_0_0_1_n_n.lhsIdx_val_of_single rfl j _).trans hk)
  have er : dot_S2048x128_S128x256_S2048x256_1_0_0_1_n_n.rhsIdx j ((contrEquiv1 dot_S2048x128_S128x256_S2048x256_1_0_0_1_n_n 128 rfl rfl).symm k) = ix2 k (j 1) := funext fun a => Fin.ext (by
    match a with
    | ⟨0, _⟩ => exact (dot_S2048x128_S128x256_S2048x256_1_0_0_1_n_n.rhsIdx_val_of_single rfl j _).trans hk
    | ⟨1, _⟩ => exact rhs_col _ _)
  rw [el, er]
  rfl

/-- What the body stores, at an index of the block: the two block products added. -/
theorem pay1_apply (x0 x1 : Vec Ideal S2048x128 .f32) (x2 x3 : Vec Ideal S128x256 .f32) (j : S2048x256.Idx) :
    k1_pay1 (F := Ideal) x0 x1 x2 x3 j
      = (∑ k : Fin 128, x0 (ix2 (j 0) k) * x2 (ix2 k (j 1))) + ∑ k : Fin 128, x1 (ix2 (j 0) k) * x3 (ix2 k (j 1)) := by
  unfold k1_pay1
  simp only [shapeCast_self]
  show matmul dot_S2048x128_S128x256_S2048x256_1_0_0_1_n_n none _ _ (constant (F := Ideal) S2048x256 .f32 0x00000000#32) j
      + matmul dot_S2048x128_S128x256_S2048x256_1_0_0_1_n_n none _ _ (constant (F := Ideal) S2048x256 .f32 0x00000000#32) j = _
  rw [matmul_row_col, matmul_row_col]
  rfl

/-! ## From blocks to the array -/

theorem hz : (![0, 0] : Fin 2 → Nat) = fun _ => 0 := funext fun a => by fin_cases a <;> rfl

/-- The index maps, decided over the 125 grid points: the two left factors move with the output, one row block per
    point; the two right factors stay whole; the output's row block at point `t` is block `t`. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Entry (p, k) of the first left factor's block at point `t` is the array's entry in the row where the output's
    block puts its row `p`. -/
theorem read_xc (p : Fin 2048) (q : Fin 256) (k : Fin 128) :
    (iblk1 (F := Ideal) V c 0 t : Vec Ideal S2048x128 .f32) (ix2 p k)
      = (V c main_v14 : S256000x128.Idx → EReal) (ix2 ((((cfg1.win 4).blk t).view.emb (ix2 p q) : S256000x256.Idx) 0) k) := by
  obtain ⟨e00, e01, -⟩ := idx_facts t
  show (V c main_v14 : S256000x128.Idx → EReal) (((cfg1.win 0).blk t).view.emb (ix2 p k)) = _
  refine congrArg _ (funext fun a => Fin.ext ?_)
  match a with
  | ⟨0, _⟩ => show win1_0.index t (0 : Fin 2) * 2048 + 1 * p.val = win1_4.index t (0 : Fin 2) * 2048 + 1 * p.val; omega
  | ⟨1, _⟩ => show win1_0.index t (1 : Fin 2) * 128 + 1 * k.val = k.val; omega

/-- The same for the second left factor. -/
theorem read_xr (p : Fin 2048) (q : Fin 256) (k : Fin 128) :
    (iblk1 (F := Ideal) V c 1 t : Vec Ideal S2048x128 .f32) (ix2 p k)
      = (V c main_v21 : S256000x128.Idx → EReal) (ix2 ((((cfg1.win 4).blk t).view.emb (ix2 p q) : S256000x256.Idx) 0) k) := by
  obtain ⟨-, -, e10, e11, -⟩ := idx_facts t
  show (V c main_v21 : S256000x128.Idx → EReal) (((cfg1.win 1).blk t).view.emb (ix2 p k)) = _
  refine congrArg _ (funext fun a => Fin.ext ?_)
  match a with
  | ⟨0, _⟩ => show win1_1.index t (0 : Fin 2) * 2048 + 1 * p.val = win1_4.index t (0 : Fin 2) * 2048 + 1 * p.val; omega
  | ⟨1, _⟩ => show win1_1.index t (1 : Fin 2) * 128 + 1 * k.val = k.val; omega

/-- Entry (k, q) of the first right factor's block is the array's entry in the column where the output's block puts
    its column `q`: the block is the whole array, and the output's blocks span all columns. -/
theorem read_wa (p : Fin 2048) (q : Fin 256) (k : Fin 128) :
    (iblk1 (F := Ideal) V c 2 t : Vec Ideal S128x256 .f32) (ix2 k q)
      = (V c main_v88 : S128x256.Idx → EReal) (ix2 k ((((cfg1.win 4).blk t).view.emb (ix2 p q) : S256000x256.Idx) 1)) := by
  obtain ⟨-, -, -, -, e20, e21, -, -, -, e41⟩ := idx_facts t
  show (V c main_v88 : S128x256.Idx → EReal) (((cfg1.win 2).blk t).view.emb (ix2 k q)) = _
  refine congrArg _ (funext fun a => Fin.ext ?_)
  match a with
  | ⟨0, _⟩ => show win1_2.index t (0 : Fin 2) * 128 + 1 * k.val = k.val; omega
  | ⟨1, _⟩ => show win1_2.index t (1 : Fin 2) * 256 + 1 * q.val = win1_4.index t (1 : Fin 2) * 256 + 1 * q.val; omega

/-- The same for the second right factor. -/
theorem read_wb (p : Fin 2048) (q : Fin 256) (k : Fin 128) :
    (iblk1 (F := Ideal) V c 3 t : Vec Ideal S128x256 .f32) (ix2 k q)
      = (V c main_v89 : S128x256.Idx → EReal) (ix2 k ((((cfg1.win 4).blk t).view.emb (ix2 p q) : S256000x256.Idx) 1)) := by
  obtain ⟨-, -, -, -, -, -, e30, e31, -, e41⟩ := idx_facts t
  show (V c main_v89 : S128x256.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 256 + 1 * q.val = win1_4.index t (1 : Fin 2) * 256 + 1 * q.val; omega

/-- What point `t` writes back is block `t` of `xw1` of the four arrays as the region finds them. -/
theorem flushed_eq :
    (dat1 (F := Ideal) V c).flushed 4 t
      = ((cfg1.win 4).blk t).view.read (Elt Ideal) (xw1 (V c main_v14) (V c main_v21) (V c main_v88) (V c main_v89)) := by
  show (cfg1.win 4).cut (grid1.coords t) ((dat1 (F := Ideal) V c).after 4 t) = _
  rw [after1_4]
  unfold out1_4
  rw [View.canon_unit_zero hz]
  simp only [View.ld_unit_zero (S := S2048x128) hz, View.ld_unit_zero (S := S128x256) hz]
  funext j
  obtain ⟨p, q, rfl⟩ : ∃ (p : Fin 2048) (q : Fin 256), j = ix2 p q := ⟨j 0, j 1, eq_ix2 j⟩
  show k1_pay1 (F := Ideal) (iblk1 V c 0 t) (iblk1 V c 1 t) (iblk1 V c 2 t) (iblk1 V c 3 t) (ix2 p q)
      = xw1 (V c main_v14) (V c main_v21) (V c main_v88) (V c main_v89) (((cfg1.win 4).blk t).view.emb (ix2 p q))
  refine (pay1_apply (iblk1 V c 0 t) (iblk1 V c 1 t) (iblk1 V c 2 t) (iblk1 V c 3 t) (ix2 p q)).trans ?_
  unfold xw1
  congr 1 <;> refine Finset.sum_congr rfl fun k _ => ?_
  · exact congrArg₂ (· * ·) (read_xc V c t p q k) (read_wa V c t p q k)
  · exact congrArg₂ (· * ·) (read_xr V c t p q k) (read_wb V c t p q k)

end Blocks

/-- An index of the output array is in point `t`'s block iff each coordinate is in the block's range on its axis. -/
theorem mem_blk (t : Fin cfg1.N) (i : S256000x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v90).slice (win1_4.rect t)).set ↔ _
  rw [View.set_slice_whole, Rect.mem_set_unit]
  exact Iff.rfl

/-- Row `r` lies in the block of point `r / 2048`: the 125 row blocks tile the 256000 rows. -/
theorem cover (i : S256000x256.Idx) :
    ∃ t : Fin cfg1.N, (cfg1.win 4).flush t = true ∧ i ∈ ((cfg1.win 4).blk t).view.set := by
  have hi0 : (i 0).val < 256000 := (i 0).isLt
  have hi1 : (i 1).val < 256 := (i 1).isLt
  obtain ⟨t, ht⟩ : ∃ t : Fin cfg1.N, t.val = (i 0).val / 2048 :=
    ⟨⟨(i 0).val / 2048, by rw [show cfg1.N = 125 from N_1]; omega⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 256 ≤ (i 1).val ∧ (i 1).val < win1_4.index t (1 : Fin 2) * 256 + 256; omega

/-- The output array after the region: `xw1` of the four input arrays as the region finds them. -/
theorem final1 (V : (c : Dev nD) → (b : Ref sig .tc) → Buf (Elt Ideal) ((c : Thread nD τ).loc b)) (c : Dev nD) :
    (dat1 (F := Ideal) V c).arrAt 4 cfg1.N = xw1 (V c main_v14) (V c main_v21) (V c main_v88) (V c main_v89) :=
  (dat1 (F := Ideal) V c).arrAt_eq_of_cover 4 (xw1 (V c main_v14) (V c main_v21) (V c main_v88) (V c main_v89))
    (fun t _ => flushed_eq V c t) cover

end Cert.Bridge.Region1

end
-- ==== Proof.Region1Ref.lean ====
/- The reference's first linear layer is the same function of the same arrays as the kernel's: the reference joins
   the two gathered rows (128 + 128 entries) and multiplies by the whole [256,256] weight matrix; the sum over the
   256 shared indices is the sum over the first 128, which fall in the first joined piece and the matrix's upper
   half, plus the sum over the last 128, which fall in the second piece and the lower half. Only the splitting of
   a finite sum at an index is used. -/
import proofs.«166373_j81312320848270_2_alg».proof.Proof.Region1
import proofs.«166373_j81312320848270_2_alg».proof.Proof.RefStages
import Idealize.ShloMosaic.Lib.Pipeline.Value
import Idealize.ShloMosaic.Lib.ValueIdx

noncomputable section

namespace Cert.Bridge.Region1

open Cert.KernelIdeal Cert.KernelIdeal.Gen Idealize.ShloMosaic Idealize.ShloMosaic.TcCoe Idealize.SL.Sem
open Idealize.ShloMosaic.ValueIdx
open scoped BigOperators

/-- The product of the two joined rows with the whole weight matrix is `xw1` of the two rows and the matrix's
    upper and lower halves: the sum over 256 indices is the sum over the first 128, which fall in the first joined
    piece and the upper half, plus the sum over the last 128, which fall in the second piece and the lower half. -/
theorem ref1 (x0 : (⟨Cert.ReferenceIdeal.S16000x128, .f32⟩ : BufTy).Contents (Elt Ideal))
    (x2 : (⟨Cert.ReferenceIdeal.S2x256000, .i32⟩ : BufTy).Contents (Elt Ideal))
    (x10 : (⟨Cert.ReferenceIdeal.S256x256, .f32⟩ : BufTy).Contents (Elt Ideal)) :
    Cert.ReferenceIdeal.Read.val_main_v70 (F := Ideal) x0 x2 x10
      = xw1 (Cert.ReferenceIdeal.Read.val_main_v10 (F := Ideal) x0 x2) (Cert.ReferenceIdeal.Read.val_main_v17 (F := Ideal) x0 x2)
          (extractStridedSlice S128x256 ![0, 0] x10 slices_S256x256_S128x256_0_0)
          (extractStridedSlice S128x256 ![128, 0] x10 slices_S256x256_S128x256_128_0) := by
  funext i
  rw [Cert.ReferenceIdeal.Read.val_main_v70_apply]
  unfold Cert.ReferenceIdeal.Read.val_main_v18 xw1
  generalize Cert.ReferenceIdeal.Read.val_main_v10 (F := Ideal) x0 x2 = y10
  generalize Cert.ReferenceIdeal.Read.val_main_v17 (F := Ideal) x0 x2 = y17
  refine (Fin.sum_univ_add (M := EReal) (a := 128) (b := 128) _).trans ?_
  congr 1 <;> refine Finset.sum_congr rfl fun k _ => ?_
  · refine congrArg₂ (· * ·) ?_ ?_
    · exact concatenate_pair_apply_left (t := S256000x256) 1 y10 y17 _ (Cert.ReferenceIdeal.Read.lidx_main_v70 i (Fin.castAdd 128 k)) rfl (ix2 (i 0) k)
        (fun b => match b with | ⟨0, _⟩ => rfl | ⟨1, _⟩ => rfl)
    · exact (extractStridedSlice_apply _ x10 _ (ix2 k (i 1)) _
        (fun a => match a with | ⟨0, _⟩ => (Nat.zero_add _).symm | ⟨1, _⟩ => (Nat.zero_add _).symm)).symm
  · refine congrArg₂ (· * ·) ?_ ?_
    · exact concatenate_pair_apply_right (t := S256000x256) 1 y10 y17 _ (Cert.ReferenceIdeal.Read.lidx_main_v70 i (Fin.natAdd 128 k)) rfl rfl (ix2 (i 0) k)
        (fun b hb => match b, hb with | ⟨0, _⟩, _ => rfl | ⟨1, _⟩, hb => absurd rfl hb)
        (Nat.add_comm _ _)
    · exact (extractStridedSlice_apply _ x10 _ (ix2 k (i 1)) _
        (fun a => match a with | ⟨0, _⟩ => rfl | ⟨1, _⟩ => (Nat.zero_add _).symm)).symm

end Cert.Bridge.Region1

end
-- ==== Proof.Region2.lean ====
/- The second layer of the edge network. For every edge (row) the kernel adds a bias row to the row of
   pre-activations, applies the logistic function entry by entry, and multiplies the result by a [256,128] weight
   matrix: at row `r` and column `q`, `∑ k < 256, logistic (o r k + b 0 k) * w k q` — the function `xw2` of the three
   arrays. The kernel computes it one block of 2048 rows per grid point: each block needs only its own rows of the
   pre-activations and the whole bias row and weight matrix, and the 125 blocks tile the 256000 rows. -/
import proofs.«166373_j81312320848270_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.Region2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The function both programs compute -/

/-- At row `i 0` and column `i 1`: the logistic function of the row of `o` plus the one row of `b`, against the column
    of `w`, a sum over the 256 shared indices. -/
def xw2 (o : FVec Ideal S256000x256 .f32) (b : FVec Ideal S1x256 .f32) (w : FVec Ideal S256x128 .f32) : FVec Ideal S256000x128 .f32 :=
  fun i => ∑ k : Fin 256, Ideal.logistic (o (ix2 (i 0) k) + b (ix2 (0 : Fin 1) k)) * w (ix2 k (i 1))

/-! ## One block: the product of a [2048,256] block with a [256,128] matrix, at an index -/

theorem lhs_row (j : S2048x128.Idx) (q : dot_S2048x256_S256x128_S2048x128_1_0_0_1_n_n.contr.Idx) :
    (dot_S2048x256_S256x128_S2048x128_1_0_0_1_n_n.lhsIdx j q 0).val = (j 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl

theorem rhs_col (j : S2048x128.Idx) (q : dot_S2048x256_S256x128_S2048x128_1_0_0_1_n_n.contr.Idx) :
    (dot_S2048x256_S256x128_S2048x128_1_0_0_1_n_n.rhsIdx j q 1).val = (j 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The block product into a zero accumulator, at an index: the row against the column. -/
theorem matmul_row_col (l : FVec Ideal S2048x256 .bf16) (r : FVec Ideal S256x128 .bf16) (j : S2048x128.Idx) :
    matmul dot_S2048x256_S256x128_S2048x128_1_0_0_1_n_n none l r (constant (F := Ideal) S2048x128 .f32 0x00000000#32) j
      = ∑ k : Fin 256, l (ix2 (j 0) k) * r (ix2 k (j 1)) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx j ((contrEquiv1 dot_S2048x256_S256x128_S2048x128_1_0_0_1_n_n 256 rfl rfl).symm k) = ix2 (j 0) k := funext fun a => Fin.ext (by
    match a with
    | ⟨0, _⟩ => exact lhs_row _ _
    | ⟨1, _⟩ => exact (dot_S2048x256_S256x128_S2048x128_1_0_0_1_n_n.lhsIdx_val_of_single rfl j _).trans hk)
  have er : dot_S2048x256_S256x128_S2048x128_1_0_0_1_n_n.rhsIdx j ((contrEquiv1 dot_S2048x256_S256x128_S2048x128_1_0_0_1_n_n 256 rfl rfl).symm k) = ix2 k (j 1) := funext fun a => Fin.ext (by
    match a with
    | ⟨0, _⟩ => exact (dot_S2048x256_S256x128_S2048x128_1_0_0_1_n_n.rhsIdx_val_of_single rfl j _).trans hk
    | ⟨1, _⟩ => exact rhs_col _ _)
  rw [el, er]
  rfl

/-- What the body stores, at an index of the block. -/
theorem pay2_apply (x0 : Vec Ideal S2048x256 .f32) (x1 : Vec Ideal S1x256 .f32) (x2 : Vec Ideal S256x128 .f32) (j : S2048x128.Idx) :
    k2_pay1 (F := Ideal) x0 x1 x2 j
      = ∑ k : Fin 256, Ideal.logistic (x0 (ix2 (j 0) k) + x1 (ix2 (0 : Fin 1) k)) * x2 (ix2 k (j 1)) := by
  unfold k2_pay1
  simp only [shapeCast_self]
  show matmul dot_S2048x256_S256x128_S2048x128_1_0_0_1_n_n none _ _ (constant (F := Ideal) S2048x128 .f32 0x00000000#32) j = _
  rw [matmul_row_col]
  refine Finset.sum_congr rfl fun k _ => ?_
  exact congrArg (fun z => Ideal.logistic (x0 (ix2 (j 0) k) + z) * x2 (ix2 k (j 1)))
    (broadcastTo_1b_ab_apply x1 broadcasts_S1x256_S2048x256 (j 0) k)

/-! ## From blocks to the array -/

theorem hz : (![0, 0] : Fin 2 → Nat) = fun _ => 0 := funext fun a => by fin_cases a <;> rfl

/-- The index maps, decided over the 125 grid points: the pre-activations move with the output, one row block per
    point; the bias row and the weight matrix stay whole; the output's row block at point `t` is block `t`. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- Entry (p, k) of the pre-activations' block at point `t` is the array's entry in the row where the output's block
    puts its row `p`. -/
theorem read_o (p : Fin 2048) (q : Fin 128) (k : Fin 256) :
    (iblk2 (F := Ideal) V c 0 t : Vec Ideal S2048x256 .f32) (ix2 p k)
      = (V c main_v130 : S256000x256.Idx → EReal) (ix2 ((((cfg2.win 3).blk t).view.emb (ix2 p q) : S256000x128.Idx) 0) k) := by
  obtain ⟨e00, e01, -⟩ := idx_facts t
  show (V c main_v130 : S256000x256.Idx → EReal) (((cfg2.win 0).blk t).view.emb (ix2 p k)) = _
  refine congrArg _ (funext fun a => Fin.ext ?_)
  match a with
  | ⟨0, _⟩ => show win2_0.index t (0 : Fin 2) * 2048 + 1 * p.val = win2_3.index t (0 : Fin 2) * 2048 + 1 * p.val; omega
  | ⟨1, _⟩ => show win2_0.index t (1 : Fin 2) * 256 + 1 * k.val = k.val; omega

/-- The bias row's block is the whole row. -/
theorem read_b (u : Fin 1) (k : Fin 256) :
    (iblk2 (F := Ideal) V c 1 t : Vec Ideal S1x256 .f32) (ix2 u k) = (V c main_v131 : S1x256.Idx → EReal) (ix2 u k) := by
  obtain ⟨-, -, e10, e11, -⟩ := idx_facts t
  show (V c main_v131 : S1x256.Idx → EReal) (((cfg2.win 1).blk t).view.emb (ix2 u k)) = _
  refine congrArg _ (funext fun a => Fin.ext ?_)
  match a with
  | ⟨0, _⟩ => show win2_1.index t (0 : Fin 2) * 1 + 1 * u.val = u.val; omega
  | ⟨1, _⟩ => show win2_1.index t (1 : Fin 2) * 256 + 1 * k.val = k.val; omega

/-- Entry (k, q) of the weight matrix's block is the array's entry in the column where the output's block puts its
    column `q`: the block is the whole matrix, and the output's blocks span all columns. -/
theorem read_w (p : Fin 2048) (q : Fin 128) (k : Fin 256) :
    (iblk2 (F := Ideal) V c 2 t : Vec Ideal S256x128 .f32) (ix2 k q)
      = (V c main_arg12 : S256x128.Idx → EReal) (ix2 k ((((cfg2.win 3).blk t).view.emb (ix2 p q) : S256000x128.Idx) 1)) := by
  obtain ⟨-, -, -, -, e20, e21, -, e31⟩ := idx_facts t
  show (V c main_arg12 : S256x128.Idx → EReal) (((cfg2.win 2).blk t).view.emb (ix2 k q)) = _
  refine congrArg _ (funext fun a => Fin.ext ?_)
  match a with
  | ⟨0, _⟩ => show win2_2.index t (0 : Fin 2) * 256 + 1 * k.val = k.val; omega
  | ⟨1, _⟩ => show win2_2.index t (1 : Fin 2) * 128 + 1 * q.val = win2_3.index t (1 : Fin 2) * 128 + 1 * q.val; omega

/-- What point `t` writes back is block `t` of `xw2` of the three arrays as the region finds them. -/
theorem flushed_eq :
    (dat2 (F := Ideal) V c).flushed 3 t
      = ((cfg2.win 3).blk t).view.read (Elt Ideal) (xw2 (V c main_v130) (V c main_v131) (V c main_arg12)) := by
  show (cfg2.win 3).cut (grid2.coords t) ((dat2 (F := Ideal) V c).after 3 t) = _
  rw [after2_3]
  unfold out2_3
  rw [View.canon_unit_zero hz]
  simp only [View.ld_unit_zero (S := S2048x256) hz, View.ld_unit_zero (S := S1x256) hz, View.ld_unit_zero (S := S256x128) hz]
  funext j
  obtain ⟨p, q, rfl⟩ : ∃ (p : Fin 2048) (q : Fin 128), j = ix2 p q := ⟨j 0, j 1, eq_ix2 j⟩
  show k2_pay1 (F := Ideal) (iblk2 V c 0 t) (iblk2 V c 1 t) (iblk2 V c 2 t) (ix2 p q)
      = xw2 (V c main_v130) (V c main_v131) (V c main_arg12) (((cfg2.win 3).blk t).view.emb (ix2 p q))
  refine (pay2_apply (iblk2 V c 0 t) (iblk2 V c 1 t) (iblk2 V c 2 t) (ix2 p q)).trans ?_
  unfold xw2
  refine Finset.sum_congr rfl fun k _ => ?_
  exact congrArg₂ (· * ·)
    (congrArg₂ (fun a b : EReal => Ideal.logistic (a + b)) (read_o V c t p q k) (read_b V c t 0 k))
    (read_w V c t p q k)

end Blocks

/-- An index of the output array is in point `t`'s block iff each coordinate is in the block's range on its axis. -/
theorem mem_blk (t : Fin cfg2.N) (i : S256000x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v132).slice (win2_3.rect t)).set ↔ _
  rw [View.set_slice_whole, Rect.mem_set_unit]
  exact Iff.rfl

/-- Row `r` lies in the block of point `r / 2048`: the 125 row blocks tile the 256000 rows. -/
theorem cover (i : S256000x128.Idx) :
    ∃ t : Fin cfg2.N, (cfg2.win 3).flush t = true ∧ i ∈ ((cfg2.win 3).blk t).view.set := by
  have hi0 : (i 0).val < 256000 := (i 0).isLt
  have hi1 : (i 1).val < 128 := (i 1).isLt
  obtain ⟨t, ht⟩ : ∃ t : Fin cfg2.N, t.val = (i 0).val / 2048 :=
    ⟨⟨(i 0).val / 2048, by rw [show cfg2.N = 125 from N_2]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

/-- The output array after the region: `xw2` of the three input arrays as the region finds them. -/
theorem final2 (V : (c : Dev nD) → (b : Ref sig .tc) → Buf (Elt Ideal) ((c : Thread nD τ).loc b)) (c : Dev nD) :
    (dat2 (F := Ideal) V c).arrAt 3 cfg2.N = xw2 (V c main_v130) (V c main_v131) (V c main_arg12) :=
  (dat2 (F := Ideal) V c).arrAt_eq_of_cover 3 (xw2 (V c main_v130) (V c main_v131) (V c main_arg12))
    (fun t _ => flushed_eq V c t) cover

end Cert.Bridge.Region2

end
-- ==== Proof.Region2Ref.lean ====
/- The reference's second layer is the same function of the same arrays as the kernel's. The reference adds the
   bias, broadcast over the rows, to the pre-activations, and spells the logistic function entry by entry as
   `1 / (1 + exp (-x))` with the constant 1.0 given by its bit pattern; then it multiplies by the weight matrix. The
   bit pattern 0x3F800000 denotes the real number 1 (exponent field 127, zero fraction: `2^23 * 2^(-23)`), so the
   reference's expression is the logistic function, and its sum over the 256 shared indices is `xw2`'s, term by
   term. The bias enters the kernel as a [1,256] array, the [256] argument with a unit axis added. -/
import proofs.«166373_j81312320848270_2_alg».proof.Proof.Region2
import proofs.«166373_j81312320848270_2_alg».proof.Proof.RefStages
import Idealize.ShloMosaic.Lib.Pipeline.Value
import Idealize.ShloMosaic.Lib.ValueIdx
import Idealize.ShloMosaic.Lib.ValueLayout

noncomputable section

namespace Cert.Bridge.Region2

open Cert.KernelIdeal Cert.KernelIdeal.Gen Idealize.ShloMosaic Idealize.ShloMosaic.TcCoe Idealize.SL.Sem
open Idealize.ShloMosaic.ValueIdx
open scoped BigOperators

/-- The f32 pattern with exponent field 127 and zero fraction is the real number one. -/
theorem ofBits_one_f32 : Ideal.ofBits .f32 0x3F800000#32 = 1 := by
  simp [Ideal.ofBits, Ideal.ieee]
  rw [← EReal.coe_mul]
  norm_num

/-- The reference's spelling of the logistic function, with its two constants 1.0 as bit patterns. -/
theorem logistic_host (a : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf a)))
      = Ideal.logistic a := by
  show Ideal.div (Ideal.ofBits .f32 0x3F800000#32) (Ideal.ofBits .f32 0x3F800000#32 + Ideal.exp (-a)) = Ideal.div 1 (1 + Ideal.exp (-a))
  rw [ofBits_one_f32]

/-- The reference's logistic of the biased pre-activations times the weight matrix is `xw2` of the pre-activations,
    the bias with a unit axis added, and the weight matrix. -/
theorem ref2 (x0 : (⟨Cert.ReferenceIdeal.S16000x128, .f32⟩ : BufTy).Contents (Elt Ideal)) (x1 : (⟨Cert.ReferenceIdeal.S512x128, .f32⟩ : BufTy).Contents (Elt Ideal))
    (x2 : (⟨Cert.ReferenceIdeal.S2x256000, .i32⟩ : BufTy).Contents (Elt Ideal)) (x4 : (⟨Cert.ReferenceIdeal.S16000, .i32⟩ : BufTy).Contents (Elt Ideal))
    (x5 : (⟨Cert.ReferenceIdeal.S2x512000, .i32⟩ : BufTy).Contents (Elt Ideal)) (x6 : (⟨Cert.ReferenceIdeal.S256x128, .f32⟩ : BufTy).Contents (Elt Ideal))
    (x7 : (⟨Cert.ReferenceIdeal.S128, .f32⟩ : BufTy).Contents (Elt Ideal)) (x8 : (⟨Cert.ReferenceIdeal.S128x1, .f32⟩ : BufTy).Contents (Elt Ideal))
    (x9 : (⟨Cert.ReferenceIdeal.S1, .f32⟩ : BufTy).Contents (Elt Ideal)) (x10 : (⟨Cert.ReferenceIdeal.S256x256, .f32⟩ : BufTy).Contents (Elt Ideal))
    (x11 : (⟨Cert.ReferenceIdeal.S256, .f32⟩ : BufTy).Contents (Elt Ideal)) (x12 : (⟨Cert.ReferenceIdeal.S256x128, .f32⟩ : BufTy).Contents (Elt Ideal)) :
    Cert.ReferenceIdeal.Read.val_main_v150 (F := Ideal) x0 x1 x2 x4 x5 x6 x7 x8 x9 x10 x11 x12
      = xw2 (Cert.ReferenceIdeal.Read.val_main_v140 (F := Ideal) x0 x1 x2 x4 x5 x6 x7 x8 x9 x10) (shapeCast S1x256 x11 shapeCasts_S256_S1x256) x12 := by
  funext i
  rw [Cert.ReferenceIdeal.Read.val_main_v150_apply]
  unfold xw2
  refine Finset.sum_congr rfl fun k _ => ?_
  refine congrArg₂ (· * ·) ?_ (congrArg x12 (funext fun a => match a with | ⟨0, _⟩ => rfl | ⟨1, _⟩ => rfl))
  rw [Cert.ReferenceIdeal.Read.val_main_v149_apply, Cert.ReferenceIdeal.Read.val_main_v148_apply, Cert.ReferenceIdeal.Read.val_main_cst_38_apply,
    Cert.ReferenceIdeal.Read.val_main_v147_apply, Cert.ReferenceIdeal.Read.val_main_v146_apply, Cert.ReferenceIdeal.Read.val_main_cst_37_apply,
    Cert.ReferenceIdeal.Read.val_main_v145_apply, Cert.ReferenceIdeal.Read.val_main_v144_apply, Cert.ReferenceIdeal.Read.val_main_v143_apply,
    Cert.ReferenceIdeal.Read.val_main_v142_apply, Cert.ReferenceIdeal.Read.val_main_v141_apply]
  generalize Cert.ReferenceIdeal.Read.val_main_v140 (F := Ideal) x0 x1 x2 x4 x5 x6 x7 x8 x9 x10 = y
  refine (logistic_host _).trans (congrArg Ideal.logistic (congrArg₂ (fun a b : EReal => a + b) ?_ ?_))
  · exact congrArg y (funext fun a => match a with | ⟨0, _⟩ => rfl | ⟨1, _⟩ => rfl)
  · exact Eq.trans (b := x11 (ix1 k)) (congrArg x11 (funext fun a => match a with | ⟨0, _⟩ => rfl))
      (shapeCast_a_1a_apply x11 shapeCasts_S256_S1x256 0 k).symm

end Cert.Bridge.Region2

end
-- ==== Proof.Assemble.lean ====
import proofs.«166373_j81312320848270_2_alg».proof.Proof.Levels
import proofs.«166373_j81312320848270_2_alg».proof.Proof.Region0
import proofs.«166373_j81312320848270_2_alg».proof.Proof.Region0Ref
import proofs.«166373_j81312320848270_2_alg».proof.Proof.Region1Ref
import proofs.«166373_j81312320848270_2_alg».proof.Proof.Region2Ref

noncomputable section

namespace Cert.Bridge.Assemble

open Idealize.ShloMosaic Idealize.ShloMosaic.TcCoe Idealize.SL.Sem Idealize.ShloMosaic.StableHlo
open Cert.KernelIdeal Cert.KernelIdeal.Gen

open Cert.Bridge.Host Cert.Bridge.Levels

/-! # The kernel program's result is the reference's last stage

At the ideal instance, boundary by boundary: each launch's output array is one whole-array function of the launch's
input arrays; those inputs are the reference's stages (an index vector, a gathered array, a normaliser or the previous
message passing's output); and that whole-array function of the reference's stages is the reference's next stage:
a matrix product against a row-split weight is the product of the concatenated rows against the whole weight. -/

variable (m : (ℓ : Loc nD τ sig) → Buf (Elt Ideal) ℓ) (ρ : Dev nD → PrngReg) (c : Dev nD)

/-- After the first launch: the per-node weight. -/
theorem firstLaunch : W2 m ρ c (Proc.devRef .tc main_v49) = Cert.ReferenceIdeal.Read.val_main_v57 (F := Ideal) (m ((c : Thread nD τ).loc main_arg0)) (m ((c : Thread nD τ).loc main_arg1)) (m ((c : Thread nD τ).loc main_arg4)) (m ((c : Thread nD τ).loc main_arg6)) (m ((c : Thread nD τ).loc main_arg7)) (m ((c : Thread nD τ).loc main_arg8)) (m ((c : Thread nD τ).loc main_arg9)) := by
  refine (W2_arr m ρ c 7).trans ?_
  rw [Cert.Bridge.Region0.final0 (V1 m ρ) c]
  rw [show V1 m ρ c main_v42 = _ from v42_W1 m ρ c]
  dsimp only [V1, W1, hostOps0]
  after_results_simp
  exact (Cert.Bridge.Region0.ref0 _ _ _ _ _ _ _).symm

/-- After the second launch: the first convolution's linear map of the concatenated endpoint features. -/
theorem secondLaunch : W12 m ρ c (Proc.devRef .tc main_v90) = Cert.ReferenceIdeal.Read.val_main_v70 (F := Ideal) (m ((c : Thread nD τ).loc main_arg0)) (m ((c : Thread nD τ).loc main_arg2)) (m ((c : Thread nD τ).loc main_arg10)) := by
  refine (W12_arr m ρ c 4).trans ?_
  rw [Cert.Bridge.Region1.final1 (V11 m ρ) c]
  rw [show V11 m ρ c main_v14 = _ from v14_W11 m ρ c, show V11 m ρ c main_v21 = _ from v21_W11 m ρ c]
  dsimp only [V11, W11, W10, W9, W8, W7, W6, W5, W4, W3, hostOps1, hostOps1_1, hostOps1_2, hostOps1_3, hostOps1_4, hostOps1_5, hostOps1_6, hostOps1_7, hostOps1_8]
  after_results_simp
  rw [arg10_W2 m ρ c]
  exact (Cert.Bridge.Region1.ref1 _ _ _).symm

/-- After the third launch: the second convolution's linear map of the activated first convolution. -/
theorem thirdLaunch : W14 m ρ c (Proc.devRef .tc main_v132) = Cert.ReferenceIdeal.Read.val_main_v150 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 3).trans ?_
  rw [Cert.Bridge.Region2.final2 (V13 m ρ) c]
  rw [show V13 m ρ c main_v130 = _ from v130_W13 m ρ c (firstLaunch m ρ c) (secondLaunch m ρ c)]
  dsimp only [V13, W13, hostOps2]
  after_results_simp
  rw [arg11_W12 m ρ c, arg12_W12 m ρ c]
  exact (Cert.Bridge.Region2.ref2 _ _ _ _ _ _ _ _ _ _ _ _).symm

end Cert.Bridge.Assemble

end
-- ==== Proof.Region3Spec.lean ====
/- The edge score of the fused generator / classifier stage, as one function of the whole arrays, index by
   index: per edge row, a two-layer generator (three 128-wide feature rows against three weight blocks, a bias, a
   rectifier; then a 512-wide product, a bias, a rectifier), a logistic gate of the second convolution's output, their
   attention-weighted mix, and a two-layer classifier ending in a logistic. Sums are over the extended reals. -/
import Idealize.ShloMosaic.PureOps.Ideal.Laws
import Idealize.ShloMosaic.Lib.ValueIdx

noncomputable section

namespace Cert.Bridge.Region3

open Idealize.ShloMosaic Idealize.ShloMosaic.ValueIdx

/-! ## One edge row -/

/-- The generator's hidden layer at column `j`: the three feature rows against their weight blocks, added left to
    right, plus the bias, rectified. -/
def hiddenRow (xc xr ge : Fin 128 → EReal) (w1a w1b w1c : Fin 128 → Fin 512 → EReal) (b1 : Fin 512 → EReal)
    (j : Fin 512) : EReal :=
  max ((((∑ k : Fin 128, xc k * w1a k j) + (∑ k : Fin 128, xr k * w1b k j)) + (∑ k : Fin 128, ge k * w1c k j)) + b1 j) 0

/-- The generator's output at column `j`: the hidden row against the second weight, plus the bias, rectified. -/
def genRow (h : Fin 512 → EReal) (w2 : Fin 512 → Fin 128 → EReal) (b2 : Fin 128 → EReal) (j : Fin 128) : EReal :=
  max ((∑ k : Fin 512, h k * w2 k j) + b2 j) 0

/-- The gate at column `j`: the logistic of the convolution's row plus its bias. -/
def gateRow (o2 c2b : Fin 128 → EReal) (j : Fin 128) : EReal :=
  Ideal.logistic (o2 j + c2b j)

/-- The attention-weighted mix of the generator's output and the gate at column `j`. -/
def mixRow (a0 a1 : EReal) (xl g : Fin 128 → EReal) (j : Fin 128) : EReal :=
  a0 * xl j + a1 * g j

/-- The classifier's hidden layer at column `j`: the mix and the third feature row against their weight blocks, plus
    the bias, rectified. -/
def clsRow (s ge : Fin 128 → EReal) (c1a c1b : Fin 128 → Fin 128 → EReal) (cb1 : Fin 128 → EReal) (j : Fin 128) : EReal :=
  max (((∑ k : Fin 128, s k * c1a k j) + (∑ k : Fin 128, ge k * c1b k j)) + cb1 j) 0

/-- The score of a row: the logistic of the classifier's hidden row against the last weight column plus its bias. -/
def scoreRow (ch : Fin 128 → EReal) (c2 : Fin 128 → EReal) (cb2 : EReal) : EReal :=
  Ideal.logistic ((∑ k : Fin 128, ch k * c2 k) + cb2)

/-- The whole stage on one row. -/
def rowScore (xc xr ge o2 : Fin 128 → EReal) (a0 a1 : EReal) (w1a w1b w1c : Fin 128 → Fin 512 → EReal)
    (b1 : Fin 512 → EReal) (w2 : Fin 512 → Fin 128 → EReal) (b2 c2b : Fin 128 → EReal)
    (c1a c1b : Fin 128 → Fin 128 → EReal) (cb1 : Fin 128 → EReal) (c2 : Fin 128 → EReal) (cb2 : EReal) : EReal :=
  scoreRow (clsRow (mixRow a0 a1 (genRow (hiddenRow xc xr ge w1a w1b w1c b1) w2 b2) (gateRow o2 c2b)) ge c1a c1b cb1) c2 cb2

/-! ## Over the whole arrays -/

/-- Row `r` of a matrix with 128 columns. -/
abbrev rowOf {n : Nat} (x : (⟨2, ![n, 128]⟩ : Shape).Idx → EReal) (r : Fin n) : Fin 128 → EReal := fun k => x (ix2 r k)

/-- A matrix as a function of its two coordinates. -/
abbrev mat {a b : Nat} (w : (⟨2, ![a, b]⟩ : Shape).Idx → EReal) : Fin a → Fin b → EReal := fun k j => w (ix2 k j)

/-- The one row of a `[1, b]` array. -/
abbrev theRow {b : Nat} (v : (⟨2, ![1, b]⟩ : Shape).Idx → EReal) : Fin b → EReal := fun j => v (ix2 (0 : Fin 1) j)

/-- The one column of an `[a, 1]` array. -/
abbrev theCol {a : Nat} (v : (⟨2, ![a, 1]⟩ : Shape).Idx → EReal) : Fin a → EReal := fun k => v (ix2 k (0 : Fin 1))

section Whole
variable (xc xr ge o2 : (⟨2, ![256000, 128]⟩ : Shape).Idx → EReal) (attn : (⟨2, ![1, 2]⟩ : Shape).Idx → EReal)
  (w1a w1b w1c : (⟨2, ![128, 512]⟩ : Shape).Idx → EReal) (b1 : (⟨2, ![1, 512]⟩ : Shape).Idx → EReal)
  (w2 : (⟨2, ![512, 128]⟩ : Shape).Idx → EReal) (b2 c2b : (⟨2, ![1, 128]⟩ : Shape).Idx → EReal)
  (c1a c1b : (⟨2, ![128, 128]⟩ : Shape).Idx → EReal) (cb1 : (⟨2, ![1, 128]⟩ : Shape).Idx → EReal)
  (c2 : (⟨2, ![128, 1]⟩ : Shape).Idx → EReal) (cb2 : (⟨2, ![1, 1]⟩ : Shape).Idx → EReal)

/-- The generator's hidden layer at row `r`, column `j`. -/
def hidden (r : Fin 256000) (j : Fin 512) : EReal :=
  hiddenRow (rowOf xc r) (rowOf xr r) (rowOf ge r) (mat w1a) (mat w1b) (mat w1c) (theRow b1) j

/-- The generator's output at row `r`, column `j`. -/
def generated (r : Fin 256000) (j : Fin 128) : EReal :=
  genRow (hidden xc xr ge w1a w1b w1c b1 r) (mat w2) (theRow b2) j

/-- The gate at row `r`, column `j`. -/
def gate (r : Fin 256000) (j : Fin 128) : EReal := gateRow (rowOf o2 r) (theRow c2b) j

/-- The attention-weighted mix at row `r`, column `j`. -/
def mixed (r : Fin 256000) (j : Fin 128) : EReal :=
  mixRow (attn (ix2 (0 : Fin 1) (0 : Fin 2))) (attn (ix2 (0 : Fin 1) (1 : Fin 2)))
    (generated xc xr ge w1a w1b w1c b1 w2 b2 r) (gate o2 c2b r) j

/-- The classifier's hidden layer at row `r`, column `j`. -/
def clsHidden (r : Fin 256000) (j : Fin 128) : EReal :=
  clsRow (mixed xc xr ge o2 attn w1a w1b w1c b1 w2 b2 c2b r) (rowOf ge r) (mat c1a) (mat c1b) (theRow cb1) j

/-- The edge score of row `r`. -/
def edgeScoreRow (r : Fin 256000) : EReal :=
  scoreRow (clsHidden xc xr ge o2 attn w1a w1b w1c b1 w2 b2 c2b c1a c1b cb1 r) (theCol c2) (cb2 (ix2 (0 : Fin 1) (0 : Fin 1)))

/-- The edge scores as a `[256000, 1]` array. -/
def edgeScore : (⟨2, ![256000, 1]⟩ : Shape).Idx → EReal :=
  fun i => edgeScoreRow xc xr ge o2 attn w1a w1b w1c b1 w2 b2 c2b c1a c1b cb1 c2 cb2 ⟨(i 0).val, idx2_lt0 i⟩

/-- The score of a row is the one-row stage on that row of each array. -/
theorem edgeScoreRow_eq (r : Fin 256000) :
    edgeScoreRow xc xr ge o2 attn w1a w1b w1c b1 w2 b2 c2b c1a c1b cb1 c2 cb2 r
      = rowScore (rowOf xc r) (rowOf xr r) (rowOf ge r) (rowOf o2 r) (attn (ix2 (0 : Fin 1) (0 : Fin 2)))
          (attn (ix2 (0 : Fin 1) (1 : Fin 2))) (mat w1a) (mat w1b) (mat w1c) (theRow b1) (mat w2) (theRow b2) (theRow c2b)
          (mat c1a) (mat c1b) (theRow cb1) (theCol c2) (cb2 (ix2 (0 : Fin 1) (0 : Fin 1))) := rfl

/-- The array at an index whose row is `r`. -/
theorem edgeScore_apply (i : (⟨2, ![256000, 1]⟩ : Shape).Idx) (r : Fin 256000) (hr : (i 0).val = r.val) :
    edgeScore xc xr ge o2 attn w1a w1b w1c b1 w2 b2 c2b c1a c1b cb1 c2 cb2 i
      = edgeScoreRow xc xr ge o2 attn w1a w1b w1c b1 w2 b2 c2b c1a c1b cb1 c2 cb2 r := by
  unfold edgeScore
  exact congrArg _ (Fin.ext hr)

end Whole

/-! ## Regrouping a sum over a joined axis -/

/-- A sum over 256 positions is the sum over the first 128 plus the sum over the last 128. -/
theorem sum_fin_256 (f : Fin 256 → EReal) :
    ∑ k : Fin 256, f k = (∑ k : Fin 128, f ⟨k.val, by omega⟩) + ∑ k : Fin 128, f ⟨128 + k.val, by omega⟩ :=
  Fin.sum_univ_add (M := EReal) (a := 128) (b := 128) (fun i => f i)

/-- A sum over 384 positions is the sums over its three 128-wide pieces, added left to right. -/
theorem sum_fin_384 (f : Fin 384 → EReal) :
    ∑ k : Fin 384, f k = ((∑ k : Fin 128, f ⟨k.val, by omega⟩) + ∑ k : Fin 128, f ⟨128 + k.val, by omega⟩)
      + ∑ k : Fin 128, f ⟨256 + k.val, by omega⟩ := by
  rw [Fin.sum_univ_add (M := EReal) (a := 256) (b := 128) (fun i => f i)]
  exact congrArg (· + ∑ k : Fin 128, f ⟨256 + k.val, by omega⟩) (sum_fin_256 (fun k => f ⟨k.val, by omega⟩))

/-! ## The two float words the stage uses -/

/-- The word of `1.0` denotes one. -/
theorem ofBits_one_f32 : Ideal.ofBits .f32 0x3F800000#32 = 1 := by
  simp [Ideal.ofBits, Ideal.ieee, -EReal.coe_mul]; norm_num

end Cert.Bridge.Region3

end
-- ==== Proof.Region3Payload.lean ====
/- The body of the fused generator / classifier stage at an index of its output block: the stored value at row `p`
   is the one-row stage (`rowScore`) on row `p` of the four row blocks and on the whole weight and bias arrays. Every
   product is a sum over the joined axis into a zero accumulator; a change of float format is the identity on the
   extended reals. -/
import proofs.«166373_j81312320848270_2_alg».proof.Proof.Gen.KernelIdeal.Skeleton
import proofs.«166373_j81312320848270_2_alg».proof.Proof.Region3Spec
import Idealize.ShloMosaic.Lib.Pipeline.Value
import Idealize.ShloMosaic.Lib.ValueLayout
import Idealize.ShloMosaic.Lib.ValueIdx
import Idealize.ShloMosaic.PureOps.Ideal.Laws

noncomputable section

namespace Cert.Bridge.Region3

open Idealize.ShloMosaic Idealize.ShloMosaic.ValueIdx Idealize.SL.Sem
open Cert.KernelIdeal Cert.KernelIdeal.Gen

/-! ## The four products -/

/-- The shared argument of the four products: the contraction index is one coordinate `k`; the left operand is read at
    `(p, k)`, the right at `(k, j)`. -/
local macro "product_at " D:ident K:num SL:ident SR:ident p:ident j:ident : tactic => `(tactic| (
  simp only [matmul]
  rw [Ideal.matmul_constant_zero_apply, ← Equiv.sum_comp (contrEquiv1 $D $K rfl rfl).symm]
  refine Finset.sum_congr rfl fun k _ => ?_
  have hk := contrEquiv1_symm_val $D $K rfl rfl k
  have el : DotDims.lhsIdx $D (ix2 $p $j) ((contrEquiv1 $D $K rfl rfl).symm k) = ix2 $p k := funext fun a => Fin.ext (by
    match a with
    | ⟨0, _⟩ =>
      show (DotDims.lhsIdx $D (ix2 $p $j) _ 0).val = Fin.val $p
      unfold DotDims.lhsIdx
      rw [dif_neg (show ¬(0 : Fin (Shape.rank $SL)) ∈ DotDims.lhsBatch $D by decide), dif_pos (show (0 : Fin (Shape.rank $SL)) ∈ DotDims.lhsNonContracting $D by decide)]
      rfl
    | ⟨1, _⟩ => exact (DotDims.lhsIdx_val_of_single $D rfl (ix2 $p $j) _).trans hk)
  have er : DotDims.rhsIdx $D (ix2 $p $j) ((contrEquiv1 $D $K rfl rfl).symm k) = ix2 k $j := funext fun a => Fin.ext (by
    match a with
    | ⟨0, _⟩ => exact (DotDims.rhsIdx_val_of_single $D rfl (ix2 $p $j) _).trans hk
    | ⟨1, _⟩ =>
      show (DotDims.rhsIdx $D (ix2 $p $j) _ 1).val = Fin.val $j
      unfold DotDims.rhsIdx
      rw [dif_neg (show ¬(1 : Fin (Shape.rank $SR)) ∈ DotDims.rhsBatch $D by decide), dif_pos (show (1 : Fin (Shape.rank $SR)) ∈ DotDims.rhsNonContracting $D by decide)]
      rfl)
  rw [el, er]))

/-- `[2048,128]` by `[128,512]` into a zero accumulator at row `p`, column `j`: the sum over the 128 joined positions. -/
theorem matmul_128_512_apply (l : FVec Ideal S2048x128 .bf16) (r : FVec Ideal S128x512 .bf16) (p : Fin 2048) (j : Fin 512) :
    matmul (F := Ideal) dot_S2048x128_S128x512_S2048x512_1_0_0_1_n_n none l r (constant (F := Ideal) S2048x512 .f32 0x00000000#32) (ix2 p j)
      = ∑ k : Fin 128, l (ix2 p k) * r (ix2 k j) := by
  product_at dot_S2048x128_S128x512_S2048x512_1_0_0_1_n_n 128 S2048x128 S128x512 p j

/-- `[2048,512]` by `[512,128]`: the sum over the 512 joined positions. -/
theorem matmul_512_128_apply (l : FVec Ideal S2048x512 .bf16) (r : FVec Ideal S512x128 .bf16) (p : Fin 2048) (j : Fin 128) :
    matmul (F := Ideal) dot_S2048x512_S512x128_S2048x128_1_0_0_1_n_n none l r (constant (F := Ideal) S2048x128 .f32 0x00000000#32) (ix2 p j)
      = ∑ k : Fin 512, l (ix2 p k) * r (ix2 k j) := by
  product_at dot_S2048x512_S512x128_S2048x128_1_0_0_1_n_n 512 S2048x512 S512x128 p j

/-- `[2048,128]` by `[128,128]`: the sum over the 128 joined positions. -/
theorem matmul_128_128_apply (l : FVec Ideal S2048x128 .bf16) (r : FVec Ideal S128x128 .bf16) (p : Fin 2048) (j : Fin 128) :
    matmul (F := Ideal) dot_S2048x128_S128x128_S2048x128_1_0_0_1_n_n none l r (constant (F := Ideal) S2048x128 .f32 0x00000000#32) (ix2 p j)
      = ∑ k : Fin 128, l (ix2 p k) * r (ix2 k j) := by
  product_at dot_S2048x128_S128x128_S2048x128_1_0_0_1_n_n 128 S2048x128 S128x128 p j

/-- `[2048,128]` by `[128,1]`: the sum over the 128 joined positions. -/
theorem matmul_128_1_apply (l : FVec Ideal S2048x128 .bf16) (r : FVec Ideal S128x1 .bf16) (p : Fin 2048) (j : Fin 1) :
    matmul (F := Ideal) dot_S2048x128_S128x1_S2048x1_1_0_0_1_n_n none l r (constant (F := Ideal) S2048x1 .f32 0x00000000#32) (ix2 p j)
      = ∑ k : Fin 128, l (ix2 p k) * r (ix2 k j) := by
  product_at dot_S2048x128_S128x1_S2048x1_1_0_0_1_n_n 128 S2048x128 S128x1 p j
/-! ## The two attention weights -/

/-- The first attention weight: position `(0, 0)` of the `[1, 2]` array. -/
theorem attn_fst {α : Type} (v : S1x2.Idx → α) (h : S1x2.Slices ![0, 0] S1x1) (h' : ∀ a, (![0, 0] : Fin 2 → Nat) a < S1x1.size a) :
    extractAt ![0, 0] (extractStridedSlice S1x1 ![0, 0] v h) h' = v (ix2 (0 : Fin 1) (0 : Fin 2)) := by
  unfold extractAt
  exact extractStridedSlice_apply _ _ _ _ _ (fun a => by match a with | ⟨0, _⟩ => rfl | ⟨1, _⟩ => rfl)

/-- The second attention weight: position `(0, 1)`. -/
theorem attn_snd {α : Type} (v : S1x2.Idx → α) (h : S1x2.Slices ![0, 1] S1x1) (h' : ∀ a, (![0, 0] : Fin 2 → Nat) a < S1x1.size a) :
    extractAt ![0, 0] (extractStridedSlice S1x1 ![0, 1] v h) h' = v (ix2 (0 : Fin 1) (1 : Fin 2)) := by
  unfold extractAt
  exact extractStridedSlice_apply _ _ _ _ _ (fun a => by match a with | ⟨0, _⟩ => rfl | ⟨1, _⟩ => rfl)

/-! ## The payloads at an index -/

/-- The third feature block, format changed: itself. -/
theorem pay2_apply (v6 : Vec Ideal S2048x128 .f32) (i : S2048x128.Idx) : k3_pay2 (F := Ideal) v6 i = v6 i := by
  unfold k3_pay2
  simp only [shapeCast_self]
  rfl

/-- The generator's second bias, broadcast over the rows. -/
theorem pay4_apply (v33 : Vec Ideal S1x128 .f32) (p : Fin 2048) (j : Fin 128) :
    k3_pay4 (F := Ideal) v33 (ix2 p j) = v33 (ix2 (0 : Fin 1) j) := by
  unfold k3_pay4
  simp only [shapeCast_self]
  exact broadcastTo_1b_ab_apply _ _ p j

/-- The generator's second product at row `p`, column `j`: the hidden row against the second weight. -/
theorem pay3_apply (v0 v3 v6 : Vec Ideal S2048x128 .f32) (v9 v12 v15 : Vec Ideal S128x512 .f32)
    (v23 : Vec Ideal S1x512 .f32) (v30 : Vec Ideal S512x128 .f32) (p : Fin 2048) (j : Fin 128) :
    k3_pay3 (F := Ideal) v0 v3 v6 v9 v12 v15 v23 v30 (ix2 p j)
      = ∑ k : Fin 512, hiddenRow (rowOf v0 p) (rowOf v3 p) (rowOf v6 p) (mat v9) (mat v12) (mat v15) (theRow v23) k * v30 (ix2 k j) := by
  unfold k3_pay3
  simp only [shapeCast_self]
  rw [matmul_512_128_apply]
  refine Finset.sum_congr rfl fun k _ => ?_
  simp only [truncf_apply, maximumf_apply, addf_apply, broadcast_apply, matmul_128_512_apply, pay2_apply,
    broadcastTo_1b_ab_apply, Ideal.ofBits_def, Ideal.ofBits_zero_f32]
  rfl

/-- The logistic of a vector at an index. -/
theorem logistic_apply {s : Shape} {φ : FTy} (a : FVec Ideal s φ) (i : s.Idx) : logistic a i = Ideal.logistic (a i) := rfl

/-- The classifier's last product at row `p`: the classifier's hidden row, built from the generator's pre-activation
    `v32 + v35`, the gate of the convolution's row and the third feature row, against the last weight column. -/
theorem pay5_apply (v8 : FVec Ideal S2048x128 .bf16) (v32 v35 : FVec Ideal S2048x128 .f32) (v39 : Vec Ideal S2048x128 .f32)
    (v41 : Vec Ideal S1x128 .f32) (v46 : Vec Ideal S1x2 .f32) (v58 v61 : Vec Ideal S128x128 .f32) (v67 : Vec Ideal S1x128 .f32)
    (v74 : Vec Ideal S128x1 .f32) (p : Fin 2048) (q : Fin 1) :
    k3_pay5 (F := Ideal) v8 v32 v35 v39 v41 v46 v58 v61 v67 v74 (ix2 p q)
      = ∑ k : Fin 128, clsRow (mixRow (v46 (ix2 (0 : Fin 1) (0 : Fin 2))) (v46 (ix2 (0 : Fin 1) (1 : Fin 2)))
            (fun j => max (v32 (ix2 p j) + v35 (ix2 p j)) 0) (gateRow (rowOf v39 p) (theRow v41)))
          (fun k => v8 (ix2 p k)) (mat v58) (mat v61) (theRow v67) k * v74 (ix2 k q) := by
  unfold k3_pay5
  simp only [shapeCast_self]
  rw [matmul_128_1_apply]
  refine Finset.sum_congr rfl fun k _ => ?_
  simp only [truncf_apply, maximumf_apply, addf_apply, mulf_apply, broadcast_apply, matmul_128_128_apply,
    broadcastTo_1b_ab_apply, attn_fst, attn_snd, logistic_apply, Ideal.ofBits_def, Ideal.ofBits_zero_f32]
  rfl

/-- The stored block at row `p`: the one-row stage on row `p` of the four row blocks and the whole weight and bias
    arrays. -/
theorem pay1_apply (x0 x1 x2 x3 : Vec Ideal S2048x128 .f32) (x4 : Vec Ideal S1x2 .f32) (x5 x6 x7 : Vec Ideal S128x512 .f32)
    (x8 : Vec Ideal S1x512 .f32) (x9 : Vec Ideal S512x128 .f32) (x10 x11 : Vec Ideal S1x128 .f32)
    (x12 x13 : Vec Ideal S128x128 .f32) (x14 : Vec Ideal S1x128 .f32) (x15 : Vec Ideal S128x1 .f32) (x16 : Vec Ideal S1x1 .f32)
    (p : Fin 2048) :
    k3_pay1 (F := Ideal) (k3_pay5 (k3_pay2 x2) (k3_pay3 x0 x1 x2 x5 x6 x7 x8 x9) (k3_pay4 x10) x3 x11 x4 x12 x13 x14 x15) x16
        (ix2 p (0 : Fin 1))
      = rowScore (rowOf x0 p) (rowOf x1 p) (rowOf x2 p) (rowOf x3 p) (x4 (ix2 (0 : Fin 1) (0 : Fin 2)))
          (x4 (ix2 (0 : Fin 1) (1 : Fin 2))) (mat x5) (mat x6) (mat x7) (theRow x8) (mat x9) (theRow x10) (theRow x11)
          (mat x12) (mat x13) (theRow x14) (theCol x15) (x16 (ix2 (0 : Fin 1) (0 : Fin 1))) := by
  unfold k3_pay1
  simp only [shapeCast_self, logistic_apply, addf_apply, broadcastTo_1b_ab_apply, pay5_apply, pay3_apply, pay4_apply,
    pay2_apply]
  rfl

end Cert.Bridge.Region3

end
-- ==== Proof.Region3.lean ====
/- From the blocks of the fused generator / classifier stage to its score array: each of the 125 grid points writes
   back rows `2048 t … 2048 t + 2047` of the edge scores of the arrays as the region finds them (the four feature arrays
   are cut by the same rows; the weights, biases and attention weights are whole at every point), and the 125 blocks
   cover the 256000 rows. -/
import proofs.«166373_j81312320848270_2_alg».proof.Proof.Gen.KernelIdeal.Frame
import proofs.«166373_j81312320848270_2_alg».proof.Proof.Region3Payload
import Idealize.ShloMosaic.Lib.Pipeline.Value
import Idealize.ShloMosaic.Lib.ValueIdx

noncomputable section

namespace Cert.Bridge.Region3

open Idealize.ShloMosaic Idealize.ShloMosaic.ValueIdx Idealize.SL.Sem
open Cert.KernelIdeal Cert.KernelIdeal.Gen

open Idealize.ShloMosaic.Pipeline (Dat)
open Idealize.ShloMosaic.TcCoe

/-! ## From blocks to the array -/

-- the buffer contents when the region is entered: a parameter
variable (V : (c : Dev nD) → (b : Ref sig .tc) → Buf (Elt Ideal) ((c : Thread nD τ).loc b))

/-- The zero offsets, as the loads and the store spell them. -/
theorem zero_offsets : (![0, 0] : Fin 2 → Nat) = fun _ => 0 := funext fun a => by fin_cases a <;> rfl

/-! The index maps over the 125 grid points: the four row-blocked inputs and the output move with the point along the
    rows; every other window stays at block (0, 0). -/
theorem index_maps0 : ∀ t : Fin cfg3.N, win3_0.index t (0 : Fin 2) = t.val ∧ win3_0.index t (1 : Fin 2) = 0 :=
  (by decide +kernel : ∀ t : Fin grid3.N, _)
theorem index_maps1 : ∀ t : Fin cfg3.N, win3_1.index t (0 : Fin 2) = t.val ∧ win3_1.index t (1 : Fin 2) = 0 :=
  (by decide +kernel : ∀ t : Fin grid3.N, _)
theorem index_maps2 : ∀ t : Fin cfg3.N, win3_2.index t (0 : Fin 2) = t.val ∧ win3_2.index t (1 : Fin 2) = 0 :=
  (by decide +kernel : ∀ t : Fin grid3.N, _)
theorem index_maps3 : ∀ t : Fin cfg3.N, win3_3.index t (0 : Fin 2) = t.val ∧ win3_3.index t (1 : Fin 2) = 0 :=
  (by decide +kernel : ∀ t : Fin grid3.N, _)
theorem index_maps4 : ∀ t : Fin cfg3.N, win3_4.index t (0 : Fin 2) = 0 ∧ win3_4.index t (1 : Fin 2) = 0 :=
  (by decide +kernel : ∀ t : Fin grid3.N, _)
theorem index_maps5 : ∀ t : Fin cfg3.N, win3_5.index t (0 : Fin 2) = 0 ∧ win3_5.index t (1 : Fin 2) = 0 :=
  (by decide +kernel : ∀ t : Fin grid3.N, _)
theorem index_maps6 : ∀ t : Fin cfg3.N, win3_6.index t (0 : Fin 2) = 0 ∧ win3_6.index t (1 : Fin 2) = 0 :=
  (by decide +kernel : ∀ t : Fin grid3.N, _)
theorem index_maps7 : ∀ t : Fin cfg3.N, win3_7.index t (0 : Fin 2) = 0 ∧ win3_7.index t (1 : Fin 2) = 0 :=
  (by decide +kernel : ∀ t : Fin grid3.N, _)
theorem index_maps8 : ∀ t : Fin cfg3.N, win3_8.index t (0 : Fin 2) = 0 ∧ win3_8.index t (1 : Fin 2) = 0 :=
  (by decide +kernel : ∀ t : Fin grid3.N, _)
theorem index_maps9 : ∀ t : Fin cfg3.N, win3_9.index t (0 : Fin 2) = 0 ∧ win3_9.index t (1 : Fin 2) = 0 :=
  (by decide +kernel : ∀ t : Fin grid3.N, _)
theorem index_maps10 : ∀ t : Fin cfg3.N, win3_10.index t (0 : Fin 2) = 0 ∧ win3_10.index t (1 : Fin 2) = 0 :=
  (by decide +kernel : ∀ t : Fin grid3.N, _)
theorem index_maps11 : ∀ t : Fin cfg3.N, win3_11.index t (0 : Fin 2) = 0 ∧ win3_11.index t (1 : Fin 2) = 0 :=
  (by decide +kernel : ∀ t : Fin grid3.N, _)
theorem index_maps12 : ∀ t : Fin cfg3.N, win3_12.index t (0 : Fin 2) = 0 ∧ win3_12.index t (1 : Fin 2) = 0 :=
  (by decide +kernel : ∀ t : Fin grid3.N, _)
theorem index_maps13 : ∀ t : Fin cfg3.N, win3_13.index t (0 : Fin 2) = 0 ∧ win3_13.index t (1 : Fin 2) = 0 :=
  (by decide +kernel : ∀ t : Fin grid3.N, _)
theorem index_maps14 : ∀ t : Fin cfg3.N, win3_14.index t (0 : Fin 2) = 0 ∧ win3_14.index t (1 : Fin 2) = 0 :=
  (by decide +kernel : ∀ t : Fin grid3.N, _)
theorem index_maps15 : ∀ t : Fin cfg3.N, win3_15.index t (0 : Fin 2) = 0 ∧ win3_15.index t (1 : Fin 2) = 0 :=
  (by decide +kernel : ∀ t : Fin grid3.N, _)
theorem index_maps16 : ∀ t : Fin cfg3.N, win3_16.index t (0 : Fin 2) = 0 ∧ win3_16.index t (1 : Fin 2) = 0 :=
  (by decide +kernel : ∀ t : Fin grid3.N, _)
theorem index_maps17 : ∀ t : Fin cfg3.N, win3_17.index t (0 : Fin 2) = t.val ∧ win3_17.index t (1 : Fin 2) = 0 :=
  (by decide +kernel : ∀ t : Fin grid3.N, _)

/-- The shared argument for a row-blocked window: an element of the block at point `t` sits at row `2048 t + p`. -/
local macro "row_block " V:ident c:ident ref:ident w:num idx:ident win:ident t:ident p:ident r:ident hr:ident : tactic => `(tactic| (
  obtain ⟨e0, e1⟩ := $idx $t
  funext k
  show $V $c $ref (((cfg3.win $w).blk $t).view.emb (ix2 $p k)) = $V $c $ref (ix2 $r k)
  refine congrArg ($V $c $ref) (funext fun a => Fin.ext ?_)
  match a with
  | ⟨0, _⟩ => show Pipeline.Window.index $win $t (0 : Fin 2) * 2048 + 1 * (Fin.val $p) = Fin.val $r; rw [e0, $hr:ident]; omega
  | ⟨1, _⟩ => show Pipeline.Window.index $win $t (1 : Fin 2) * 128 + 1 * k.val = k.val; rw [e1]; omega))

/-- The shared argument for a window over a whole array: block (0, 0) of the array's own size is the array. -/
local macro "whole_block " V:ident c:ident ref:ident w:num idx:ident win:ident t:ident n0:num n1:num : tactic => `(tactic| (
  obtain ⟨e0, e1⟩ := $idx $t
  funext y
  show $V $c $ref (((cfg3.win $w).blk $t).view.emb y) = $V $c $ref y
  refine congrArg ($V $c $ref) (funext fun a => Fin.ext ?_)
  match a with
  | ⟨0, _⟩ => show Pipeline.Window.index $win $t (0 : Fin 2) * $n0 + 1 * (y 0).val = (y 0).val; rw [e0]; omega
  | ⟨1, _⟩ => show Pipeline.Window.index $win $t (1 : Fin 2) * $n1 + 1 * (y 1).val = (y 1).val; rw [e1]; omega))

/-- Row `p` of the first feature rows' block at point `t` is row `2048 t + p` of the array. -/
theorem rowBlock0 (c : Dev nD) (t : Fin cfg3.N) (p : Fin 2048) (r : Fin 256000) (hr : r.val = t.val * 2048 + p.val) :
    rowOf (iblk3 V c 0 t : Vec Ideal S2048x128 .f32) p = rowOf (V c main_v14 : S256000x128.Idx → EReal) r := by
  row_block V c main_v14 0 index_maps0 win3_0 t p r hr

/-- Row `p` of the second feature rows' block at point `t` is row `2048 t + p` of the array. -/
theorem rowBlock1 (c : Dev nD) (t : Fin cfg3.N) (p : Fin 2048) (r : Fin 256000) (hr : r.val = t.val * 2048 + p.val) :
    rowOf (iblk3 V c 1 t : Vec Ideal S2048x128 .f32) p = rowOf (V c main_v21 : S256000x128.Idx → EReal) r := by
  row_block V c main_v21 1 index_maps1 win3_1 t p r hr

/-- Row `p` of the third feature rows' block at point `t` is row `2048 t + p` of the array. -/
theorem rowBlock2 (c : Dev nD) (t : Fin cfg3.N) (p : Fin 2048) (r : Fin 256000) (hr : r.val = t.val * 2048 + p.val) :
    rowOf (iblk3 V c 2 t : Vec Ideal S2048x128 .f32) p = rowOf (V c main_v35 : S256000x128.Idx → EReal) r := by
  row_block V c main_v35 2 index_maps2 win3_2 t p r hr

/-- Row `p` of the convolution's output rows' block at point `t` is row `2048 t + p` of the array. -/
theorem rowBlock3 (c : Dev nD) (t : Fin cfg3.N) (p : Fin 2048) (r : Fin 256000) (hr : r.val = t.val * 2048 + p.val) :
    rowOf (iblk3 V c 3 t : Vec Ideal S2048x128 .f32) p = rowOf (V c main_v172 : S256000x128.Idx → EReal) r := by
  row_block V c main_v172 3 index_maps3 win3_3 t p r hr

/-- The block of the attention weights at every point is the whole array. -/
theorem wholeBlock4 (c : Dev nD) (t : Fin cfg3.N) :
    (iblk3 V c 4 t : Vec Ideal S1x2 .f32) = (V c main_v173 : S1x2.Idx → EReal) := by
  whole_block V c main_v173 4 index_maps4 win3_4 t 1 2

/-- The block of the first block of the generator's first weight at every point is the whole array. -/
theorem wholeBlock5 (c : Dev nD) (t : Fin cfg3.N) :
    (iblk3 V c 5 t : Vec Ideal S128x512 .f32) = (V c main_v174 : S128x512.Idx → EReal) := by
  whole_block V c main_v174 5 index_maps5 win3_5 t 128 512

/-- The block of its second block at every point is the whole array. -/
theorem wholeBlock6 (c : Dev nD) (t : Fin cfg3.N) :
    (iblk3 V c 6 t : Vec Ideal S128x512 .f32) = (V c main_v175 : S128x512.Idx → EReal) := by
  whole_block V c main_v175 6 index_maps6 win3_6 t 128 512

/-- The block of its third block at every point is the whole array. -/
theorem wholeBlock7 (c : Dev nD) (t : Fin cfg3.N) :
    (iblk3 V c 7 t : Vec Ideal S128x512 .f32) = (V c main_v176 : S128x512.Idx → EReal) := by
  whole_block V c main_v176 7 index_maps7 win3_7 t 128 512

/-- The block of the generator's first bias at every point is the whole array. -/
theorem wholeBlock8 (c : Dev nD) (t : Fin cfg3.N) :
    (iblk3 V c 8 t : Vec Ideal S1x512 .f32) = (V c main_v177 : S1x512.Idx → EReal) := by
  whole_block V c main_v177 8 index_maps8 win3_8 t 1 512

/-- The block of the generator's second weight at every point is the whole array. -/
theorem wholeBlock9 (c : Dev nD) (t : Fin cfg3.N) :
    (iblk3 V c 9 t : Vec Ideal S512x128 .f32) = (V c main_arg16 : S512x128.Idx → EReal) := by
  whole_block V c main_arg16 9 index_maps9 win3_9 t 512 128

/-- The block of the generator's second bias at every point is the whole array. -/
theorem wholeBlock10 (c : Dev nD) (t : Fin cfg3.N) :
    (iblk3 V c 10 t : Vec Ideal S1x128 .f32) = (V c main_v178 : S1x128.Idx → EReal) := by
  whole_block V c main_v178 10 index_maps10 win3_10 t 1 128

/-- The block of the convolution's bias at every point is the whole array. -/
theorem wholeBlock11 (c : Dev nD) (t : Fin cfg3.N) :
    (iblk3 V c 11 t : Vec Ideal S1x128 .f32) = (V c main_v179 : S1x128.Idx → EReal) := by
  whole_block V c main_v179 11 index_maps11 win3_11 t 1 128

/-- The block of the first block of the classifier's first weight at every point is the whole array. -/
theorem wholeBlock12 (c : Dev nD) (t : Fin cfg3.N) :
    (iblk3 V c 12 t : Vec Ideal S128x128 .f32) = (V c main_v180 : S128x128.Idx → EReal) := by
  whole_block V c main_v180 12 index_maps12 win3_12 t 128 128

/-- The block of its second block at every point is the whole array. -/
theorem wholeBlock13 (c : Dev nD) (t : Fin cfg3.N) :
    (iblk3 V c 13 t : Vec Ideal S128x128 .f32) = (V c main_v181 : S128x128.Idx → EReal) := by
  whole_block V c main_v181 13 index_maps13 win3_13 t 128 128

/-- The block of the classifier's first bias at every point is the whole array. -/
theorem wholeBlock14 (c : Dev nD) (t : Fin cfg3.N) :
    (iblk3 V c 14 t : Vec Ideal S1x128 .f32) = (V c main_v182 : S1x128.Idx → EReal) := by
  whole_block V c main_v182 14 index_maps14 win3_14 t 1 128

/-- The block of the classifier's last weight at every point is the whole array. -/
theorem wholeBlock15 (c : Dev nD) (t : Fin cfg3.N) :
    (iblk3 V c 15 t : Vec Ideal S128x1 .f32) = (V c main_arg20 : S128x1.Idx → EReal) := by
  whole_block V c main_arg20 15 index_maps15 win3_15 t 128 1

/-- The block of the classifier's last bias at every point is the whole array. -/
theorem wholeBlock16 (c : Dev nD) (t : Fin cfg3.N) :
    (iblk3 V c 16 t : Vec Ideal S1x1 .f32) = (V c main_v183 : S1x1.Idx → EReal) := by
  whole_block V c main_v183 16 index_maps16 win3_16 t 1 1

/-- The edge scores of the arrays as the region finds them. -/
abbrev scoreOf (c : Dev nD) : S256000x1.Idx → EReal :=
  edgeScore (V c main_v14) (V c main_v21) (V c main_v35) (V c main_v172) (V c main_v173) (V c main_v174) (V c main_v175) (V c main_v176) (V c main_v177) (V c main_arg16) (V c main_v178) (V c main_v179) (V c main_v180) (V c main_v181) (V c main_v182) (V c main_arg20) (V c main_v183)

/-- WHAT POINT `t` WRITES BACK is block `t` of the edge scores of the arrays as the region finds them. -/
theorem flushed_eq (c : Dev nD) (t : Fin cfg3.N) :
    (dat3 (F := Ideal) V c).flushed 17 t = ((cfg3.win 17).blk t).view.read (Elt Ideal) (scoreOf V c) := by
  have hN : cfg3.N = 125 := N_3
  obtain ⟨o0, o1⟩ := index_maps17 t
  show (cfg3.win 17).cut (grid3.coords t) ((dat3 V c).after 17 t) = _
  rw [after3_17]
  unfold out3_17
  rw [View.canon_unit_zero zero_offsets]
  simp only [View.ld_unit_zero (S := S2048x128) zero_offsets, View.ld_unit_zero (S := S128x512) zero_offsets, View.ld_unit_zero (S := S1x512) zero_offsets, View.ld_unit_zero (S := S512x128) zero_offsets, View.ld_unit_zero (S := S1x128) zero_offsets, View.ld_unit_zero (S := S1x2) zero_offsets, View.ld_unit_zero (S := S128x128) zero_offsets, View.ld_unit_zero (S := S128x1) zero_offsets, View.ld_unit_zero (S := S1x1) zero_offsets]
  refine funext fun (y : S2048x1.Idx) => ?_
  obtain ⟨p, q, rfl⟩ : ∃ (p : Fin 2048) (q : Fin 1), y = ix2 p q := ⟨y 0, y 1, eq_ix2 y⟩
  obtain rfl : q = 0 := Subsingleton.elim _ _
  have hp := p.isLt
  have ht : t.val < 125 := hN ▸ t.isLt
  refine (pay1_apply _ _ _ _ _ _ _ _ _ _ _ _ _ _ _ _ _ p).trans ?_
  rw [rowBlock0 V c t p ⟨t.val * 2048 + p.val, by omega⟩ rfl, rowBlock1 V c t p ⟨t.val * 2048 + p.val, by omega⟩ rfl,
    rowBlock2 V c t p ⟨t.val * 2048 + p.val, by omega⟩ rfl, rowBlock3 V c t p ⟨t.val * 2048 + p.val, by omega⟩ rfl,
    wholeBlock4 V c t, wholeBlock5 V c t, wholeBlock6 V c t, wholeBlock7 V c t, wholeBlock8 V c t, wholeBlock9 V c t, wholeBlock10 V c t, wholeBlock11 V c t, wholeBlock12 V c t, wholeBlock13 V c t, wholeBlock14 V c t, wholeBlock15 V c t, wholeBlock16 V c t]
  rw [View.read_apply]
  refine ((edgeScore_apply _ _ _ _ _ _ _ _ _ _ _ _ _ _ _ _ _ _ ⟨t.val * 2048 + p.val, by omega⟩ ?_).trans (edgeScoreRow_eq _ _ _ _ _ _ _ _ _ _ _ _ _ _ _ _ _ _)).symm
  show Pipeline.Window.index win3_17 t (0 : Fin 2) * 2048 + 1 * p.val = t.val * 2048 + p.val
  rw [o0]; omega

/-- An index of the score array is in point `t`'s block iff each coordinate is in the block's range on its axis. -/
theorem mem_block (t : Fin cfg3.N) (i : S256000x1.Idx) :
    i ∈ ((cfg3.win 17).blk t).view.set ↔ ∀ a : Fin 2, win3_17.index t a * S2048x1.size a ≤ (i a).val ∧ (i a).val < win3_17.index t a * S2048x1.size a + S2048x1.size a := by
  show i ∈ ((View.whole main_v184).slice (win3_17.rect t)).set ↔ _
  rw [View.set_slice_whole, Rect.mem_set_unit]
  exact Iff.rfl

/-- Every row is in the block of the point `row / 2048`. -/
theorem covered (i : S256000x1.Idx) : ∃ t : Fin cfg3.N, (cfg3.win 17).flush t = true ∧ i ∈ ((cfg3.win 17).blk t).view.set := by
  have hN : cfg3.N = 125 := N_3
  have hi0 : (i 0).val < 256000 := idx2_lt0 i
  have hi1 : (i 1).val < 1 := idx2_lt1 i
  refine ⟨⟨(i 0).val / 2048, by omega⟩, flush3_17 _, ?_⟩
  rw [mem_block]
  obtain ⟨o0, o1⟩ := index_maps17 ⟨(i 0).val / 2048, by omega⟩
  intro a
  match a with
  | ⟨0, _⟩ =>
    show win3_17.index _ (0 : Fin 2) * 2048 ≤ (i 0).val ∧ (i 0).val < win3_17.index _ (0 : Fin 2) * 2048 + 2048
    rw [o0]; show (i 0).val / 2048 * 2048 ≤ (i 0).val ∧ (i 0).val < (i 0).val / 2048 * 2048 + 2048; omega
  | ⟨1, _⟩ =>
    show win3_17.index _ (1 : Fin 2) * 1 ≤ (i 1).val ∧ (i 1).val < win3_17.index _ (1 : Fin 2) * 1 + 1
    rw [o1]; omega

/-- THE ARRAY after the region: the edge scores of the arrays as the region finds them. -/
theorem final3 (c : Dev nD) : (dat3 (F := Ideal) V c).arrAt 17 cfg3.N = scoreOf V c :=
  (dat3 (F := Ideal) V c).arrAt_eq_of_cover 17 (scoreOf V c) (fun t _ => flushed_eq V c t) covered

end Cert.Bridge.Region3

end
-- ==== Proof.Region3Ref.lean ====
/- The reference's last stage is the edge score: its stages read outermost first, the 384-wide and 256-wide joined rows
   split into their 128-wide pieces (a sum over a joined axis is the sum of the sums over its pieces), the host's
   expansion of the logistic read as the logistic. -/
import proofs.«166373_j81312320848270_2_alg».proof.Proof.RefStages
import proofs.«166373_j81312320848270_2_alg».proof.Proof.Region3Spec
import Idealize.ShloMosaic.Lib.Pipeline.Value
import Idealize.ShloMosaic.Lib.ValueLayout
import Idealize.ShloMosaic.Lib.ValueIdx
import Idealize.ShloMosaic.PureOps.Ideal.Laws

noncomputable section

namespace Cert.Bridge.Region3

open Idealize.ShloMosaic Idealize.ShloMosaic.ValueIdx Idealize.SL.Sem
open Cert.ReferenceIdeal Cert.ReferenceIdeal.Gen

/-! ## Two matrices joined along their columns, read at an index -/

/-- In the first piece: the same row and column. -/
theorem concat_cols_fst {n a b c : Nat} {α : Type} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin a) (k' : Fin c) (hk : k'.val = k.val) :
    concatenate ⟨2, ![n, c]⟩ 1 [⟨⟨2, ![n, a]⟩, x₁⟩, ⟨⟨2, ![n, b]⟩, x₂⟩] h (ix2 r k') = x₁ (ix2 r k) :=
  concatenate_pair_apply_left 1 x₁ x₂ h (ix2 r k') rfl (ix2 r k)
    (fun d => by match d with | ⟨0, _⟩ => rfl | ⟨1, _⟩ => exact hk.symm)

/-- In the second piece: the same row, the column less the first piece's width. -/
theorem concat_cols_snd {n a b c : Nat} {α : Type} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin b) (k' : Fin c) (hk : k'.val = a + k.val) :
    concatenate ⟨2, ![n, c]⟩ 1 [⟨⟨2, ![n, a]⟩, x₁⟩, ⟨⟨2, ![n, b]⟩, x₂⟩] h (ix2 r k') = x₂ (ix2 r k) :=
  concatenate_pair_apply_right 1 x₁ x₂ h (ix2 r k') rfl rfl (ix2 r k)
    (fun d hd => by match d with | ⟨0, _⟩ => rfl | ⟨1, _⟩ => exact absurd rfl hd)
    (by show k.val + a = k'.val; omega)

section Reference
variable (x0 : (⟨S16000x128, .f32⟩ : BufTy).Contents (Elt Ideal)) (x1 : (⟨S512x128, .f32⟩ : BufTy).Contents (Elt Ideal)) (x2 : (⟨S2x256000, .i32⟩ : BufTy).Contents (Elt Ideal)) (x4 : (⟨S16000, .i32⟩ : BufTy).Contents (Elt Ideal)) (x5 : (⟨S2x512000, .i32⟩ : BufTy).Contents (Elt Ideal)) (x6 : (⟨S256x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) (x10 : (⟨S256x256, .f32⟩ : BufTy).Contents (Elt Ideal)) (x11 : (⟨S256, .f32⟩ : BufTy).Contents (Elt Ideal)) (x12 : (⟨S256x128, .f32⟩ : BufTy).Contents (Elt Ideal)) (x13 : (⟨S128, .f32⟩ : BufTy).Contents (Elt Ideal)) (x14 : (⟨S384x512, .f32⟩ : BufTy).Contents (Elt Ideal)) (x15 : (⟨S512, .f32⟩ : BufTy).Contents (Elt Ideal)) (x16 : (⟨S512x128, .f32⟩ : BufTy).Contents (Elt Ideal)) (x17 : (⟨S128, .f32⟩ : BufTy).Contents (Elt Ideal)) (x18 : (⟨S256x128, .f32⟩ : BufTy).Contents (Elt Ideal)) (x19 : (⟨S128, .f32⟩ : BufTy).Contents (Elt Ideal)) (x20 : (⟨S128x1, .f32⟩ : BufTy).Contents (Elt Ideal)) (x21 : (⟨S1, .f32⟩ : BufTy).Contents (Elt Ideal)) (x22 : (⟨S2, .f32⟩ : BufTy).Contents (Elt Ideal))

/-! ## The joined feature rows -/

/-- The 384-wide feature row: its first 128 columns are the first feature row, -/
theorem features_fst (r : Fin 256000) (k : Fin 128) (h : k.val < 384) :
    Read.val_main_v230 (F := Ideal) x0 x1 x2 x4 (ix2 r ⟨k.val, h⟩) = (Read.val_main_v10 (F := Ideal) x0 x2) (ix2 r k) := by
  unfold Read.val_main_v230
  refine (concat_cols_fst (Read.val_main_v18 (F := Ideal) x0 x2 : S256000x256.Idx → EReal)
    (Read.val_main_v34 (F := Ideal) x1 x2 x4 : S256000x128.Idx → EReal) _ r (⟨k.val, by omega⟩ : Fin 256) ⟨k.val, h⟩ rfl).trans ?_
  unfold Read.val_main_v18
  exact concat_cols_fst (Read.val_main_v10 (F := Ideal) x0 x2 : S256000x128.Idx → EReal)
    (Read.val_main_v17 (F := Ideal) x0 x2 : S256000x128.Idx → EReal) _ r k (⟨k.val, by omega⟩ : Fin 256) rfl

/-- its next 128 the second, -/
theorem features_snd (r : Fin 256000) (k : Fin 128) (h : 128 + k.val < 384) :
    Read.val_main_v230 (F := Ideal) x0 x1 x2 x4 (ix2 r ⟨128 + k.val, h⟩) = (Read.val_main_v17 (F := Ideal) x0 x2) (ix2 r k) := by
  unfold Read.val_main_v230
  refine (concat_cols_fst (Read.val_main_v18 (F := Ideal) x0 x2 : S256000x256.Idx → EReal)
    (Read.val_main_v34 (F := Ideal) x1 x2 x4 : S256000x128.Idx → EReal) _ r (⟨128 + k.val, by omega⟩ : Fin 256) ⟨128 + k.val, h⟩ rfl).trans ?_
  unfold Read.val_main_v18
  exact concat_cols_snd (Read.val_main_v10 (F := Ideal) x0 x2 : S256000x128.Idx → EReal)
    (Read.val_main_v17 (F := Ideal) x0 x2 : S256000x128.Idx → EReal) _ r k (⟨128 + k.val, by omega⟩ : Fin 256) rfl

/-- and its last 128 the third. -/
theorem features_thd (r : Fin 256000) (k : Fin 128) (h : 256 + k.val < 384) :
    Read.val_main_v230 (F := Ideal) x0 x1 x2 x4 (ix2 r ⟨256 + k.val, h⟩) = (Read.val_main_v34 (F := Ideal) x1 x2 x4) (ix2 r k) := by
  unfold Read.val_main_v230
  exact concat_cols_snd (Read.val_main_v18 (F := Ideal) x0 x2 : S256000x256.Idx → EReal)
    (Read.val_main_v34 (F := Ideal) x1 x2 x4 : S256000x128.Idx → EReal) _ r k ⟨256 + k.val, h⟩ rfl

/-! ## The operand indices of the four products and of the broadcast biases -/

theorem lidx231 (r : Fin 256000) (j : Fin 512) (k : Fin 384) : Read.lidx_main_v231 (ix2 r j) k = ix2 r k :=
  funext fun a => Fin.ext (by match a with | ⟨0, _⟩ => rfl | ⟨1, _⟩ => rfl)
theorem ridx231 (r : Fin 256000) (j : Fin 512) (k : Fin 384) : Read.ridx_main_v231 (ix2 r j) k = ix2 k j :=
  funext fun a => Fin.ext (by match a with | ⟨0, _⟩ => rfl | ⟨1, _⟩ => rfl)
theorem lidx236 (r : Fin 256000) (j : Fin 128) (k : Fin 512) : Read.lidx_main_v236 (ix2 r j) k = ix2 r k :=
  funext fun a => Fin.ext (by match a with | ⟨0, _⟩ => rfl | ⟨1, _⟩ => rfl)
theorem ridx236 (r : Fin 256000) (j : Fin 128) (k : Fin 512) : Read.ridx_main_v236 (ix2 r j) k = ix2 k j :=
  funext fun a => Fin.ext (by match a with | ⟨0, _⟩ => rfl | ⟨1, _⟩ => rfl)
theorem lidx251 (r : Fin 256000) (j : Fin 128) (k : Fin 256) : Read.lidx_main_v251 (ix2 r j) k = ix2 r k :=
  funext fun a => Fin.ext (by match a with | ⟨0, _⟩ => rfl | ⟨1, _⟩ => rfl)
theorem ridx251 (r : Fin 256000) (j : Fin 128) (k : Fin 256) : Read.ridx_main_v251 (ix2 r j) k = ix2 k j :=
  funext fun a => Fin.ext (by match a with | ⟨0, _⟩ => rfl | ⟨1, _⟩ => rfl)
theorem lidx256 (r : Fin 256000) (q : Fin 1) (k : Fin 128) : Read.lidx_main_v256 (ix2 r q) k = ix2 r k :=
  funext fun a => Fin.ext (by match a with | ⟨0, _⟩ => rfl | ⟨1, _⟩ => rfl)
theorem ridx256 (r : Fin 256000) (q : Fin 1) (k : Fin 128) : Read.ridx_main_v256 (ix2 r q) k = ix2 k q :=
  funext fun a => Fin.ext (by match a with | ⟨0, _⟩ => rfl | ⟨1, _⟩ => rfl)
theorem bidx233 (r : Fin 256000) (j : Fin 512) : Read.idx_main_v232 (Read.idx_main_v233 (ix2 r j)) = ix1 j :=
  funext fun a => Fin.ext (by match a with | ⟨0, _⟩ => rfl)
theorem bidx238 (r : Fin 256000) (j : Fin 128) : Read.idx_main_v237 (Read.idx_main_v238 (ix2 r j)) = ix1 j :=
  funext fun a => Fin.ext (by match a with | ⟨0, _⟩ => rfl)
theorem bidx222 (r : Fin 256000) (j : Fin 128) : Read.idx_main_v221 (Read.idx_main_v222 (ix2 r j)) = ix1 j :=
  funext fun a => Fin.ext (by match a with | ⟨0, _⟩ => rfl)
theorem bidx253 (r : Fin 256000) (j : Fin 128) : Read.idx_main_v252 (Read.idx_main_v253 (ix2 r j)) = ix1 j :=
  funext fun a => Fin.ext (by match a with | ⟨0, _⟩ => rfl)
theorem bidx258 (r : Fin 256000) (q : Fin 1) : Read.idx_main_v257 (Read.idx_main_v258 (ix2 r q)) = ix1 (0 : Fin 1) :=
  funext fun a => Fin.ext (by match a with | ⟨0, _⟩ => rfl)

/-! ## The stage, layer by layer, against the arrays the region reads -/

variable (attn : (⟨2, ![1, 2]⟩ : Shape).Idx → EReal) (w1a w1b w1c : (⟨2, ![128, 512]⟩ : Shape).Idx → EReal)
  (b1 : (⟨2, ![1, 512]⟩ : Shape).Idx → EReal) (b2 c2b : (⟨2, ![1, 128]⟩ : Shape).Idx → EReal)
  (c1a c1b : (⟨2, ![128, 128]⟩ : Shape).Idx → EReal) (cb1 : (⟨2, ![1, 128]⟩ : Shape).Idx → EReal)
  (cb2 : (⟨2, ![1, 1]⟩ : Shape).Idx → EReal)

/-- The generator's hidden layer. -/
theorem ref_hidden
    (hw1a : ∀ (k : Fin 128) (j : Fin 512), w1a (ix2 k j) = x14 (ix2 (⟨k.val, by omega⟩ : Fin 384) j))
    (hw1b : ∀ (k : Fin 128) (j : Fin 512), w1b (ix2 k j) = x14 (ix2 (⟨128 + k.val, by omega⟩ : Fin 384) j))
    (hw1c : ∀ (k : Fin 128) (j : Fin 512), w1c (ix2 k j) = x14 (ix2 (⟨256 + k.val, by omega⟩ : Fin 384) j))
    (hb1 : ∀ j : Fin 512, b1 (ix2 (0 : Fin 1) j) = x15 (ix1 j))
    (r : Fin 256000) (j : Fin 512) :
    Read.val_main_v235 (F := Ideal) x0 x1 x2 x4 x14 x15 (ix2 r j) = hidden (Read.val_main_v10 (F := Ideal) x0 x2) (Read.val_main_v17 (F := Ideal) x0 x2) (Read.val_main_v34 (F := Ideal) x1 x2 x4) w1a w1b w1c b1 r j := by
  rw [Read.val_main_v235_apply, Read.val_main_v234_apply, Read.val_main_v231_apply, Read.val_main_v233_apply,
    Read.val_main_v232_apply, Read.val_main_call9_v0_apply, Read.val_main_call9_cst_apply, sum_fin_384]
  simp only [lidx231, ridx231, bidx233, features_fst, features_snd, features_thd, ← hw1a, ← hw1b, ← hw1c, ← hb1,
    Ideal.ofBits_def, Ideal.ofBits_zero_f32]
  rfl

/-- The generator's output. -/
theorem ref_generated
    (hw1a : ∀ (k : Fin 128) (j : Fin 512), w1a (ix2 k j) = x14 (ix2 (⟨k.val, by omega⟩ : Fin 384) j))
    (hw1b : ∀ (k : Fin 128) (j : Fin 512), w1b (ix2 k j) = x14 (ix2 (⟨128 + k.val, by omega⟩ : Fin 384) j))
    (hw1c : ∀ (k : Fin 128) (j : Fin 512), w1c (ix2 k j) = x14 (ix2 (⟨256 + k.val, by omega⟩ : Fin 384) j))
    (hb1 : ∀ j : Fin 512, b1 (ix2 (0 : Fin 1) j) = x15 (ix1 j))
    (hb2 : ∀ j : Fin 128, b2 (ix2 (0 : Fin 1) j) = x17 (ix1 j))
    (r : Fin 256000) (j : Fin 128) :
    Read.val_main_v240 (F := Ideal) x0 x1 x2 x4 x14 x15 x16 x17 (ix2 r j)
      = generated (Read.val_main_v10 (F := Ideal) x0 x2) (Read.val_main_v17 (F := Ideal) x0 x2) (Read.val_main_v34 (F := Ideal) x1 x2 x4) w1a w1b w1c b1 x16 b2 r j := by
  rw [Read.val_main_v240_apply, Read.val_main_v239_apply, Read.val_main_v236_apply, Read.val_main_v238_apply,
    Read.val_main_v237_apply, Read.val_main_call10_v0_apply, Read.val_main_call10_cst_apply]
  simp only [lidx236, ridx236, bidx238, ref_hidden x0 x1 x2 x4 x14 x15 w1a w1b w1c b1 hw1a hw1b hw1c hb1, ← hb2,
    Ideal.ofBits_def, Ideal.ofBits_zero_f32]
  rfl

/-- The gate: the host's expansion of the logistic is the logistic. -/
theorem ref_gate
    (hc2b : ∀ j : Fin 128, c2b (ix2 (0 : Fin 1) j) = x13 (ix1 j))
    (r : Fin 256000) (j : Fin 128) :
    Read.val_main_v229 (F := Ideal) x0 x1 x2 x4 x5 x6 x7 x8 x9 x10 x11 x12 x13 (ix2 r j) = gate (Read.val_main_v220 (F := Ideal) x0 x1 x2 x4 x5 x6 x7 x8 x9 x10 x11 x12) c2b r j := by
  rw [Read.val_main_v229_apply, Read.val_main_v228_apply, Read.val_main_cst_65_apply, Read.val_main_v227_apply,
    Read.val_main_v226_apply, Read.val_main_cst_64_apply, Read.val_main_v225_apply, Read.val_main_v224_apply,
    Read.val_main_v223_apply, Read.val_main_v222_apply, Read.val_main_v221_apply]
  simp only [bidx222, ← hc2b, Ideal.ofBits_def, ofBits_one_f32, Ideal.hostDivf_def, Ideal.addf_def, Ideal.hostUnary_exp_def,
    Ideal.hostNegf_def, Ideal.negf_def]
  unfold gate gateRow Ideal.logistic
  rfl

/-- A scalar read off the two attention weights, broadcast over the matrix. -/
theorem ref_attn_fst (i : S256000x128.Idx) : Read.val_main_v243 (F := Ideal) x22 i = x22 (ix1 (0 : Fin 2)) := by
  rw [Read.val_main_v243_apply]
  unfold Read.val_main_v242
  rw [shapeCast_apply (Read.val_main_v241 (F := Ideal) x22) _ _ (ix1 (0 : Fin 1)) (by
    have h1 : (Shape.rowMajor S1 (ix1 (0 : Fin 1))).val < 1 := (Shape.rowMajor S1 _).isLt
    have h2 : (Shape.rowMajor S_ (Read.idx_main_v243 i)).val < 1 := (Shape.rowMajor S_ _).isLt
    exact (Nat.lt_one_iff.mp h1).trans (Nat.lt_one_iff.mp h2).symm), Read.val_main_v241_apply]
  exact congrArg x22 (funext fun a => Fin.ext (by match a with | ⟨0, _⟩ => rfl))

theorem ref_attn_snd (i : S256000x128.Idx) : Read.val_main_v247 (F := Ideal) x22 i = x22 (ix1 (1 : Fin 2)) := by
  rw [Read.val_main_v247_apply]
  unfold Read.val_main_v246
  rw [shapeCast_apply (Read.val_main_v245 (F := Ideal) x22) _ _ (ix1 (0 : Fin 1)) (by
    have h1 : (Shape.rowMajor S1 (ix1 (0 : Fin 1))).val < 1 := (Shape.rowMajor S1 _).isLt
    have h2 : (Shape.rowMajor S_ (Read.idx_main_v247 i)).val < 1 := (Shape.rowMajor S_ _).isLt
    exact (Nat.lt_one_iff.mp h1).trans (Nat.lt_one_iff.mp h2).symm), Read.val_main_v245_apply]
  exact congrArg x22 (funext fun a => Fin.ext (by match a with | ⟨0, _⟩ => rfl))

/-- The attention-weighted mix. -/
theorem ref_mixed
    (hw1a : ∀ (k : Fin 128) (j : Fin 512), w1a (ix2 k j) = x14 (ix2 (⟨k.val, by omega⟩ : Fin 384) j))
    (hw1b : ∀ (k : Fin 128) (j : Fin 512), w1b (ix2 k j) = x14 (ix2 (⟨128 + k.val, by omega⟩ : Fin 384) j))
    (hw1c : ∀ (k : Fin 128) (j : Fin 512), w1c (ix2 k j) = x14 (ix2 (⟨256 + k.val, by omega⟩ : Fin 384) j))
    (hb1 : ∀ j : Fin 512, b1 (ix2 (0 : Fin 1) j) = x15 (ix1 j))
    (hb2 : ∀ j : Fin 128, b2 (ix2 (0 : Fin 1) j) = x17 (ix1 j))
    (hc2b : ∀ j : Fin 128, c2b (ix2 (0 : Fin 1) j) = x13 (ix1 j))
    (hattn0 : attn (ix2 (0 : Fin 1) (0 : Fin 2)) = x22 (ix1 (0 : Fin 2)))
    (hattn1 : attn (ix2 (0 : Fin 1) (1 : Fin 2)) = x22 (ix1 (1 : Fin 2)))
    (r : Fin 256000) (j : Fin 128) :
    Read.val_main_v249 (F := Ideal) x0 x1 x2 x4 x5 x6 x7 x8 x9 x10 x11 x12 x13 x14 x15 x16 x17 x22 (ix2 r j)
      = mixed (Read.val_main_v10 (F := Ideal) x0 x2) (Read.val_main_v17 (F := Ideal) x0 x2) (Read.val_main_v34 (F := Ideal) x1 x2 x4) (Read.val_main_v220 (F := Ideal) x0 x1 x2 x4 x5 x6 x7 x8 x9 x10 x11 x12) attn w1a w1b w1c b1 x16 b2 c2b r j := by
  rw [Read.val_main_v249_apply, Read.val_main_v244_apply, Read.val_main_v248_apply, ref_attn_fst, ref_attn_snd,
    ref_generated x0 x1 x2 x4 x14 x15 x16 x17 w1a w1b w1c b1 b2 hw1a hw1b hw1c hb1 hb2,
    ref_gate x0 x1 x2 x4 x5 x6 x7 x8 x9 x10 x11 x12 x13 c2b hc2b, ← hattn0, ← hattn1]
  rfl

/-- The 256-wide classifier input: the mix, then the third feature row. -/
theorem cls_input_fst (r : Fin 256000) (k : Fin 128) (h : k.val < 256) :
    Read.val_main_v250 (F := Ideal) x0 x1 x2 x4 x5 x6 x7 x8 x9 x10 x11 x12 x13 x14 x15 x16 x17 x22 (ix2 r ⟨k.val, h⟩)
      = Read.val_main_v249 (F := Ideal) x0 x1 x2 x4 x5 x6 x7 x8 x9 x10 x11 x12 x13 x14 x15 x16 x17 x22 (ix2 r k) := by
  unfold Read.val_main_v250
  exact concat_cols_fst _ _ _ r k ⟨k.val, h⟩ rfl

theorem cls_input_snd (r : Fin 256000) (k : Fin 128) (h : 128 + k.val < 256) :
    Read.val_main_v250 (F := Ideal) x0 x1 x2 x4 x5 x6 x7 x8 x9 x10 x11 x12 x13 x14 x15 x16 x17 x22 (ix2 r ⟨128 + k.val, h⟩) = (Read.val_main_v34 (F := Ideal) x1 x2 x4) (ix2 r k) := by
  unfold Read.val_main_v250
  exact concat_cols_snd _ _ _ r k ⟨128 + k.val, h⟩ rfl

/-- The classifier's hidden layer. -/
theorem ref_clsHidden
    (hw1a : ∀ (k : Fin 128) (j : Fin 512), w1a (ix2 k j) = x14 (ix2 (⟨k.val, by omega⟩ : Fin 384) j))
    (hw1b : ∀ (k : Fin 128) (j : Fin 512), w1b (ix2 k j) = x14 (ix2 (⟨128 + k.val, by omega⟩ : Fin 384) j))
    (hw1c : ∀ (k : Fin 128) (j : Fin 512), w1c (ix2 k j) = x14 (ix2 (⟨256 + k.val, by omega⟩ : Fin 384) j))
    (hb1 : ∀ j : Fin 512, b1 (ix2 (0 : Fin 1) j) = x15 (ix1 j))
    (hb2 : ∀ j : Fin 128, b2 (ix2 (0 : Fin 1) j) = x17 (ix1 j))
    (hc2b : ∀ j : Fin 128, c2b (ix2 (0 : Fin 1) j) = x13 (ix1 j))
    (hattn0 : attn (ix2 (0 : Fin 1) (0 : Fin 2)) = x22 (ix1 (0 : Fin 2)))
    (hattn1 : attn (ix2 (0 : Fin 1) (1 : Fin 2)) = x22 (ix1 (1 : Fin 2)))
    (hc1a : ∀ (k : Fin 128) (j : Fin 128), c1a (ix2 k j) = x18 (ix2 (⟨k.val, by omega⟩ : Fin 256) j))
    (hc1b : ∀ (k : Fin 128) (j : Fin 128), c1b (ix2 k j) = x18 (ix2 (⟨128 + k.val, by omega⟩ : Fin 256) j))
    (hcb1 : ∀ j : Fin 128, cb1 (ix2 (0 : Fin 1) j) = x19 (ix1 j))
    (r : Fin 256000) (j : Fin 128) :
    Read.val_main_v255 (F := Ideal) x0 x1 x2 x4 x5 x6 x7 x8 x9 x10 x11 x12 x13 x14 x15 x16 x17 x18 x19 x22 (ix2 r j)
      = clsHidden (Read.val_main_v10 (F := Ideal) x0 x2) (Read.val_main_v17 (F := Ideal) x0 x2) (Read.val_main_v34 (F := Ideal) x1 x2 x4) (Read.val_main_v220 (F := Ideal) x0 x1 x2 x4 x5 x6 x7 x8 x9 x10 x11 x12) attn w1a w1b w1c b1 x16 b2 c2b c1a c1b cb1 r j := by
  rw [Read.val_main_v255_apply, Read.val_main_v254_apply, Read.val_main_v251_apply, Read.val_main_v253_apply,
    Read.val_main_v252_apply, Read.val_main_call11_v0_apply, Read.val_main_call11_cst_apply, sum_fin_256]
  simp only [lidx251, ridx251, bidx253, cls_input_fst, cls_input_snd,
    ref_mixed x0 x1 x2 x4 x5 x6 x7 x8 x9 x10 x11 x12 x13 x14 x15 x16 x17 x22 attn w1a w1b w1c b1 b2 c2b hw1a hw1b hw1c hb1 hb2 hc2b hattn0 hattn1,
    ← hc1a, ← hc1b, ← hcb1, Ideal.ofBits_def, Ideal.ofBits_zero_f32]
  rfl

/-- The score of a row. -/
theorem ref_score
    (hw1a : ∀ (k : Fin 128) (j : Fin 512), w1a (ix2 k j) = x14 (ix2 (⟨k.val, by omega⟩ : Fin 384) j))
    (hw1b : ∀ (k : Fin 128) (j : Fin 512), w1b (ix2 k j) = x14 (ix2 (⟨128 + k.val, by omega⟩ : Fin 384) j))
    (hw1c : ∀ (k : Fin 128) (j : Fin 512), w1c (ix2 k j) = x14 (ix2 (⟨256 + k.val, by omega⟩ : Fin 384) j))
    (hb1 : ∀ j : Fin 512, b1 (ix2 (0 : Fin 1) j) = x15 (ix1 j))
    (hb2 : ∀ j : Fin 128, b2 (ix2 (0 : Fin 1) j) = x17 (ix1 j))
    (hc2b : ∀ j : Fin 128, c2b (ix2 (0 : Fin 1) j) = x13 (ix1 j))
    (hattn0 : attn (ix2 (0 : Fin 1) (0 : Fin 2)) = x22 (ix1 (0 : Fin 2)))
    (hattn1 : attn (ix2 (0 : Fin 1) (1 : Fin 2)) = x22 (ix1 (1 : Fin 2)))
    (hc1a : ∀ (k : Fin 128) (j : Fin 128), c1a (ix2 k j) = x18 (ix2 (⟨k.val, by omega⟩ : Fin 256) j))
    (hc1b : ∀ (k : Fin 128) (j : Fin 128), c1b (ix2 k j) = x18 (ix2 (⟨128 + k.val, by omega⟩ : Fin 256) j))
    (hcb1 : ∀ j : Fin 128, cb1 (ix2 (0 : Fin 1) j) = x19 (ix1 j))
    (hcb2 : cb2 (ix2 (0 : Fin 1) (0 : Fin 1)) = x21 (ix1 (0 : Fin 1)))
    (r : Fin 256000) :
    Read.val_main_v265 (F := Ideal) x0 x1 x2 x4 x5 x6 x7 x8 x9 x10 x11 x12 x13 x14 x15 x16 x17 x18 x19 x20 x21 x22 (ix2 r (0 : Fin 1))
      = edgeScoreRow (Read.val_main_v10 (F := Ideal) x0 x2) (Read.val_main_v17 (F := Ideal) x0 x2) (Read.val_main_v34 (F := Ideal) x1 x2 x4) (Read.val_main_v220 (F := Ideal) x0 x1 x2 x4 x5 x6 x7 x8 x9 x10 x11 x12) attn w1a w1b w1c b1 x16 b2 c2b c1a c1b cb1 x20 cb2 r := by
  rw [Read.val_main_v265_apply, Read.val_main_v264_apply, Read.val_main_cst_67_apply, Read.val_main_v263_apply,
    Read.val_main_v262_apply, Read.val_main_cst_66_apply, Read.val_main_v261_apply, Read.val_main_v260_apply,
    Read.val_main_v259_apply, Read.val_main_v256_apply, Read.val_main_v258_apply, Read.val_main_v257_apply]
  simp only [lidx256, ridx256, bidx258,
    ref_clsHidden x0 x1 x2 x4 x5 x6 x7 x8 x9 x10 x11 x12 x13 x14 x15 x16 x17 x18 x19 x22 attn w1a w1b w1c b1 b2 c2b c1a c1b cb1 hw1a hw1b hw1c hb1 hb2 hc2b hattn0 hattn1 hc1a hc1b hcb1,
    ← hcb2, Ideal.ofBits_def, ofBits_one_f32]
  rfl

/-- THE REFERENCE'S LAST STAGE is the edge score of the four feature arrays the reference computes and of any arrays that
    read, index by index, as the reference's weight and bias arguments do. -/
theorem ref3_of
    (hw1a : ∀ (k : Fin 128) (j : Fin 512), w1a (ix2 k j) = x14 (ix2 (⟨k.val, by omega⟩ : Fin 384) j))
    (hw1b : ∀ (k : Fin 128) (j : Fin 512), w1b (ix2 k j) = x14 (ix2 (⟨128 + k.val, by omega⟩ : Fin 384) j))
    (hw1c : ∀ (k : Fin 128) (j : Fin 512), w1c (ix2 k j) = x14 (ix2 (⟨256 + k.val, by omega⟩ : Fin 384) j))
    (hb1 : ∀ j : Fin 512, b1 (ix2 (0 : Fin 1) j) = x15 (ix1 j))
    (hb2 : ∀ j : Fin 128, b2 (ix2 (0 : Fin 1) j) = x17 (ix1 j))
    (hc2b : ∀ j : Fin 128, c2b (ix2 (0 : Fin 1) j) = x13 (ix1 j))
    (hattn0 : attn (ix2 (0 : Fin 1) (0 : Fin 2)) = x22 (ix1 (0 : Fin 2)))
    (hattn1 : attn (ix2 (0 : Fin 1) (1 : Fin 2)) = x22 (ix1 (1 : Fin 2)))
    (hc1a : ∀ (k : Fin 128) (j : Fin 128), c1a (ix2 k j) = x18 (ix2 (⟨k.val, by omega⟩ : Fin 256) j))
    (hc1b : ∀ (k : Fin 128) (j : Fin 128), c1b (ix2 k j) = x18 (ix2 (⟨128 + k.val, by omega⟩ : Fin 256) j))
    (hcb1 : ∀ j : Fin 128, cb1 (ix2 (0 : Fin 1) j) = x19 (ix1 j))
    (hcb2 : cb2 (ix2 (0 : Fin 1) (0 : Fin 1)) = x21 (ix1 (0 : Fin 1))) :
    Read.val_main_v265 (F := Ideal) x0 x1 x2 x4 x5 x6 x7 x8 x9 x10 x11 x12 x13 x14 x15 x16 x17 x18 x19 x20 x21 x22
      = edgeScore (Read.val_main_v10 (F := Ideal) x0 x2) (Read.val_main_v17 (F := Ideal) x0 x2) (Read.val_main_v34 (F := Ideal) x1 x2 x4) (Read.val_main_v220 (F := Ideal) x0 x1 x2 x4 x5 x6 x7 x8 x9 x10 x11 x12) attn w1a w1b w1c b1 x16 b2 c2b c1a c1b cb1 x20 cb2 := by
  funext i
  obtain ⟨r, q, rfl⟩ : ∃ (r : Fin 256000) (q : Fin 1), i = ix2 r q := ⟨i 0, i 1, eq_ix2 i⟩
  obtain rfl : q = 0 := Subsingleton.elim _ _
  rw [ref_score x0 x1 x2 x4 x5 x6 x7 x8 x9 x10 x11 x12 x13 x14 x15 x16 x17 x18 x19 x20 x21 x22 attn w1a w1b w1c b1 b2 c2b c1a c1b cb1 cb2 hw1a hw1b hw1c hb1 hb2 hc2b hattn0 hattn1 hc1a hc1b hcb1 hcb2]
  exact (edgeScore_apply _ _ _ _ _ _ _ _ _ _ _ _ _ _ _ _ _ _ r rfl).symm

/-- THE REFERENCE'S LAST STAGE against the arrays the region reads as the host writes them: the attention weights and the
    five biases as one-row matrices, the first weights cut by rows out of the joined weights. -/
theorem ref3
    (h173 : (⟨1, ![2]⟩ : Shape).ShapeCasts ⟨2, ![1, 2]⟩)
    (h174 : (⟨2, ![384, 512]⟩ : Shape).Slices ![0, 0] ⟨2, ![128, 512]⟩)
    (h175 : (⟨2, ![384, 512]⟩ : Shape).Slices ![128, 0] ⟨2, ![128, 512]⟩)
    (h176 : (⟨2, ![384, 512]⟩ : Shape).Slices ![256, 0] ⟨2, ![128, 512]⟩)
    (h177 : (⟨1, ![512]⟩ : Shape).ShapeCasts ⟨2, ![1, 512]⟩)
    (h178 h179 : (⟨1, ![128]⟩ : Shape).ShapeCasts ⟨2, ![1, 128]⟩)
    (h180 : (⟨2, ![256, 128]⟩ : Shape).Slices ![0, 0] ⟨2, ![128, 128]⟩)
    (h181 : (⟨2, ![256, 128]⟩ : Shape).Slices ![128, 0] ⟨2, ![128, 128]⟩)
    (h182 : (⟨1, ![128]⟩ : Shape).ShapeCasts ⟨2, ![1, 128]⟩)
    (h183 : (⟨1, ![1]⟩ : Shape).ShapeCasts ⟨2, ![1, 1]⟩) :
    Read.val_main_v265 (F := Ideal) x0 x1 x2 x4 x5 x6 x7 x8 x9 x10 x11 x12 x13 x14 x15 x16 x17 x18 x19 x20 x21 x22
      = edgeScore (Read.val_main_v10 (F := Ideal) x0 x2) (Read.val_main_v17 (F := Ideal) x0 x2) (Read.val_main_v34 (F := Ideal) x1 x2 x4) (Read.val_main_v220 (F := Ideal) x0 x1 x2 x4 x5 x6 x7 x8 x9 x10 x11 x12)
          (shapeCast ⟨2, ![1, 2]⟩ (x22 : (⟨1, ![2]⟩ : Shape).Idx → EReal) h173)
          (extractStridedSlice ⟨2, ![128, 512]⟩ ![0, 0] (x14 : (⟨2, ![384, 512]⟩ : Shape).Idx → EReal) h174)
          (extractStridedSlice ⟨2, ![128, 512]⟩ ![128, 0] (x14 : (⟨2, ![384, 512]⟩ : Shape).Idx → EReal) h175)
          (extractStridedSlice ⟨2, ![128, 512]⟩ ![256, 0] (x14 : (⟨2, ![384, 512]⟩ : Shape).Idx → EReal) h176)
          (shapeCast ⟨2, ![1, 512]⟩ (x15 : (⟨1, ![512]⟩ : Shape).Idx → EReal) h177) x16
          (shapeCast ⟨2, ![1, 128]⟩ (x17 : (⟨1, ![128]⟩ : Shape).Idx → EReal) h178)
          (shapeCast ⟨2, ![1, 128]⟩ (x13 : (⟨1, ![128]⟩ : Shape).Idx → EReal) h179)
          (extractStridedSlice ⟨2, ![128, 128]⟩ ![0, 0] (x18 : (⟨2, ![256, 128]⟩ : Shape).Idx → EReal) h180)
          (extractStridedSlice ⟨2, ![128, 128]⟩ ![128, 0] (x18 : (⟨2, ![256, 128]⟩ : Shape).Idx → EReal) h181)
          (shapeCast ⟨2, ![1, 128]⟩ (x19 : (⟨1, ![128]⟩ : Shape).Idx → EReal) h182) x20
          (shapeCast ⟨2, ![1, 1]⟩ (x21 : (⟨1, ![1]⟩ : Shape).Idx → EReal) h183) :=
  ref3_of x0 x1 x2 x4 x5 x6 x7 x8 x9 x10 x11 x12 x13 x14 x15 x16 x17 x18 x19 x20 x21 x22 _ _ _ _ _ _ _ _ _ _ _
    (fun k j => slice2_axis0_apply 0 _ h174 k j ⟨k.val, by omega⟩ (Nat.zero_add _).symm)
    (fun k j => slice2_axis0_apply 128 _ h175 k j ⟨128 + k.val, by omega⟩ rfl)
    (fun k j => slice2_axis0_apply 256 _ h176 k j ⟨256 + k.val, by omega⟩ rfl)
    (fun j => shapeCast_a_1a_apply _ h177 0 j)
    (fun j => shapeCast_a_1a_apply _ h178 0 j)
    (fun j => shapeCast_a_1a_apply _ h179 0 j)
    (shapeCast_a_1a_apply _ h173 0 0) (shapeCast_a_1a_apply _ h173 0 1)
    (fun k j => slice2_axis0_apply 0 _ h180 k j ⟨k.val, by omega⟩ (Nat.zero_add _).symm)
    (fun k j => slice2_axis0_apply 128 _ h181 k j ⟨128 + k.val, by omega⟩ rfl)
    (fun j => shapeCast_a_1a_apply _ h182 0 j)
    (shapeCast_a_1a_apply _ h183 0 0)

end Reference

end Cert.Bridge.Region3

end
-- ==== Proof.Result.lean ====
import proofs.«166373_j81312320848270_2_alg».proof.Proof.Assemble
import proofs.«166373_j81312320848270_2_alg».proof.Proof.Region3
import proofs.«166373_j81312320848270_2_alg».proof.Proof.Region3Ref

noncomputable section

namespace Cert.Bridge.Assemble

open Idealize.ShloMosaic Idealize.ShloMosaic.TcCoe Idealize.SL.Sem Idealize.ShloMosaic.StableHlo
open Cert.KernelIdeal Cert.KernelIdeal.Gen

open Cert.Bridge.Host Cert.Bridge.Levels

variable (m : (ℓ : Loc nD τ sig) → Buf (Elt Ideal) ℓ) (ρ : Dev nD → PrngReg) (c : Dev nD)

set_option maxHeartbeats 8000000 in
/-- After the fourth launch: the edge score. -/
theorem result_eq : W16 m ρ c (Proc.devRef .tc main_v184) = Cert.ReferenceIdeal.Read.val_main_v265 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W16_arr m ρ c 17).trans ?_
  rw [Cert.Bridge.Region3.final3 (V15 m ρ) c]
  dsimp only [Cert.Bridge.Region3.scoreOf]
  rw [show V15 m ρ c main_v14 = _ from v14_W15 m ρ c, show V15 m ρ c main_v21 = _ from v21_W15 m ρ c,
    show V15 m ρ c main_v35 = _ from v35_W15 m ρ c,
    show V15 m ρ c main_v172 = _ from v172_W15 m ρ c (firstLaunch m ρ c) (thirdLaunch m ρ c)]
  dsimp only [V15, W15, hostOps3]
  after_results_simp
  rw [arg13_W14 m ρ c, arg14_W14 m ρ c, arg15_W14 m ρ c, arg16_W14 m ρ c, arg17_W14 m ρ c, arg18_W14 m ρ c,
    arg19_W14 m ρ c, arg20_W14 m ρ c, arg21_W14 m ρ c, arg22_W14 m ρ c]
  exact (Cert.Bridge.Region3.ref3 _ _ _ _ _ _ _ _ _ _ _ _ _ _ _ _ _ _ _ _ _ _ _ _ _ _ _ _ _ _ _ _ _).symm

end Cert.Bridge.Assemble

end
-- ==== Proof.lean ====
/- The kernel program computes a hypergraph edge score in four kernel launches (the per-node weight; the first
   convolution's linear map; bias, logistic and the second convolution's linear map; the generator, the combination
   and the classifier) between stretches of host operations (gathers, the degree normalisers, the message passing by
   scatter-adds). The reference computes the same score by host operations only. At the ideal instance the two
   results are one array: the host stretches are the same operations on both sides, and each launch's result is its
   reference stage — a matrix product against a row-split weight is the product of the concatenated rows against the
   whole weight (a finite sum over 256 or 384 terms split into its 128-term pieces, a commutative-monoid law of the
   extended reals), a product with a one-column weight is a lane sum, and the kernel's logistic is the reference's
   1 / (1 + exp (-x)). No finiteness of the inputs is used. -/
import proofs.«166373_j81312320848270_2_alg».proof.Defs
import proofs.«166373_j81312320848270_2_alg».proof.Proof.Gen.Kernel
import proofs.«166373_j81312320848270_2_alg».proof.Proof.Gen.Kernel.Skeleton
import proofs.«166373_j81312320848270_2_alg».proof.Proof.Gen.Kernel.Launch
import proofs.«166373_j81312320848270_2_alg».proof.Proof.Gen.Kernel.Points
import proofs.«166373_j81312320848270_2_alg».proof.Proof.Gen.Kernel.Frame
import proofs.«166373_j81312320848270_2_alg».proof.Proof.Gen.KernelIdeal
import proofs.«166373_j81312320848270_2_alg».proof.Proof.Gen.KernelIdeal.Skeleton
import proofs.«166373_j81312320848270_2_alg».proof.Proof.Gen.KernelIdeal.Launch
import proofs.«166373_j81312320848270_2_alg».proof.Proof.Gen.KernelIdeal.Points
import proofs.«166373_j81312320848270_2_alg».proof.Proof.Gen.KernelIdeal.Frame
import proofs.«166373_j81312320848270_2_alg».proof.Proof.Gen.ReferenceIdeal
import proofs.«166373_j81312320848270_2_alg».proof.Proof.Gen.Pre_finite_inputs
import proofs.«166373_j81312320848270_2_alg».proof.Proof.RefRun
import proofs.«166373_j81312320848270_2_alg».proof.Proof.RefRead
import proofs.«166373_j81312320848270_2_alg».proof.Proof.KernelRun
import proofs.«166373_j81312320848270_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs end with the reference's last stage applied to the argument arrays: the kernel program by the
    chain of its launches and stretches, the reference by its run; the arguments agree by hypothesis. -/
theorem algebraic : Cert.algebraic_KernelIdeal_ReferenceIdeal := by
  intro m ρ m' ρ' _ hagree
  refine ⟨fun c => Cert.ReferenceIdeal.Read.val_main_v265 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.Bridge.Assemble.result_eq m ρ c), (h c).2⟩) (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    rw [Cert.ReferenceIdeal.Read.val_main_v265_eq, e0, e1, e2, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
